-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S128x128 .f32) (main_arg13 : FVec F S128 .f32) (main_arg14 : FVec F S128x128 .f32) (main_arg15 : FVec F S128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 91
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S100000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_8 : Ref sig .tc := ⟨.hbm, 72, rfl⟩
abbrev main_v45 : Ref sig .tc := ⟨.hbm, 73, rfl⟩
abbrev main_v46 : Ref sig .tc := ⟨.hbm, 74, rfl⟩
abbrev main_c_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 241
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S100000x128, .f32⟩
  | 51 => ⟨S100000x128, .f32⟩
  | 52 => ⟨S_, .f32⟩
  | 53 => ⟨S100000, .f32⟩
  | 54 => ⟨S100000x1, .f32⟩
  | 55 => ⟨S_, .f32⟩
  | 56 => ⟨S100000x1, .f32⟩
  | 57 => ⟨S100000x1, .f32⟩
  | 58 => ⟨S100000x128, .f32⟩
  | 59 => ⟨S100000x128, .f32⟩
  | 60 => ⟨S100000x128, .f32⟩
  | 61 => ⟨S_, .f32⟩
  | 62 => ⟨S100000, .f32⟩
  | 63 => ⟨S100000x1, .f32⟩
  | 64 => ⟨S_, .f32⟩
  | 65 => ⟨S100000x1, .f32⟩
  | 66 => ⟨S100000x1, .f32⟩
  | 67 => ⟨S100000x128, .f32⟩
  | 68 => ⟨S100000x128, .f32⟩
  | 69 => ⟨S_, .f32⟩
  | 70 => ⟨S100000x1, .f32⟩
  | 71 => ⟨S100000x1, .f32⟩
  | 72 => ⟨S100000x1, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .i1⟩
  | 84 => ⟨S_, .f32⟩
  | 85 => ⟨S100000x128, .f32⟩
  | 86 => ⟨S100000x128, .i1⟩
  | 87 => ⟨S_, .f32⟩
  | 88 => ⟨S_, .f32⟩
  | 89 => ⟨S100000x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x128, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S_, .f32⟩
  | 106 => ⟨S100000x128, .f32⟩
  | 107 => ⟨S1600000x1, .i32⟩
  | 108 => ⟨S100000x128, .f32⟩
  | 109 => ⟨S_, .f32⟩
  | 110 => ⟨S1600000, .f32⟩
  | 111 => ⟨S_, .f32⟩
  | 112 => ⟨S100000, .f32⟩
  | 113 => ⟨S1600000x1, .i32⟩
  | 114 => ⟨S100000, .f32⟩
  | 115 => ⟨S_, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000, .f32⟩
  | 1 => ⟨S100000x1, .f32⟩
  | 2 => ⟨S_, .f32⟩
  | 3 => ⟨S100000x1, .f32⟩
  | 4 => ⟨S100000x1, .f32⟩
  | 5 => ⟨S100000x128, .f32⟩
  | 6 => ⟨S100000x128, .f32⟩
  | 7 => ⟨S100000x128, .f32⟩
  | 8 => ⟨S_, .f32⟩
  | 9 => ⟨S100000, .f32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | 16 => ⟨S_, .f32⟩
  | 17 => ⟨S100000x1, .f32⟩
  | 18 => ⟨S100000x1, .f32⟩
  | 19 => ⟨S100000x1, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S_, .f32⟩
  | 29 => ⟨S100000x128, .f32⟩
  | 30 => ⟨S100000x128, .i1⟩
  | 31 => ⟨S_, .f32⟩
  | 32 => ⟨S100000x128, .f32⟩
  | 33 => ⟨S100000x128, .i1⟩
  | 34 => ⟨S_, .f32⟩
  | 35 => ⟨S_, .f32⟩
  | 36 => ⟨S100000x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S100000x128, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S_, .f32⟩
  | 57 => ⟨S1600000, .f32⟩
  | 58 => ⟨S_, .f32⟩
  | 59 => ⟨S100000, .f32⟩
  | 60 => ⟨S1600000x1, .i32⟩
  | 61 => ⟨S100000, .f32⟩
  | 62 => ⟨S_, .f32⟩
  | 63 => ⟨S100000, .f32⟩
  | 64 => ⟨S100000, .f32⟩
  | 65 => ⟨S100000x1, .f32⟩
  | 66 => ⟨S100000x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S100000x128, .f32⟩
  | 73 => ⟨S100000x128, .f32⟩
  | 74 => ⟨S_, .f32⟩
  | 75 => ⟨S100000, .f32⟩
  | 76 => ⟨S100000x1, .f32⟩
  | 77 => ⟨S_, .f32⟩
  | 78 => ⟨S100000x1, .f32⟩
  | 79 => ⟨S100000x1, .f32⟩
  | 80 => ⟨S100000x128, .f32⟩
  | 81 => ⟨S100000x128, .f32⟩
  | 82 => ⟨S100000x128, .f32⟩
  | 83 => ⟨S_, .f32⟩
  | 84 => ⟨S100000, .f32⟩
  | 85 => ⟨S100000x1, .f32⟩
  | 86 => ⟨S_, .f32⟩
  | 87 => ⟨S100000x1, .f32⟩
  | 88 => ⟨S100000x1, .f32⟩
  | 89 => ⟨S100000x128, .f32⟩
  | 90 => ⟨S100000x128, .f32⟩
  | 91 => ⟨S_, .f32⟩
  | 92 => ⟨S100000x1, .f32⟩
  | 93 => ⟨S100000x1, .f32⟩
  | 94 => ⟨S100000x1, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S100000x128, .f32⟩
  | 104 => ⟨S_, .f32⟩
  | 105 => ⟨S100000, .f32⟩
  | 106 => ⟨S100000x1, .f32⟩
  | 107 => ⟨S100000x1, .f32⟩
  | 108 => ⟨S_, .f32⟩
  | 109 => ⟨S100000x1, .f32⟩
  | 110 => ⟨S100000x1, .f32⟩
  | 111 => ⟨S100000x128, .f32⟩
  | 112 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_cst_0 : Ref sig .tc := ⟨.hbm, 84, rfl⟩
abbrev main_call0_v2 : Ref sig .tc := ⟨.hbm, 85, rfl⟩
abbrev main_call0_v3 : Ref sig .tc := ⟨.hbm, 86, rfl⟩
abbrev main_call0_cst_1 : Ref sig .tc := ⟨.hbm, 87, rfl⟩
abbrev main_call0_call0_v0 : Ref sig .tc := ⟨.hbm, 88, rfl⟩
abbrev main_call0_call0_v1 : Ref sig .tc := ⟨.hbm, 89, rfl⟩
abbrev main_call0_v4 : Ref sig .tc := ⟨.hbm, 90, rfl⟩
abbrev main_call0_v5 : Ref sig .tc := ⟨.hbm, 91, rfl⟩
abbrev main_call0_cst_2 : Ref sig .tc := ⟨.hbm, 92, rfl⟩
abbrev main_call0_v6 : Ref sig .tc := ⟨.hbm, 93, rfl⟩
abbrev main_call0_v7 : Ref sig .tc := ⟨.hbm, 94, rfl⟩
abbrev main_v53 : Ref sig .tc := ⟨.hbm, 95, rfl⟩
abbrev main_c_9 : Ref sig .tc := ⟨.hbm, 96, rfl⟩
abbrev main_v54 : Ref sig .tc := ⟨.hbm, 97, rfl⟩
abbrev main_v55 : Ref sig .tc := ⟨.hbm, 98, rfl⟩
abbrev main_c_10 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_11 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_12 : Ref sig .tc := ⟨.hbm, 109, rfl⟩
abbrev main_v64 : Ref sig .tc := ⟨.hbm, 110, rfl⟩
abbrev main_cst_13 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_14 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_15 : Ref sig .tc := ⟨.hbm, 127, rfl⟩
abbrev main_v79 : Ref sig .tc := ⟨.hbm, 128, rfl⟩
abbrev main_v80 : Ref sig .tc := ⟨.hbm, 129, rfl⟩
abbrev main_cst_16 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_cst_17 : Ref sig .tc := ⟨.hbm, 136, rfl⟩
abbrev main_v86 : Ref sig .tc := ⟨.hbm, 137, rfl⟩
abbrev main_v87 : Ref sig .tc := ⟨.hbm, 138, rfl⟩
abbrev main_cst_18 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_19 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_call1_cst : Ref sig .tc := ⟨.hbm, 156, rfl⟩
abbrev main_call1_v0 : Ref sig .tc := ⟨.hbm, 157, rfl⟩
abbrev main_call1_v1 : Ref sig .tc := ⟨.hbm, 158, rfl⟩
abbrev main_call1_cst_0 : Ref sig .tc := ⟨.hbm, 159, rfl⟩
abbrev main_call1_v2 : Ref sig .tc := ⟨.hbm, 160, rfl⟩
abbrev main_call1_v3 : Ref sig .tc := ⟨.hbm, 161, rfl⟩
abbrev main_call1_cst_1 : Ref sig .tc := ⟨.hbm, 162, rfl⟩
abbrev main_call1_call0_v0 : Ref sig .tc := ⟨.hbm, 163, rfl⟩
abbrev main_call1_call0_v1 : Ref sig .tc := ⟨.hbm, 164, rfl⟩
abbrev main_call1_v4 : Ref sig .tc := ⟨.hbm, 165, rfl⟩
abbrev main_call1_v5 : Ref sig .tc := ⟨.hbm, 166, rfl⟩
abbrev main_call1_cst_2 : Ref sig .tc := ⟨.hbm, 167, rfl⟩
abbrev main_call1_v6 : Ref sig .tc := ⟨.hbm, 168, rfl⟩
abbrev main_call1_v7 : Ref sig .tc := ⟨.hbm, 169, rfl⟩
abbrev main_v103 : Ref sig .tc := ⟨.hbm, 170, rfl⟩
abbrev main_c_20 : Ref sig .tc := ⟨.hbm, 171, rfl⟩
abbrev main_v104 : Ref sig .tc := ⟨.hbm, 172, rfl⟩
abbrev main_v105 : Ref sig .tc := ⟨.hbm, 173, rfl⟩
abbrev main_c_21 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_cst_22 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_cst_23 : Ref sig .tc := ⟨.hbm, 184, rfl⟩
abbrev main_v114 : Ref sig .tc := ⟨.hbm, 185, rfl⟩
abbrev main_cst_24 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_25 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_cst_26 : Ref sig .tc := ⟨.hbm, 202, rfl⟩
abbrev main_v129 : Ref sig .tc := ⟨.hbm, 203, rfl⟩
abbrev main_v130 : Ref sig .tc := ⟨.hbm, 204, rfl⟩
abbrev main_cst_27 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_28 : Ref sig .tc := ⟨.hbm, 211, rfl⟩
abbrev main_v136 : Ref sig .tc := ⟨.hbm, 212, rfl⟩
abbrev main_v137 : Ref sig .tc := ⟨.hbm, 213, rfl⟩
abbrev main_cst_29 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_30 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_cst_31 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_cst_32 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibWords.lean ====
/-
  The five 32-bit patterns the two programs spell, as the extended reals they denote: +0.0 is 0, 2.0 is the
  real 2, the all-ones exponent with a zero significand is +∞, 32768.0 = 2¹⁵ is the real 32768, and 1.0 is 1.
  A normal pattern with exponent field E and significand field T denotes (2²³ + T) · 2^(E − 127 − 23).
-/
import Idealize.ShloMosaic.PureOps.Ideal

noncomputable section

namespace Cert.Chamfer.Words

open Idealize.ShloMosaic

/-- +0.0 denotes 0. -/
theorem ofBits_zero : Ideal.ofBits .f32 0x00000000#32 = 0 := by
  simp [Ideal.ofBits, Ideal.ieee]

/-- 2.0: exponent field 128, significand field 0, so 2²³ · 2^(128 − 150) = 2. -/
theorem ofBits_two : Ideal.ofBits .f32 0x40000000#32 = ((2 : ℝ) : EReal) := by
  simp [Ideal.ofBits, Ideal.ieee, -EReal.coe_mul]; norm_num

/-- The all-ones exponent with a zero significand and a clear sign bit denotes +∞. -/
theorem ofBits_top : Ideal.ofBits .f32 0x7F800000#32 = ⊤ := by
  simp [Ideal.ofBits, Ideal.ieee]

/-- 32768.0: exponent field 142, significand field 0, so 2²³ · 2^(142 − 150) = 2¹⁵. -/
theorem ofBits_32768 : Ideal.ofBits .f32 0x47000000#32 = ((32768 : ℝ) : EReal) := by
  simp [Ideal.ofBits, Ideal.ieee, -EReal.coe_mul]; norm_num

/-- 1.0: exponent field 127, significand field 0, so 2²³ · 2^(127 − 150) = 1. -/
theorem ofBits_one : Ideal.ofBits .f32 0x3F800000#32 = 1 := by
  simp [Ideal.ofBits, Ideal.ieee, -EReal.coe_mul]; norm_num

end Cert.Chamfer.Words

end
-- ==== Proof.LibSageNorm.lean ====
/-
  One graph-convolution layer with mean aggregation, read row by row on the extended reals.

  For a node r the layer forms the affine row
      lin r j = (∑ k, M r k · Wl k j  +  ∑ k, X r k · Wr k j) + bl j,
  where M is the neighbourhood mean and X the node's own features, then normalises the row
      mu = (∑ j, lin r j) / 128,   var = (∑ j, (lin r j − mu)²) / 128,
      y j = (lin r j − mu) · (var + ε)^(−1/2) · g j + b j,
  and finishes either with the exponential linear unit (y where y > 0, eˣ − 1 elsewhere) or by dividing the row by
  the larger of its Euclidean norm and a tiny constant.  An entry of the result reads one row of M and of X and nothing
  else of them, which is what lets a block of rows be computed from a block of rows.
-/
import Idealize.ShloMosaic.PureOps.Ideal
import Idealize.ShloMosaic.Lib.ValueIdx
import proofs.«112205_j9818295239157_1_alg».proof.Proof.LibDense
import proofs.«112205_j9818295239157_1_alg».proof.Proof.LibWords

noncomputable section

namespace Cert.Sage

open Idealize.ShloMosaic Idealize.ShloMosaic.ValueIdx

/-- The mean of a row: its sum over the count of its entries (the word of 128.0). -/
def rowMean {d : ℕ} (h : Fin d → EReal) : EReal :=
  Ideal.div (∑ q : Fin d, h q) (Ideal.ofBits .f32 0x43000000#32)

/-- A row centred at its mean. -/
def centred {d : ℕ} (h : Fin d → EReal) (q : Fin d) : EReal := h q - rowMean h

/-- The row's variance plus the small constant ε (the word of 1e-5), through the reciprocal square root. -/
def invStd {d : ℕ} (h : Fin d → EReal) : EReal :=
  Ideal.rsqrt (Ideal.div (∑ q : Fin d, centred h q * centred h q) (Ideal.ofBits .f32 0x43000000#32)
    + Ideal.ofBits .f32 0x3727C5AC#32)

/-- A row normalised to mean 0 and variance 1, then scaled by g and shifted by b. -/
def lnRow {d : ℕ} (g b h : Fin d → EReal) (j : Fin d) : EReal :=
  centred h j * invStd h * g j + b j

/-- The exponential linear unit: y above zero, eʸ − 1 elsewhere. -/
def elu (y : EReal) : EReal :=
  if Ideal.ofBits .f32 0x00000000#32 < y then y else Ideal.exp y - Ideal.ofBits .f32 0x3F800000#32

/-- A row divided by the larger of its Euclidean norm and a tiny constant (the word of 1e-12). -/
def l2Row {d : ℕ} (y : Fin d → EReal) (j : Fin d) : EReal :=
  Ideal.div (y j) (max (Ideal.sqrt (∑ q : Fin d, y q * y q)) (Ideal.ofBits .f32 0x2B8CBCCC#32))

/-- The affine row of node `r`, with the bias and the two scale rows given as `[1, d]` rows. -/
def linRow {n K d : ℕ} (M X : (⟨2, ![n, K]⟩ : Shape).Idx → EReal) (Wl Wr : (⟨2, ![K, d]⟩ : Shape).Idx → EReal)
    (bl : (⟨2, ![1, d]⟩ : Shape).Idx → EReal) (r : Fin n) (q : Fin d) : EReal :=
  (LibDense.prod M Wl (ix2 r q) + LibDense.prod X Wr (ix2 r q)) + bl (ix2 ⟨0, Nat.one_pos⟩ q)

/-- The normalised row of node `r`. -/
def normRow {n K d : ℕ} (M X : (⟨2, ![n, K]⟩ : Shape).Idx → EReal) (Wl Wr : (⟨2, ![K, d]⟩ : Shape).Idx → EReal)
    (bl g b : (⟨2, ![1, d]⟩ : Shape).Idx → EReal) (r : Fin n) (q : Fin d) : EReal :=
  lnRow (fun q => g (ix2 ⟨0, Nat.one_pos⟩ q)) (fun q => b (ix2 ⟨0, Nat.one_pos⟩ q)) (linRow M X Wl Wr bl r) q

/-- A hidden layer: normalise, then the exponential linear unit. -/
def layerElu {n K d : ℕ} (M X : (⟨2, ![n, K]⟩ : Shape).Idx → EReal) (Wl Wr : (⟨2, ![K, d]⟩ : Shape).Idx → EReal)
    (bl g b : (⟨2, ![1, d]⟩ : Shape).Idx → EReal) : (⟨2, ![n, d]⟩ : Shape).Idx → EReal :=
  fun i => elu (normRow M X Wl Wr bl g b (i 0) (i 1))

/-- The last layer: normalise, then divide each row by its clamped Euclidean norm. -/
def layerL2 {n K d : ℕ} (M X : (⟨2, ![n, K]⟩ : Shape).Idx → EReal) (Wl Wr : (⟨2, ![K, d]⟩ : Shape).Idx → EReal)
    (bl g b : (⟨2, ![1, d]⟩ : Shape).Idx → EReal) : (⟨2, ![n, d]⟩ : Shape).Idx → EReal :=
  fun i => l2Row (normRow M X Wl Wr bl g b (i 0)) (i 1)

/-- The affine row of a node reads one row of each row operand: operands that agree on that row give the same row. -/
theorem linRow_congr {n n' K d : ℕ} (M X : (⟨2, ![n, K]⟩ : Shape).Idx → EReal) (M' X' : (⟨2, ![n', K]⟩ : Shape).Idx → EReal)
    (Wl Wr : (⟨2, ![K, d]⟩ : Shape).Idx → EReal) (bl : (⟨2, ![1, d]⟩ : Shape).Idx → EReal) (r : Fin n) (r' : Fin n')
    (hM : ∀ k : Fin K, M (ix2 r k) = M' (ix2 r' k)) (hX : ∀ k : Fin K, X (ix2 r k) = X' (ix2 r' k)) :
    linRow M X Wl Wr bl r = linRow M' X' Wl Wr bl r' := by
  funext q
  unfold linRow LibDense.prod
  have e0 : ∀ (a : Fin n) (c : Fin d), (ix2 a c : (⟨2, ![n, d]⟩ : Shape).Idx) 0 = a := fun _ _ => rfl
  have e1 : ∀ (a : Fin n) (c : Fin d), (ix2 a c : (⟨2, ![n, d]⟩ : Shape).Idx) 1 = c := fun _ _ => rfl
  have e0' : ∀ (a : Fin n') (c : Fin d), (ix2 a c : (⟨2, ![n', d]⟩ : Shape).Idx) 0 = a := fun _ _ => rfl
  have e1' : ∀ (a : Fin n') (c : Fin d), (ix2 a c : (⟨2, ![n', d]⟩ : Shape).Idx) 1 = c := fun _ _ => rfl
  simp only [e0, e1, e0', e1']
  rw [Finset.sum_congr rfl (fun k _ => congrArg (· * Wl (ix2 k q)) (hM k)),
    Finset.sum_congr rfl (fun k _ => congrArg (· * Wr (ix2 k q)) (hX k))]

/-- The same for a hidden layer, entry by entry. -/
theorem layerElu_congr {n n' K d : ℕ} (M X : (⟨2, ![n, K]⟩ : Shape).Idx → EReal) (M' X' : (⟨2, ![n', K]⟩ : Shape).Idx → EReal)
    (Wl Wr : (⟨2, ![K, d]⟩ : Shape).Idx → EReal) (bl g b : (⟨2, ![1, d]⟩ : Shape).Idx → EReal) (r : Fin n) (r' : Fin n') (j : Fin d)
    (hM : ∀ k : Fin K, M (ix2 r k) = M' (ix2 r' k)) (hX : ∀ k : Fin K, X (ix2 r k) = X' (ix2 r' k)) :
    layerElu M X Wl Wr bl g b (ix2 r j) = layerElu M' X' Wl Wr bl g b (ix2 r' j) := by
  show elu (normRow M X Wl Wr bl g b r j) = elu (normRow M' X' Wl Wr bl g b r' j)
  unfold normRow
  rw [linRow_congr M X M' X' Wl Wr bl r r' hM hX]

/-- The same for the last layer. -/
theorem layerL2_congr {n n' K d : ℕ} (M X : (⟨2, ![n, K]⟩ : Shape).Idx → EReal) (M' X' : (⟨2, ![n', K]⟩ : Shape).Idx → EReal)
    (Wl Wr : (⟨2, ![K, d]⟩ : Shape).Idx → EReal) (bl g b : (⟨2, ![1, d]⟩ : Shape).Idx → EReal) (r : Fin n) (r' : Fin n') (j : Fin d)
    (hM : ∀ k : Fin K, M (ix2 r k) = M' (ix2 r' k)) (hX : ∀ k : Fin K, X (ix2 r k) = X' (ix2 r' k)) :
    layerL2 M X Wl Wr bl g b (ix2 r j) = layerL2 M' X' Wl Wr bl g b (ix2 r' j) := by
  show l2Row (normRow M X Wl Wr bl g b r) j = l2Row (normRow M' X' Wl Wr bl g b r') j
  unfold normRow
  rw [linRow_congr M X M' X' Wl Wr bl r r' hM hX]

/-! ## The two small laws that join the two programs' arrangements -/

/-- Scaling by the reciprocal is dividing, for any divisor other than zero (a divisor at ±∞ gives 0 both ways). -/
theorem mul_recip (x y : EReal) (hy : y ≠ 0) : x * Ideal.div 1 y = Ideal.div x y := by
  unfold Ideal.div
  rw [if_neg hy, if_neg hy, one_mul]

/-- The larger of a count and one is not zero. -/
theorem max_one_ne_zero (c : EReal) : max c 1 ≠ 0 :=
  ne_of_gt (lt_of_lt_of_le zero_lt_one (le_max_right c 1))

/-- The word of 1.0 is the extended real 1. -/
theorem word_one : Ideal.ofBits .f32 0x3F800000#32 = 1 := Cert.Chamfer.Words.ofBits_one

/-- The word of 0.0 is the extended real 0. -/
theorem word_zero : Ideal.ofBits .f32 0x00000000#32 = 0 := Cert.Chamfer.Words.ofBits_zero

end Cert.Sage

end
-- ==== Proof.KVal0.lean ====
/-
  Region 0 of the idealized kernel: what its output array holds when the region is left.

  The region runs the layer body once per block of 5000 consecutive rows (20 blocks).  Block t of the two row operands is
  rows 5000·t … 5000·t + 4999 of their arrays, the weights and the three parameter rows are read whole at every point, and
  the body's result is written back to the same rows of the output array.  An entry of the layer reads only its own row of
  the row operands, so block t of the result is block t of the layer applied to the whole arrays; the 20 blocks cover all
  100000 rows, hence the output array ends holding the layer of the arrays the region found.
-/
import proofs.«112205_j9818295239157_1_alg».proof.Proof.Gen.KernelIdeal.Frame
import proofs.«112205_j9818295239157_1_alg».proof.Proof.LibSageNorm
import Idealize.ShloMosaic.Lib.Pipeline.Value
import Idealize.ShloMosaic.Lib.ValueIdx

set_option maxRecDepth 16384

noncomputable section

namespace Cert.KernelIdeal.KVal0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The layer of the arrays the region finds. -/
def G (c : Dev nD) : S100000x128.Idx → EReal :=
  Cert.Sage.layerElu (V c main_v24) (V c main_arg0) (V c main_arg2) (V c main_arg4) (V c main_v25) (V c main_v26) (V c main_v27)

/-- The printed index maps over the grid: the row operands and the output move with the grid point, the weights and
    the parameter rows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- A weight matrix is read whole at every point. -/
theorem blk2 (c : Dev nD) (t : Fin cfg0.N) : iblk0 V c 2 t = V c main_arg2 := by
  obtain ⟨-, -, -, -, e0, e1, -⟩ := idx_facts t
  funext z
  show V c main_arg2 (((cfg0.win 2).blk t).view.emb z) = V c main_arg2 z
  refine congrArg _ (funext fun a => Fin.ext ?_)
  match a with
  | ⟨0, _⟩ => show win0_2.index t (0 : Fin 2) * 128 + 1 * (z 0).val = (z 0).val; omega
  | ⟨1, _⟩ => show win0_2.index t (1 : Fin 2) * 128 + 1 * (z 1).val = (z 1).val; omega

theorem blk4 (c : Dev nD) (t : Fin cfg0.N) : iblk0 V c 4 t = V c main_arg4 := by
  obtain ⟨-, -, -, -, -, -, -, -, e0, e1, -⟩ := idx_facts t
  funext z
  show V c main_arg4 (((cfg0.win 4).blk t).view.emb z) = V c main_arg4 z
  refine congrArg _ (funext fun a => Fin.ext ?_)
  match a with
  | ⟨0, _⟩ => show win0_4.index t (0 : Fin 2) * 128 + 1 * (z 0).val = (z 0).val; omega
  | ⟨1, _⟩ => show win0_4.index t (1 : Fin 2) * 128 + 1 * (z 1).val = (z 1).val; omega

/-- A parameter row is read whole at every point. -/
theorem blk3 (c : Dev nD) (t : Fin cfg0.N) : iblk0 V c 3 t = V c main_v25 := by
  obtain ⟨-, -, -, -, -, -, e0, e1, -⟩ := idx_facts t
  funext z
  show V c main_v25 (((cfg0.win 3).blk t).view.emb z) = V c main_v25 z
  refine congrArg _ (funext fun a => Fin.ext ?_)
  match a with
  | ⟨0, _⟩ => show win0_3.index t (0 : Fin 2) * 1 + 1 * (z 0).val = (z 0).val; omega
  | ⟨1, _⟩ => show win0_3.index t (1 : Fin 2) * 128 + 1 * (z 1).val = (z 1).val; omega

theorem blk5 (c : Dev nD) (t : Fin cfg0.N) : iblk0 V c 5 t = V c main_v26 := by
  obtain ⟨-, -, -, -, -, -, -, -, -, -, e0, e1, -⟩ := idx_facts t
  funext z
  show V c main_v26 (((cfg0.win 5).blk t).view.emb z) = V c main_v26 z
  refine congrArg _ (funext fun a => Fin.ext ?_)
  match a with
  | ⟨0, _⟩ => show win0_5.index t (0 : Fin 2) * 1 + 1 * (z 0).val = (z 0).val; omega
  | ⟨1, _⟩ => show win0_5.index t (1 : Fin 2) * 128 + 1 * (z 1).val = (z 1).val; omega

theorem blk6 (c : Dev nD) (t : Fin cfg0.N) : iblk0 V c 6 t = V c main_v27 := by
  obtain ⟨-, -, -, -, -, -, -, -, -, -, -, -, e0, e1, -⟩ := idx_facts t
  funext z
  show V c main_v27 (((cfg0.win 6).blk t).view.emb z) = V c main_v27 z
  refine congrArg _ (funext fun a => Fin.ext ?_)
  match a with
  | ⟨0, _⟩ => show win0_6.index t (0 : Fin 2) * 1 + 1 * (z 0).val = (z 0).val; omega
  | ⟨1, _⟩ => show win0_6.index t (1 : Fin 2) * 128 + 1 * (z 1).val = (z 1).val; omega

/-- Row r of block t of a row operand is row 5000·t + r of its array. -/
theorem blk0 (c : Dev nD) (t : Fin cfg0.N) (r : Fin 5000) (k : Fin 128) (R : Fin 100000) (hR : R.val = t.val * 5000 + r.val) :
    iblk0 V c 0 t (ix2 r k) = V c main_v24 (ix2 R k) := by
  obtain ⟨e0, e1, -⟩ := idx_facts t
  show V c main_v24 (((cfg0.win 0).blk t).view.emb (ix2 r k)) = V c main_v24 (ix2 R k)
  refine congrArg _ (funext fun a => Fin.ext ?_)
  match a with
  | ⟨0, _⟩ => show win0_0.index t (0 : Fin 2) * 5000 + 1 * r.val = R.val; omega
  | ⟨1, _⟩ => show win0_0.index t (1 : Fin 2) * 128 + 1 * k.val = k.val; omega

theorem blk1 (c : Dev nD) (t : Fin cfg0.N) (r : Fin 5000) (k : Fin 128) (R : Fin 100000) (hR : R.val = t.val * 5000 + r.val) :
    iblk0 V c 1 t (ix2 r k) = V c main_arg0 (ix2 R k) := by
  obtain ⟨-, -, e0, e1, -⟩ := idx_facts t
  show V c main_arg0 (((cfg0.win 1).blk t).view.emb (ix2 r k)) = V c main_arg0 (ix2 R k)
  refine congrArg _ (funext fun a => Fin.ext ?_)
  match a with
  | ⟨0, _⟩ => show win0_1.index t (0 : Fin 2) * 5000 + 1 * r.val = R.val; omega
  | ⟨1, _⟩ => show win0_1.index t (1 : Fin 2) * 128 + 1 * k.val = k.val; omega

/-- What point t writes back is block t of the layer of the whole arrays. -/
theorem flushed_eq
    (hpay : ∀ (x0 x1 : Vec Ideal S5000x128 .f32) (x2 : Vec Ideal S128x128 .f32) (x3 : Vec Ideal S1x128 .f32)
      (x4 : Vec Ideal S128x128 .f32) (x5 x6 : Vec Ideal S1x128 .f32),
      out0_7 (F := Ideal) x0 x1 x2 x3 x4 x5 x6 = Cert.Sage.layerElu x0 x1 x2 x4 x3 x5 x6)
    (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7, hpay, blk2, blk3, blk4, blk5, blk6]
  obtain ⟨-, -, -, -, -, -, -, -, -, -, -, -, -, -, e0, e1⟩ := idx_facts t
  funext y
  obtain ⟨r, j, rfl⟩ : ∃ (r : Fin 5000) (j : Fin 128), y = ix2 r j := ⟨y 0, y 1, eq_ix2 y⟩
  have hlt : t.val * 5000 + r.val < 100000 := by have ht : t.val < 20 := t.isLt; have := r.isLt; omega
  have hemb : ((cfg0.win 7).blk t).view.emb (ix2 r j) = ix2 (⟨t.val * 5000 + r.val, hlt⟩ : Fin 100000) j := by
    funext a; apply Fin.ext
    match a with
    | ⟨0, _⟩ => show win0_7.index t (0 : Fin 2) * 5000 + 1 * r.val = t.val * 5000 + r.val; omega
    | ⟨1, _⟩ => show win0_7.index t (1 : Fin 2) * 128 + 1 * j.val = j.val; omega
  show Cert.Sage.layerElu (iblk0 V c 0 t) (iblk0 V c 1 t) (V c main_arg2) (V c main_arg4) (V c main_v25) (V c main_v26) (V c main_v27) (ix2 r j)
    = G V c (((cfg0.win 7).blk t).view.emb (ix2 r j))
  rw [hemb]
  exact Cert.Sage.layerElu_congr _ _ _ _ _ _ _ _ _ r ⟨t.val * 5000 + r.val, hlt⟩ j
    (fun k => blk0 V c t r k _ rfl) (fun k => blk1 V c t r k _ rfl)

/-- An index of the output array is in point t's block iff each coordinate is in the block's range on its axis. -/
theorem mem_blk (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v28).slice (win0_7.rect t)).set ↔ _
  rw [View.set_slice_whole, Rect.mem_set_unit]
  exact Iff.rfl

/-- Every row is in the block of the point numbered by its quotient by 5000. -/
theorem cover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  refine ⟨⟨(i 0).val / 5000, by show (i 0).val / 5000 < 20; omega⟩, flush0_7 _, ?_⟩
  obtain ⟨-, -, -, -, -, -, -, -, -, -, -, -, -, -, e0, e1⟩ := idx_facts ⟨(i 0).val / 5000, by show (i 0).val / 5000 < 20; omega⟩
  rw [mem_blk]
  intro a
  match a with
  | ⟨0, _⟩ => show win0_7.index _ (0 : Fin 2) * 5000 ≤ (i 0).val ∧ (i 0).val < win0_7.index _ (0 : Fin 2) * 5000 + 5000; rw [e0]; show (i 0).val / 5000 * 5000 ≤ (i 0).val ∧ (i 0).val < (i 0).val / 5000 * 5000 + 5000; omega
  | ⟨1, _⟩ => show win0_7.index _ (1 : Fin 2) * 128 ≤ (i 1).val ∧ (i 1).val < win0_7.index _ (1 : Fin 2) * 128 + 128; rw [e1]; omega

/-- The output array when the region is left: the layer of the arrays the region found. -/
theorem final
    (hpay : ∀ (x0 x1 : Vec Ideal S5000x128 .f32) (x2 : Vec Ideal S128x128 .f32) (x3 : Vec Ideal S1x128 .f32)
      (x4 : Vec Ideal S128x128 .f32) (x5 x6 : Vec Ideal S1x128 .f32),
      out0_7 (F := Ideal) x0 x1 x2 x3 x4 x5 x6 = Cert.Sage.layerElu x0 x1 x2 x4 x3 x5 x6)
    (c : Dev nD) : (dat0 V c).arrAt 7 cfg0.N = G V c :=
  (dat0 V c).arrAt_eq_of_cover 7 (G V c) (fun t _ => flushed_eq V hpay c t) cover

end Cert.KernelIdeal.KVal0

end
-- ==== Proof.KVal1.lean ====
/-
  Region 1 of the idealized kernel: what its output array holds when the region is left.

  The region runs the layer body once per block of 5000 consecutive rows (20 blocks).  Block t of the two row operands is
  rows 5000·t … 5000·t + 4999 of their arrays, the weights and the three parameter rows are read whole at every point, and
  the body's result is written back to the same rows of the output array.  An entry of the layer reads only its own row of
  the row operands, so block t of the result is block t of the layer applied to the whole arrays; the 20 blocks cover all
  100000 rows, hence the output array ends holding the layer of the arrays the region found.
-/
import proofs.«112205_j9818295239157_1_alg».proof.Proof.Gen.KernelIdeal.Frame
import proofs.«112205_j9818295239157_1_alg».proof.Proof.LibSageNorm
import Idealize.ShloMosaic.Lib.Pipeline.Value
import Idealize.ShloMosaic.Lib.ValueIdx

set_option maxRecDepth 16384

noncomputable section

namespace Cert.KernelIdeal.KVal1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The layer of the arrays the region finds. -/
def G (c : Dev nD) : S100000x128.Idx → EReal :=
  Cert.Sage.layerElu (V c main_v40) (V c main_v28) (V c main_arg7) (V c main_arg9) (V c main_v41) (V c main_v42) (V c main_v43)

/-- The printed index maps over the grid: the row operands and the output move with the grid point, the weights and
    the parameter rows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- A weight matrix is read whole at every point. -/
theorem blk2 (c : Dev nD) (t : Fin cfg1.N) : iblk1 V c 2 t = V c main_arg7 := by
  obtain ⟨-, -, -, -, e0, e1, -⟩ := idx_facts t
  funext z
  show V c main_arg7 (((cfg1.win 2).blk t).view.emb z) = V c main_arg7 z
  refine congrArg _ (funext fun a => Fin.ext ?_)
  match a with
  | ⟨0, _⟩ => show win1_2.index t (0 : Fin 2) * 128 + 1 * (z 0).val = (z 0).val; omega
  | ⟨1, _⟩ => show win1_2.index t (1 : Fin 2) * 128 + 1 * (z 1).val = (z 1).val; omega

theorem blk4 (c : Dev nD) (t : Fin cfg1.N) : iblk1 V c 4 t = V c main_arg9 := by
  obtain ⟨-, -, -, -, -, -, -, -, e0, e1, -⟩ := idx_facts t
  funext z
  show V c main_arg9 (((cfg1.win 4).blk t).view.emb z) = V c main_arg9 z
  refine congrArg _ (funext fun a => Fin.ext ?_)
  match a with
  | ⟨0, _⟩ => show win1_4.index t (0 : Fin 2) * 128 + 1 * (z 0).val = (z 0).val; omega
  | ⟨1, _⟩ => show win1_4.index t (1 : Fin 2) * 128 + 1 * (z 1).val = (z 1).val; omega

/-- A parameter row is read whole at every point. -/
theorem blk3 (c : Dev nD) (t : Fin cfg1.N) : iblk1 V c 3 t = V c main_v41 := by
  obtain ⟨-, -, -, -, -, -, e0, e1, -⟩ := idx_facts t
  funext z
  show V c main_v41 (((cfg1.win 3).blk t).view.emb z) = V c main_v41 z
  refine congrArg _ (funext fun a => Fin.ext ?_)
  match a with
  | ⟨0, _⟩ => show win1_3.index t (0 : Fin 2) * 1 + 1 * (z 0).val = (z 0).val; omega
  | ⟨1, _⟩ => show win1_3.index t (1 : Fin 2) * 128 + 1 * (z 1).val = (z 1).val; omega

theorem blk5 (c : Dev nD) (t : Fin cfg1.N) : iblk1 V c 5 t = V c main_v42 := by
  obtain ⟨-, -, -, -, -, -, -, -, -, -, e0, e1, -⟩ := idx_facts t
  funext z
  show V c main_v42 (((cfg1.win 5).blk t).view.emb z) = V c main_v42 z
  refine congrArg _ (funext fun a => Fin.ext ?_)
  match a with
  | ⟨0, _⟩ => show win1_5.index t (0 : Fin 2) * 1 + 1 * (z 0).val = (z 0).val; omega
  | ⟨1, _⟩ => show win1_5.index t (1 : Fin 2) * 128 + 1 * (z 1).val = (z 1).val; omega

theorem blk6 (c : Dev nD) (t : Fin cfg1.N) : iblk1 V c 6 t = V c main_v43 := by
  obtain ⟨-, -, -, -, -, -, -, -, -, -, -, -, e0, e1, -⟩ := idx_facts t
  funext z
  show V c main_v43 (((cfg1.win 6).blk t).view.emb z) = V c main_v43 z
  refine congrArg _ (funext fun a => Fin.ext ?_)
  match a with
  | ⟨0, _⟩ => show win1_6.index t (0 : Fin 2) * 1 + 1 * (z 0).val = (z 0).val; omega
  | ⟨1, _⟩ => show win1_6.index t (1 : Fin 2) * 128 + 1 * (z 1).val = (z 1).val; omega

/-- Row r of block t of a row operand is row 5000·t + r of its array. -/
theorem blk0 (c : Dev nD) (t : Fin cfg1.N) (r : Fin 5000) (k : Fin 128) (R : Fin 100000) (hR : R.val = t.val * 5000 + r.val) :
    iblk1 V c 0 t (ix2 r k) = V c main_v40 (ix2 R k) := by
  obtain ⟨e0, e1, -⟩ := idx_facts t
  show V c main_v40 (((cfg1.win 0).blk t).view.emb (ix2 r k)) = V c main_v40 (ix2 R k)
  refine congrArg _ (funext fun a => Fin.ext ?_)
  match a with
  | ⟨0, _⟩ => show win1_0.index t (0 : Fin 2) * 5000 + 1 * r.val = R.val; omega
  | ⟨1, _⟩ => show win1_0.index t (1 : Fin 2) * 128 + 1 * k.val = k.val; omega

theorem blk1 (c : Dev nD) (t : Fin cfg1.N) (r : Fin 5000) (k : Fin 128) (R : Fin 100000) (hR : R.val = t.val * 5000 + r.val) :
    iblk1 V c 1 t (ix2 r k) = V c main_v28 (ix2 R k) := by
  obtain ⟨-, -, e0, e1, -⟩ := idx_facts t
  show V c main_v28 (((cfg1.win 1).blk t).view.emb (ix2 r k)) = V c main_v28 (ix2 R k)
  refine congrArg _ (funext fun a => Fin.ext ?_)
  match a with
  | ⟨0, _⟩ => show win1_1.index t (0 : Fin 2) * 5000 + 1 * r.val = R.val; omega
  | ⟨1, _⟩ => show win1_1.index t (1 : Fin 2) * 128 + 1 * k.val = k.val; omega

/-- What point t writes back is block t of the layer of the whole arrays. -/
theorem flushed_eq
    (hpay : ∀ (x0 x1 : Vec Ideal S5000x128 .f32) (x2 : Vec Ideal S128x128 .f32) (x3 : Vec Ideal S1x128 .f32)
      (x4 : Vec Ideal S128x128 .f32) (x5 x6 : Vec Ideal S1x128 .f32),
      out1_7 (F := Ideal) x0 x1 x2 x3 x4 x5 x6 = Cert.Sage.layerElu x0 x1 x2 x4 x3 x5 x6)
    (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7, hpay, blk2, blk3, blk4, blk5, blk6]
  obtain ⟨-, -, -, -, -, -, -, -, -, -, -, -, -, -, e0, e1⟩ := idx_facts t
  funext y
  obtain ⟨r, j, rfl⟩ : ∃ (r : Fin 5000) (j : Fin 128), y = ix2 r j := ⟨y 0, y 1, eq_ix2 y⟩
  have hlt : t.val * 5000 + r.val < 100000 := by have ht : t.val < 20 := t.isLt; have := r.isLt; omega
  have hemb : ((cfg1.win 7).blk t).view.emb (ix2 r j) = ix2 (⟨t.val * 5000 + r.val, hlt⟩ : Fin 100000) j := by
    funext a; apply Fin.ext
    match a with
    | ⟨0, _⟩ => show win1_7.index t (0 : Fin 2) * 5000 + 1 * r.val = t.val * 5000 + r.val; omega
    | ⟨1, _⟩ => show win1_7.index t (1 : Fin 2) * 128 + 1 * j.val = j.val; omega
  show Cert.Sage.layerElu (iblk1 V c 0 t) (iblk1 V c 1 t) (V c main_arg7) (V c main_arg9) (V c main_v41) (V c main_v42) (V c main_v43) (ix2 r j)
    = G V c (((cfg1.win 7).blk t).view.emb (ix2 r j))
  rw [hemb]
  exact Cert.Sage.layerElu_congr _ _ _ _ _ _ _ _ _ r ⟨t.val * 5000 + r.val, hlt⟩ j
    (fun k => blk0 V c t r k _ rfl) (fun k => blk1 V c t r k _ rfl)

/-- An index of the output array is in point t's block iff each coordinate is in the block's range on its axis. -/
theorem mem_blk (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v44).slice (win1_7.rect t)).set ↔ _
  rw [View.set_slice_whole, Rect.mem_set_unit]
  exact Iff.rfl

/-- Every row is in the block of the point numbered by its quotient by 5000. -/
theorem cover (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  refine ⟨⟨(i 0).val / 5000, by show (i 0).val / 5000 < 20; omega⟩, flush1_7 _, ?_⟩
  obtain ⟨-, -, -, -, -, -, -, -, -, -, -, -, -, -, e0, e1⟩ := idx_facts ⟨(i 0).val / 5000, by show (i 0).val / 5000 < 20; omega⟩
  rw [mem_blk]
  intro a
  match a with
  | ⟨0, _⟩ => show win1_7.index _ (0 : Fin 2) * 5000 ≤ (i 0).val ∧ (i 0).val < win1_7.index _ (0 : Fin 2) * 5000 + 5000; rw [e0]; show (i 0).val / 5000 * 5000 ≤ (i 0).val ∧ (i 0).val < (i 0).val / 5000 * 5000 + 5000; omega
  | ⟨1, _⟩ => show win1_7.index _ (1 : Fin 2) * 128 ≤ (i 1).val ∧ (i 1).val < win1_7.index _ (1 : Fin 2) * 128 + 128; rw [e1]; omega

/-- The output array when the region is left: the layer of the arrays the region found. -/
theorem final
    (hpay : ∀ (x0 x1 : Vec Ideal S5000x128 .f32) (x2 : Vec Ideal S128x128 .f32) (x3 : Vec Ideal S1x128 .f32)
      (x4 : Vec Ideal S128x128 .f32) (x5 x6 : Vec Ideal S1x128 .f32),
      out1_7 (F := Ideal) x0 x1 x2 x3 x4 x5 x6 = Cert.Sage.layerElu x0 x1 x2 x4 x3 x5 x6)
    (c : Dev nD) : (dat1 V c).arrAt 7 cfg1.N = G V c :=
  (dat1 V c).arrAt_eq_of_cover 7 (G V c) (fun t _ => flushed_eq V hpay c t) cover

end Cert.KernelIdeal.KVal1

end
-- ==== Proof.KVal2.lean ====
/-
  Region 2 of the idealized kernel: what its output array holds when the region is left.

  The region runs the layer body once per block of 5000 consecutive rows (20 blocks).  Block t of the two row operands is
  rows 5000·t … 5000·t + 4999 of their arrays, the weights and the three parameter rows are read whole at every point, and
  the body's result is written back to the same rows of the output array.  An entry of the layer reads only its own row of
  the row operands, so block t of the result is block t of the layer applied to the whole arrays; the 20 blocks cover all
  100000 rows, hence the output array ends holding the layer of the arrays the region found.
-/
import proofs.«112205_j9818295239157_1_alg».proof.Proof.Gen.KernelIdeal.Frame
import proofs.«112205_j9818295239157_1_alg».proof.Proof.LibSageNorm
import Idealize.ShloMosaic.Lib.Pipeline.Value
import Idealize.ShloMosaic.Lib.ValueIdx

set_option maxRecDepth 16384

noncomputable section

namespace Cert.KernelIdeal.KVal2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The layer of the arrays the region finds. -/
def G (c : Dev nD) : S100000x128.Idx → EReal :=
  Cert.Sage.layerL2 (V c main_v56) (V c main_v44) (V c main_arg12) (V c main_arg14) (V c main_v57) (V c main_v58) (V c main_v59)

/-- The printed index maps over the grid: the row operands and the output move with the grid point, the weights and
    the parameter rows stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- A weight matrix is read whole at every point. -/
theorem blk2 (c : Dev nD) (t : Fin cfg2.N) : iblk2 V c 2 t = V c main_arg12 := by
  obtain ⟨-, -, -, -, e0, e1, -⟩ := idx_facts t
  funext z
  show V c main_arg12 (((cfg2.win 2).blk t).view.emb z) = V c main_arg12 z
  refine congrArg _ (funext fun a => Fin.ext ?_)
  match a with
  | ⟨0, _⟩ => show win2_2.index t (0 : Fin 2) * 128 + 1 * (z 0).val = (z 0).val; omega
  | ⟨1, _⟩ => show win2_2.index t (1 : Fin 2) * 128 + 1 * (z 1).val = (z 1).val; omega

theorem blk4 (c : Dev nD) (t : Fin cfg2.N) : iblk2 V c 4 t = V c main_arg14 := by
  obtain ⟨-, -, -, -, -, -, -, -, e0, e1, -⟩ := idx_facts t
  funext z
  show V c main_arg14 (((cfg2.win 4).blk t).view.emb z) = V c main_arg14 z
  refine congrArg _ (funext fun a => Fin.ext ?_)
  match a with
  | ⟨0, _⟩ => show win2_4.index t (0 : Fin 2) * 128 + 1 * (z 0).val = (z 0).val; omega
  | ⟨1, _⟩ => show win2_4.index t (1 : Fin 2) * 128 + 1 * (z 1).val = (z 1).val; omega

/-- A parameter row is read whole at every point. -/
theorem blk3 (c : Dev nD) (t : Fin cfg2.N) : iblk2 V c 3 t = V c main_v57 := by
  obtain ⟨-, -, -, -, -, -, e0, e1, -⟩ := idx_facts t
  funext z
  show V c main_v57 (((cfg2.win 3).blk t).view.emb z) = V c main_v57 z
  refine congrArg _ (funext fun a => Fin.ext ?_)
  match a with
  | ⟨0, _⟩ => show win2_3.index t (0 : Fin 2) * 1 + 1 * (z 0).val = (z 0).val; omega
  | ⟨1, _⟩ => show win2_3.index t (1 : Fin 2) * 128 + 1 * (z 1).val = (z 1).val; omega

theorem blk5 (c : Dev nD) (t : Fin cfg2.N) : iblk2 V c 5 t = V c main_v58 := by
  obtain ⟨-, -, -, -, -, -, -, -, -, -, e0, e1, -⟩ := idx_facts t
  funext z
  show V c main_v58 (((cfg2.win 5).blk t).view.emb z) = V c main_v58 z
  refine congrArg _ (funext fun a => Fin.ext ?_)
  match a with
  | ⟨0, _⟩ => show win2_5.index t (0 : Fin 2) * 1 + 1 * (z 0).val = (z 0).val; omega
  | ⟨1, _⟩ => show win2_5.index t (1 : Fin 2) * 128 + 1 * (z 1).val = (z 1).val; omega

theorem blk6 (c : Dev nD) (t : Fin cfg2.N) : iblk2 V c 6 t = V c main_v59 := by
  obtain ⟨-, -, -, -, -, -, -, -, -, -, -, -, e0, e1, -⟩ := idx_facts t
  funext z
  show V c main_v59 (((cfg2.win 6).blk t).view.emb z) = V c main_v59 z
  refine congrArg _ (funext fun a => Fin.ext ?_)
  match a with
  | ⟨0, _⟩ => show win2_6.index t (0 : Fin 2) * 1 + 1 * (z 0).val = (z 0).val; omega
  | ⟨1, _⟩ => show win2_6.index t (1 : Fin 2) * 128 + 1 * (z 1).val = (z 1).val; omega

/-- Row r of block t of a row operand is row 5000·t + r of its array. -/
theorem blk0 (c : Dev nD) (t : Fin cfg2.N) (r : Fin 5000) (k : Fin 128) (R : Fin 100000) (hR : R.val = t.val * 5000 + r.val) :
    iblk2 V c 0 t (ix2 r k) = V c main_v56 (ix2 R k) := by
  obtain ⟨e0, e1, -⟩ := idx_facts t
  show V c main_v56 (((cfg2.win 0).blk t).view.emb (ix2 r k)) = V c main_v56 (ix2 R k)
  refine congrArg _ (funext fun a => Fin.ext ?_)
  match a with
  | ⟨0, _⟩ => show win2_0.index t (0 : Fin 2) * 5000 + 1 * r.val = R.val; omega
  | ⟨1, _⟩ => show win2_0.index t (1 : Fin 2) * 128 + 1 * k.val = k.val; omega

theorem blk1 (c : Dev nD) (t : Fin cfg2.N) (r : Fin 5000) (k : Fin 128) (R : Fin 100000) (hR : R.val = t.val * 5000 + r.val) :
    iblk2 V c 1 t (ix2 r k) = V c main_v44 (ix2 R k) := by
  obtain ⟨-, -, e0, e1, -⟩ := idx_facts t
  show V c main_v44 (((cfg2.win 1).blk t).view.emb (ix2 r k)) = V c main_v44 (ix2 R k)
  refine congrArg _ (funext fun a => Fin.ext ?_)
  match a with
  | ⟨0, _⟩ => show win2_1.index t (0 : Fin 2) * 5000 + 1 * r.val = R.val; omega
  | ⟨1, _⟩ => show win2_1.index t (1 : Fin 2) * 128 + 1 * k.val = k.val; omega

/-- What point t writes back is block t of the layer of the whole arrays. -/
theorem flushed_eq
    (hpay : ∀ (x0 x1 : Vec Ideal S5000x128 .f32) (x2 : Vec Ideal S128x128 .f32) (x3 : Vec Ideal S1x128 .f32)
      (x4 : Vec Ideal S128x128 .f32) (x5 x6 : Vec Ideal S1x128 .f32),
      out2_7 (F := Ideal) x0 x1 x2 x3 x4 x5 x6 = Cert.Sage.layerL2 x0 x1 x2 x4 x3 x5 x6)
    (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7, hpay, blk2, blk3, blk4, blk5, blk6]
  obtain ⟨-, -, -, -, -, -, -, -, -, -, -, -, -, -, e0, e1⟩ := idx_facts t
  funext y
  obtain ⟨r, j, rfl⟩ : ∃ (r : Fin 5000) (j : Fin 128), y = ix2 r j := ⟨y 0, y 1, eq_ix2 y⟩
  have hlt : t.val * 5000 + r.val < 100000 := by have ht : t.val < 20 := t.isLt; have := r.isLt; omega
  have hemb : ((cfg2.win 7).blk t).view.emb (ix2 r j) = ix2 (⟨t.val * 5000 + r.val, hlt⟩ : Fin 100000) j := by
    funext a; apply Fin.ext
    match a with
    | ⟨0, _⟩ => show win2_7.index t (0 : Fin 2) * 5000 + 1 * r.val = t.val * 5000 + r.val; omega
    | ⟨1, _⟩ => show win2_7.index t (1 : Fin 2) * 128 + 1 * j.val = j.val; omega
  show Cert.Sage.layerL2 (iblk2 V c 0 t) (iblk2 V c 1 t) (V c main_arg12) (V c main_arg14) (V c main_v57) (V c main_v58) (V c main_v59) (ix2 r j)
    = G V c (((cfg2.win 7).blk t).view.emb (ix2 r j))
  rw [hemb]
  exact Cert.Sage.layerL2_congr _ _ _ _ _ _ _ _ _ r ⟨t.val * 5000 + r.val, hlt⟩ j
    (fun k => blk0 V c t r k _ rfl) (fun k => blk1 V c t r k _ rfl)

/-- An index of the output array is in point t's block iff each coordinate is in the block's range on its axis. -/
theorem mem_blk (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v60).slice (win2_7.rect t)).set ↔ _
  rw [View.set_slice_whole, Rect.mem_set_unit]
  exact Iff.rfl

/-- Every row is in the block of the point numbered by its quotient by 5000. -/
theorem cover (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  refine ⟨⟨(i 0).val / 5000, by show (i 0).val / 5000 < 20; omega⟩, flush2_7 _, ?_⟩
  obtain ⟨-, -, -, -, -, -, -, -, -, -, -, -, -, -, e0, e1⟩ := idx_facts ⟨(i 0).val / 5000, by show (i 0).val / 5000 < 20; omega⟩
  rw [mem_blk]
  intro a
  match a with
  | ⟨0, _⟩ => show win2_7.index _ (0 : Fin 2) * 5000 ≤ (i 0).val ∧ (i 0).val < win2_7.index _ (0 : Fin 2) * 5000 + 5000; rw [e0]; show (i 0).val / 5000 * 5000 ≤ (i 0).val ∧ (i 0).val < (i 0).val / 5000 * 5000 + 5000; omega
  | ⟨1, _⟩ => show win2_7.index _ (1 : Fin 2) * 128 ≤ (i 1).val ∧ (i 1).val < win2_7.index _ (1 : Fin 2) * 128 + 128; rw [e1]; omega

/-- The output array when the region is left: the layer of the arrays the region found. -/
theorem final
    (hpay : ∀ (x0 x1 : Vec Ideal S5000x128 .f32) (x2 : Vec Ideal S128x128 .f32) (x3 : Vec Ideal S1x128 .f32)
      (x4 : Vec Ideal S128x128 .f32) (x5 x6 : Vec Ideal S1x128 .f32),
      out2_7 (F := Ideal) x0 x1 x2 x3 x4 x5 x6 = Cert.Sage.layerL2 x0 x1 x2 x4 x3 x5 x6)
    (c : Dev nD) : (dat2 V c).arrAt 7 cfg2.N = G V c :=
  (dat2 V c).arrAt_eq_of_cover 7 (G V c) (fun t _ => flushed_eq V hpay c t) cover

end Cert.KernelIdeal.KVal2

end
-- ==== Proof.KHost.lean ====
/-
  The host operations around the three regions of the idealized kernel, read as functions of what they find.

  Each stretch computes, for the region that follows it, the neighbourhood mean of the current node features: the source
  rows gathered along the edges, summed into their destination rows, and scaled row by row by the reciprocal of the larger
  of the in-degree and one.  The edge endpoints and the reciprocal column are computed once, in the first stretch, and the
  later stretches read them again; the parameter vectors are laid out as rows.  Walking the six boundaries back to the
  launch memory gives the program's result as three nested layers of the argument arrays.
-/
import proofs.«112205_j9818295239157_1_alg».proof.Proof.Gen.KernelIdeal.Frame
import proofs.«112205_j9818295239157_1_alg».proof.Proof.KVal0
import proofs.«112205_j9818295239157_1_alg».proof.Proof.KVal1
import proofs.«112205_j9818295239157_1_alg».proof.Proof.KVal2
import proofs.«112205_j9818295239157_1_alg».proof.Proof.LibSageNorm
import Idealize.ShloMosaic.Lib.StableHlo.Run
import Idealize.ShloMosaic.PureOps.Ideal

set_option maxRecDepth 16384

noncomputable section

namespace Cert.KernelIdeal.KHost

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

/-- Row 0 of the edge list: the source node of every edge. -/
def srcOf (ei : (⟨S2x1600000, .i32⟩ : BufTy).Contents (Elt Ideal)) : (⟨S1600000, .i32⟩ : BufTy).Contents (Elt Ideal) :=
  fun i => shapeCast S1600000 (extractStridedSlice S1x1600000 ![0, 0] ei slices_S2x1600000_S1x1600000_0_0) shapeCasts_S1x1600000_S1600000 i

/-- Row 1 of the edge list: the destination node of every edge. -/
def dstOf (ei : (⟨S2x1600000, .i32⟩ : BufTy).Contents (Elt Ideal)) : (⟨S1600000, .i32⟩ : BufTy).Contents (Elt Ideal) :=
  fun i => shapeCast S1600000 (extractStridedSlice S1x1600000 ![1, 0] ei slices_S2x1600000_S1x1600000_1_0) shapeCasts_S1x1600000_S1600000 i

/-- The in-degree of every node (ones summed into the destination rows), clamped below by one. -/
def degOf (dst : (⟨S1600000, .i32⟩ : BufTy).Contents (Elt Ideal)) : FVec Ideal S100000 .f32 :=
  maximumf (F := Ideal)
    (Host.scatterAdd (F := Ideal) scatter_S100000_S1600000x1_S1600000_n_0_0_1
      (broadcastInDim S100000 ![] bcast_S_S100000 (constant (F := Ideal) S_ .f32 0#32))
      (broadcastInDim S1600000x1 ![0] bcast_S1600000_S1600000x1_0 dst)
      (broadcastInDim S1600000 ![] bcast_S_S1600000 (constant (F := Ideal) S_ .f32 1065353216#32)))
    (broadcastInDim S100000 ![] bcast_S_S100000 (constant (F := Ideal) S_ .f32 1065353216#32))

/-- The reciprocal of the clamped in-degree, as a column. -/
def invOf (dst : (⟨S1600000, .i32⟩ : BufTy).Contents (Elt Ideal)) : FVec Ideal S100000x1 .f32 :=
  broadcastInDim S100000x1 ![0] bcast_S100000_S100000x1_0
    (Host.divf (F := Ideal) (broadcastInDim S100000 ![] bcast_S_S100000 (constant (F := Ideal) S_ .f32 1065353216#32)) (degOf dst))

/-- The source rows summed into their destination rows. -/
def sumOf (src dst : (⟨S1600000, .i32⟩ : BufTy).Contents (Elt Ideal)) (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi CmpIPredicate.slt src (broadcastInDim S1600000 ![] bcast_S_S1600000 (constantI S_ 32 0#32)))
          (addi src (broadcastInDim S1600000 ![] bcast_S_S1600000 (constantI S_ 32 100000#32)))
          src)))

/-- The neighbourhood mean: the summed rows scaled by a column. -/
def agg (src dst : (⟨S1600000, .i32⟩ : BufTy).Contents (Elt Ideal)) (inv : FVec Ideal S100000x1 .f32) (h : FVec Ideal S100000x128 .f32) : FVec Ideal S100000x128 .f32 :=
  mulf (F := Ideal) (sumOf src dst h) (broadcastInDim S100000x128 ![0, 1] bcast_S100000x1_S100000x128_0_1 inv)

/-- A parameter vector laid out as a row. -/
def rowOf (v : FVec Ideal S128 .f32) : FVec Ideal S1x128 .f32 :=
  fun i => shapeCast S1x128 v shapeCasts_S128_S1x128 i

/-! ## The first stretch -/

theorem h0_v24 (W : Valuation τ sig (Elt Ideal)) : StableHlo.after (hostOps0 (F := Ideal)) W (Proc.devRef .tc main_v24)
    = agg (srcOf (W (Proc.devRef .tc main_arg1))) (dstOf (W (Proc.devRef .tc main_arg1))) (invOf (dstOf (W (Proc.devRef .tc main_arg1)))) (W (Proc.devRef .tc main_arg0)) := by
  after_results_simp
  rfl
theorem h0_v1 (W : Valuation τ sig (Elt Ideal)) : StableHlo.after (hostOps0 (F := Ideal)) W (Proc.devRef .tc main_v1) = srcOf (W (Proc.devRef .tc main_arg1)) := by
  after_results_simp
  rfl
theorem h0_v3 (W : Valuation τ sig (Elt Ideal)) : StableHlo.after (hostOps0 (F := Ideal)) W (Proc.devRef .tc main_v3) = dstOf (W (Proc.devRef .tc main_arg1)) := by
  after_results_simp
  rfl
theorem h0_v12 (W : Valuation τ sig (Elt Ideal)) : StableHlo.after (hostOps0 (F := Ideal)) W (Proc.devRef .tc main_v12) = invOf (dstOf (W (Proc.devRef .tc main_arg1))) := by
  after_results_simp
  rfl
theorem row0_v25 (W : Valuation τ sig (Elt Ideal)) : StableHlo.after (hostOps0 (F := Ideal)) W (Proc.devRef .tc main_v25) = rowOf (W (Proc.devRef .tc main_arg3)) := by
  after_results_simp
  rfl
theorem row0_v26 (W : Valuation τ sig (Elt Ideal)) : StableHlo.after (hostOps0 (F := Ideal)) W (Proc.devRef .tc main_v26) = rowOf (W (Proc.devRef .tc main_arg5)) := by
  after_results_simp
  rfl
theorem row0_v27 (W : Valuation τ sig (Elt Ideal)) : StableHlo.after (hostOps0 (F := Ideal)) W (Proc.devRef .tc main_v27) = rowOf (W (Proc.devRef .tc main_arg6)) := by
  after_results_simp
  rfl
theorem keep0_arg0 (W : Valuation τ sig (Elt Ideal)) : StableHlo.after (hostOps0 (F := Ideal)) W (Proc.devRef .tc main_arg0) = W (Proc.devRef .tc main_arg0) := by
  after_results_simp
theorem keep0_arg2 (W : Valuation τ sig (Elt Ideal)) : StableHlo.after (hostOps0 (F := Ideal)) W (Proc.devRef .tc main_arg2) = W (Proc.devRef .tc main_arg2) := by
  after_results_simp
theorem keep0_arg4 (W : Valuation τ sig (Elt Ideal)) : StableHlo.after (hostOps0 (F := Ideal)) W (Proc.devRef .tc main_arg4) = W (Proc.devRef .tc main_arg4) := by
  after_results_simp
theorem keep0_arg7 (W : Valuation τ sig (Elt Ideal)) : StableHlo.after (hostOps0 (F := Ideal)) W (Proc.devRef .tc main_arg7) = W (Proc.devRef .tc main_arg7) := by
  after_results_simp
theorem keep0_arg8 (W : Valuation τ sig (Elt Ideal)) : StableHlo.after (hostOps0 (F := Ideal)) W (Proc.devRef .tc main_arg8) = W (Proc.devRef .tc main_arg8) := by
  after_results_simp
theorem keep0_arg9 (W : Valuation τ sig (Elt Ideal)) : StableHlo.after (hostOps0 (F := Ideal)) W (Proc.devRef .tc main_arg9) = W (Proc.devRef .tc main_arg9) := by
  after_results_simp
theorem keep0_arg10 (W : Valuation τ sig (Elt Ideal)) : StableHlo.after (hostOps0 (F := Ideal)) W (Proc.devRef .tc main_arg10) = W (Proc.devRef .tc main_arg10) := by
  after_results_simp
theorem keep0_arg11 (W : Valuation τ sig (Elt Ideal)) : StableHlo.after (hostOps0 (F := Ideal)) W (Proc.devRef .tc main_arg11) = W (Proc.devRef .tc main_arg11) := by
  after_results_simp
theorem keep0_arg12 (W : Valuation τ sig (Elt Ideal)) : StableHlo.after (hostOps0 (F := Ideal)) W (Proc.devRef .tc main_arg12) = W (Proc.devRef .tc main_arg12) := by
  after_results_simp
theorem keep0_arg13 (W : Valuation τ sig (Elt Ideal)) : StableHlo.after (hostOps0 (F := Ideal)) W (Proc.devRef .tc main_arg13) = W (Proc.devRef .tc main_arg13) := by
  after_results_simp
theorem keep0_arg14 (W : Valuation τ sig (Elt Ideal)) : StableHlo.after (hostOps0 (F := Ideal)) W (Proc.devRef .tc main_arg14) = W (Proc.devRef .tc main_arg14) := by
  after_results_simp
theorem keep0_arg15 (W : Valuation τ sig (Elt Ideal)) : StableHlo.after (hostOps0 (F := Ideal)) W (Proc.devRef .tc main_arg15) = W (Proc.devRef .tc main_arg15) := by
  after_results_simp
theorem keep0_arg16 (W : Valuation τ sig (Elt Ideal)) : StableHlo.after (hostOps0 (F := Ideal)) W (Proc.devRef .tc main_arg16) = W (Proc.devRef .tc main_arg16) := by
  after_results_simp

/-! ## The second stretch -/

theorem h1_v40 (W : Valuation τ sig (Elt Ideal)) : StableHlo.after (hostOps1 (F := Ideal)) W (Proc.devRef .tc main_v40)
    = agg (W (Proc.devRef .tc main_v1)) (W (Proc.devRef .tc main_v3)) (W (Proc.devRef .tc main_v12)) (W (Proc.devRef .tc main_v28)) := by
  after_results_simp
  rfl
theorem row1_v41 (W : Valuation τ sig (Elt Ideal)) : StableHlo.after (hostOps1 (F := Ideal)) W (Proc.devRef .tc main_v41) = rowOf (W (Proc.devRef .tc main_arg8)) := by
  after_results_simp
  rfl
theorem row1_v42 (W : Valuation τ sig (Elt Ideal)) : StableHlo.after (hostOps1 (F := Ideal)) W (Proc.devRef .tc main_v42) = rowOf (W (Proc.devRef .tc main_arg10)) := by
  after_results_simp
  rfl
theorem row1_v43 (W : Valuation τ sig (Elt Ideal)) : StableHlo.after (hostOps1 (F := Ideal)) W (Proc.devRef .tc main_v43) = rowOf (W (Proc.devRef .tc main_arg11)) := by
  after_results_simp
  rfl
theorem keep1_v28 (W : Valuation τ sig (Elt Ideal)) : StableHlo.after (hostOps1 (F := Ideal)) W (Proc.devRef .tc main_v28) = W (Proc.devRef .tc main_v28) := by
  after_results_simp
theorem keep1_v1 (W : Valuation τ sig (Elt Ideal)) : StableHlo.after (hostOps1 (F := Ideal)) W (Proc.devRef .tc main_v1) = W (Proc.devRef .tc main_v1) := by
  after_results_simp
theorem keep1_v3 (W : Valuation τ sig (Elt Ideal)) : StableHlo.after (hostOps1 (F := Ideal)) W (Proc.devRef .tc main_v3) = W (Proc.devRef .tc main_v3) := by
  after_results_simp
theorem keep1_v12 (W : Valuation τ sig (Elt Ideal)) : StableHlo.after (hostOps1 (F := Ideal)) W (Proc.devRef .tc main_v12) = W (Proc.devRef .tc main_v12) := by
  after_results_simp
theorem keep1_arg7 (W : Valuation τ sig (Elt Ideal)) : StableHlo.after (hostOps1 (F := Ideal)) W (Proc.devRef .tc main_arg7) = W (Proc.devRef .tc main_arg7) := by
  after_results_simp
theorem keep1_arg9 (W : Valuation τ sig (Elt Ideal)) : StableHlo.after (hostOps1 (F := Ideal)) W (Proc.devRef .tc main_arg9) = W (Proc.devRef .tc main_arg9) := by
  after_results_simp
theorem keep1_arg12 (W : Valuation τ sig (Elt Ideal)) : StableHlo.after (hostOps1 (F := Ideal)) W (Proc.devRef .tc main_arg12) = W (Proc.devRef .tc main_arg12) := by
  after_results_simp
theorem keep1_arg13 (W : Valuation τ sig (Elt Ideal)) : StableHlo.after (hostOps1 (F := Ideal)) W (Proc.devRef .tc main_arg13) = W (Proc.devRef .tc main_arg13) := by
  after_results_simp
theorem keep1_arg14 (W : Valuation τ sig (Elt Ideal)) : StableHlo.after (hostOps1 (F := Ideal)) W (Proc.devRef .tc main_arg14) = W (Proc.devRef .tc main_arg14) := by
  after_results_simp
theorem keep1_arg15 (W : Valuation τ sig (Elt Ideal)) : StableHlo.after (hostOps1 (F := Ideal)) W (Proc.devRef .tc main_arg15) = W (Proc.devRef .tc main_arg15) := by
  after_results_simp
theorem keep1_arg16 (W : Valuation τ sig (Elt Ideal)) : StableHlo.after (hostOps1 (F := Ideal)) W (Proc.devRef .tc main_arg16) = W (Proc.devRef .tc main_arg16) := by
  after_results_simp

/-! ## The third stretch -/

theorem h2_v56 (W : Valuation τ sig (Elt Ideal)) : StableHlo.after (hostOps2 (F := Ideal)) W (Proc.devRef .tc main_v56)
    = agg (W (Proc.devRef .tc main_v1)) (W (Proc.devRef .tc main_v3)) (W (Proc.devRef .tc main_v12)) (W (Proc.devRef .tc main_v44)) := by
  after_results_simp
  rfl
theorem row2_v57 (W : Valuation τ sig (Elt Ideal)) : StableHlo.after (hostOps2 (F := Ideal)) W (Proc.devRef .tc main_v57) = rowOf (W (Proc.devRef .tc main_arg13)) := by
  after_results_simp
  rfl
theorem row2_v58 (W : Valuation τ sig (Elt Ideal)) : StableHlo.after (hostOps2 (F := Ideal)) W (Proc.devRef .tc main_v58) = rowOf (W (Proc.devRef .tc main_arg15)) := by
  after_results_simp
  rfl
theorem row2_v59 (W : Valuation τ sig (Elt Ideal)) : StableHlo.after (hostOps2 (F := Ideal)) W (Proc.devRef .tc main_v59) = rowOf (W (Proc.devRef .tc main_arg16)) := by
  after_results_simp
  rfl
theorem keep2_v44 (W : Valuation τ sig (Elt Ideal)) : StableHlo.after (hostOps2 (F := Ideal)) W (Proc.devRef .tc main_v44) = W (Proc.devRef .tc main_v44) := by
  after_results_simp
theorem keep2_arg12 (W : Valuation τ sig (Elt Ideal)) : StableHlo.after (hostOps2 (F := Ideal)) W (Proc.devRef .tc main_arg12) = W (Proc.devRef .tc main_arg12) := by
  after_results_simp
theorem keep2_arg14 (W : Valuation τ sig (Elt Ideal)) : StableHlo.after (hostOps2 (F := Ideal)) W (Proc.devRef .tc main_arg14) = W (Proc.devRef .tc main_arg14) := by
  after_results_simp

end Cert.KernelIdeal.KHost

end
-- ==== Proof.KRun.lean ====
/-
  The idealized kernel's run with its buffers named.

  Every weakly fair execution of the program terminates without a fault, and in the final state every buffer that is not
  scoped to a kernel body holds the contents of the last boundary of the program's six segments (three stretches of host
  operations, each followed by a region): in particular the result buffer holds what the third region's write-backs
  leave in its output array, and every argument holds what it was launched with.
-/
import proofs.«112205_j9818295239157_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The result buffer and the arguments in the final state: the third region's output array as its write-backs leave
    it, and each argument as launched. -/
theorem run_named : θ_run defs (onTc (τ := τ) (main (F := F))) ⟨m, fun _ => 0, ρ⟩ (fun r => ∀ c : Dev nD,
      r.2.mem ((c.tc : Thread nD τ).loc main_v60) = (dat2 (V5 m ρ) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_v60 (by decide))).trans (W6_arr m ρ c 7),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c)⟩)
    (run_all m ρ)

end Cert.KernelIdeal.KRun

end
-- ==== Proof.KChain.lean ====
/-
  The idealized kernel's result as three nested layers of its arguments.

  Region 1 finds, besides the parameters, the node features and their neighbourhood mean as the first stretch of host
  operations leaves them; it leaves the first hidden layer in its output array.  The second stretch aggregates that
  array along the same edges with the same reciprocal column, region 2 leaves the second hidden layer, and the third
  stretch and region 3 do the same once more, ending in the normalised last layer.  Nothing else writes any of the
  buffers involved, so each is read back through the boundaries to the launch memory.
-/
import proofs.«112205_j9818295239157_1_alg».proof.Proof.KHost
import proofs.«112205_j9818295239157_1_alg».proof.Proof.KRun

set_option maxRecDepth 16384

noncomputable section

namespace Cert.KernelIdeal.KChain

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.KHost

/-- Three layers over one edge list: the kernel's arrangement, the mean as a product with the reciprocal column. -/
def netK (x : (⟨S100000x128, .f32⟩ : BufTy).Contents (Elt Ideal)) (ei : (⟨S2x1600000, .i32⟩ : BufTy).Contents (Elt Ideal))
    (Wl0 : (⟨S128x128, .f32⟩ : BufTy).Contents (Elt Ideal)) (bl0 : (⟨S128, .f32⟩ : BufTy).Contents (Elt Ideal)) (Wr0 : (⟨S128x128, .f32⟩ : BufTy).Contents (Elt Ideal)) (g0 b0 : (⟨S128, .f32⟩ : BufTy).Contents (Elt Ideal))
    (Wl1 : (⟨S128x128, .f32⟩ : BufTy).Contents (Elt Ideal)) (bl1 : (⟨S128, .f32⟩ : BufTy).Contents (Elt Ideal)) (Wr1 : (⟨S128x128, .f32⟩ : BufTy).Contents (Elt Ideal)) (g1 b1 : (⟨S128, .f32⟩ : BufTy).Contents (Elt Ideal))
    (Wl2 : (⟨S128x128, .f32⟩ : BufTy).Contents (Elt Ideal)) (bl2 : (⟨S128, .f32⟩ : BufTy).Contents (Elt Ideal)) (Wr2 : (⟨S128x128, .f32⟩ : BufTy).Contents (Elt Ideal)) (g2 b2 : (⟨S128, .f32⟩ : BufTy).Contents (Elt Ideal)) :
    (⟨S100000x128, .f32⟩ : BufTy).Contents (Elt Ideal) :=
  let h1 : (⟨S100000x128, .f32⟩ : BufTy).Contents (Elt Ideal) := Cert.Sage.layerElu (agg (srcOf ei) (dstOf ei) (invOf (dstOf ei)) x) x Wl0 Wr0 (rowOf bl0) (rowOf g0) (rowOf b0)
  let h2 : (⟨S100000x128, .f32⟩ : BufTy).Contents (Elt Ideal) := Cert.Sage.layerElu (agg (srcOf ei) (dstOf ei) (invOf (dstOf ei)) h1) h1 Wl1 Wr1 (rowOf bl1) (rowOf g1) (rowOf b1)
  Cert.Sage.layerL2 (agg (srcOf ei) (dstOf ei) (invOf (dstOf ei)) h2) h2 Wl2 Wr2 (rowOf bl2) (rowOf g2) (rowOf b2)

variable (m : (ℓ : Loc nD τ sig) → Buf (Elt Ideal) ℓ) (ρ : Dev nD → PrngReg) (c : Dev nD)

/-- The first hidden layer, of the launch memory. -/
def H1 : (⟨S100000x128, .f32⟩ : BufTy).Contents (Elt Ideal) :=
  Cert.Sage.layerElu (agg (srcOf (m ((c : Thread nD τ).loc main_arg1))) (dstOf (m ((c : Thread nD τ).loc main_arg1))) (invOf (dstOf (m ((c : Thread nD τ).loc main_arg1)))) (m ((c : Thread nD τ).loc main_arg0))) (m ((c : Thread nD τ).loc main_arg0))
    (m ((c : Thread nD τ).loc main_arg2)) (m ((c : Thread nD τ).loc main_arg4)) (rowOf (m ((c : Thread nD τ).loc main_arg3))) (rowOf (m ((c : Thread nD τ).loc main_arg5))) (rowOf (m ((c : Thread nD τ).loc main_arg6)))

/-- The second hidden layer. -/
def H2 : (⟨S100000x128, .f32⟩ : BufTy).Contents (Elt Ideal) :=
  Cert.Sage.layerElu (agg (srcOf (m ((c : Thread nD τ).loc main_arg1))) (dstOf (m ((c : Thread nD τ).loc main_arg1))) (invOf (dstOf (m ((c : Thread nD τ).loc main_arg1)))) (H1 m c)) (H1 m c)
    (m ((c : Thread nD τ).loc main_arg7)) (m ((c : Thread nD τ).loc main_arg9)) (rowOf (m ((c : Thread nD τ).loc main_arg8))) (rowOf (m ((c : Thread nD τ).loc main_arg10))) (rowOf (m ((c : Thread nD τ).loc main_arg11)))

/-- The last layer. -/
def OUT : (⟨S100000x128, .f32⟩ : BufTy).Contents (Elt Ideal) :=
  Cert.Sage.layerL2 (agg (srcOf (m ((c : Thread nD τ).loc main_arg1))) (dstOf (m ((c : Thread nD τ).loc main_arg1))) (invOf (dstOf (m ((c : Thread nD τ).loc main_arg1)))) (H2 m c)) (H2 m c)
    (m ((c : Thread nD τ).loc main_arg12)) (m ((c : Thread nD τ).loc main_arg14)) (rowOf (m ((c : Thread nD τ).loc main_arg13))) (rowOf (m ((c : Thread nD τ).loc main_arg15))) (rowOf (m ((c : Thread nD τ).loc main_arg16)))

theorem OUT_eq : OUT m c = netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := rfl

/-! ## Buffers no region and no later stretch writes, read back to the launch memory -/

theorem W2_arg7 : W2 m ρ c (Proc.devRef .tc main_arg7) = m ((c : Thread nD τ).loc main_arg7) :=
  (W2_of_ne m ρ c main_arg7 (by decide)).trans (keep0_arg7 (W0 m ρ c))
theorem W2_arg8 : W2 m ρ c (Proc.devRef .tc main_arg8) = m ((c : Thread nD τ).loc main_arg8) :=
  (W2_of_ne m ρ c main_arg8 (by decide)).trans (keep0_arg8 (W0 m ρ c))
theorem W2_arg9 : W2 m ρ c (Proc.devRef .tc main_arg9) = m ((c : Thread nD τ).loc main_arg9) :=
  (W2_of_ne m ρ c main_arg9 (by decide)).trans (keep0_arg9 (W0 m ρ c))
theorem W2_arg10 : W2 m ρ c (Proc.devRef .tc main_arg10) = m ((c : Thread nD τ).loc main_arg10) :=
  (W2_of_ne m ρ c main_arg10 (by decide)).trans (keep0_arg10 (W0 m ρ c))
theorem W2_arg11 : W2 m ρ c (Proc.devRef .tc main_arg11) = m ((c : Thread nD τ).loc main_arg11) :=
  (W2_of_ne m ρ c main_arg11 (by decide)).trans (keep0_arg11 (W0 m ρ c))
theorem W2_arg12 : W2 m ρ c (Proc.devRef .tc main_arg12) = m ((c : Thread nD τ).loc main_arg12) :=
  (W2_of_ne m ρ c main_arg12 (by decide)).trans (keep0_arg12 (W0 m ρ c))
theorem W2_arg13 : W2 m ρ c (Proc.devRef .tc main_arg13) = m ((c : Thread nD τ).loc main_arg13) :=
  (W2_of_ne m ρ c main_arg13 (by decide)).trans (keep0_arg13 (W0 m ρ c))
theorem W2_arg14 : W2 m ρ c (Proc.devRef .tc main_arg14) = m ((c : Thread nD τ).loc main_arg14) :=
  (W2_of_ne m ρ c main_arg14 (by decide)).trans (keep0_arg14 (W0 m ρ c))
theorem W2_arg15 : W2 m ρ c (Proc.devRef .tc main_arg15) = m ((c : Thread nD τ).loc main_arg15) :=
  (W2_of_ne m ρ c main_arg15 (by decide)).trans (keep0_arg15 (W0 m ρ c))
theorem W2_arg16 : W2 m ρ c (Proc.devRef .tc main_arg16) = m ((c : Thread nD τ).loc main_arg16) :=
  (W2_of_ne m ρ c main_arg16 (by decide)).trans (keep0_arg16 (W0 m ρ c))
theorem W4_arg12 : W4 m ρ c (Proc.devRef .tc main_arg12) = m ((c : Thread nD τ).loc main_arg12) :=
  (W4_of_ne m ρ c main_arg12 (by decide)).trans ((keep1_arg12 (W2 m ρ c)).trans (W2_arg12 m ρ c))
theorem W4_arg13 : W4 m ρ c (Proc.devRef .tc main_arg13) = m ((c : Thread nD τ).loc main_arg13) :=
  (W4_of_ne m ρ c main_arg13 (by decide)).trans ((keep1_arg13 (W2 m ρ c)).trans (W2_arg13 m ρ c))
theorem W4_arg14 : W4 m ρ c (Proc.devRef .tc main_arg14) = m ((c : Thread nD τ).loc main_arg14) :=
  (W4_of_ne m ρ c main_arg14 (by decide)).trans ((keep1_arg14 (W2 m ρ c)).trans (W2_arg14 m ρ c))
theorem W4_arg15 : W4 m ρ c (Proc.devRef .tc main_arg15) = m ((c : Thread nD τ).loc main_arg15) :=
  (W4_of_ne m ρ c main_arg15 (by decide)).trans ((keep1_arg15 (W2 m ρ c)).trans (W2_arg15 m ρ c))
theorem W4_arg16 : W4 m ρ c (Proc.devRef .tc main_arg16) = m ((c : Thread nD τ).loc main_arg16) :=
  (W4_of_ne m ρ c main_arg16 (by decide)).trans ((keep1_arg16 (W2 m ρ c)).trans (W2_arg16 m ρ c))
theorem W2_v1 : W2 m ρ c (Proc.devRef .tc main_v1) = srcOf (m ((c : Thread nD τ).loc main_arg1)) :=
  (W2_of_ne m ρ c main_v1 (by decide)).trans (h0_v1 (W0 m ρ c))
theorem W4_v1 : W4 m ρ c (Proc.devRef .tc main_v1) = srcOf (m ((c : Thread nD τ).loc main_arg1)) :=
  (W4_of_ne m ρ c main_v1 (by decide)).trans ((keep1_v1 (W2 m ρ c)).trans (W2_v1 m ρ c))
theorem W2_v3 : W2 m ρ c (Proc.devRef .tc main_v3) = dstOf (m ((c : Thread nD τ).loc main_arg1)) :=
  (W2_of_ne m ρ c main_v3 (by decide)).trans (h0_v3 (W0 m ρ c))
theorem W4_v3 : W4 m ρ c (Proc.devRef .tc main_v3) = dstOf (m ((c : Thread nD τ).loc main_arg1)) :=
  (W4_of_ne m ρ c main_v3 (by decide)).trans ((keep1_v3 (W2 m ρ c)).trans (W2_v3 m ρ c))
theorem W2_v12 : W2 m ρ c (Proc.devRef .tc main_v12) = invOf (dstOf (m ((c : Thread nD τ).loc main_arg1))) :=
  (W2_of_ne m ρ c main_v12 (by decide)).trans (h0_v12 (W0 m ρ c))
theorem W4_v12 : W4 m ρ c (Proc.devRef .tc main_v12) = invOf (dstOf (m ((c : Thread nD τ).loc main_arg1))) :=
  (W4_of_ne m ρ c main_v12 (by decide)).trans ((keep1_v12 (W2 m ρ c)).trans (W2_v12 m ρ c))

/-! ## Region 1 -/

/-- What region 1 leaves in its output array. -/
theorem R0 (hpay0 : ∀ (x0 x1 : Vec Ideal S5000x128 .f32) (x2 : Vec Ideal S128x128 .f32) (x3 : Vec Ideal S1x128 .f32)
      (x4 : Vec Ideal S128x128 .f32) (x5 x6 : Vec Ideal S1x128 .f32),
      out0_7 (F := Ideal) x0 x1 x2 x3 x4 x5 x6 = Cert.Sage.layerElu x0 x1 x2 x4 x3 x5 x6) :
    (dat0 (V1 m ρ) c).arrAt 7 cfg0.N = H1 m c := by
  rw [KVal0.final (V1 m ρ) hpay0 c]
  unfold KVal0.G H1
  have e0 : V1 m ρ c main_v24 = agg (srcOf (m ((c : Thread nD τ).loc main_arg1))) (dstOf (m ((c : Thread nD τ).loc main_arg1))) (invOf (dstOf (m ((c : Thread nD τ).loc main_arg1)))) (m ((c : Thread nD τ).loc main_arg0)) := h0_v24 (W0 m ρ c)
  have e1 : V1 m ρ c main_arg0 = m ((c : Thread nD τ).loc main_arg0) := keep0_arg0 (W0 m ρ c)
  have e2 : V1 m ρ c main_arg2 = m ((c : Thread nD τ).loc main_arg2) := keep0_arg2 (W0 m ρ c)
  have e3 : V1 m ρ c main_v25 = rowOf (m ((c : Thread nD τ).loc main_arg3)) := row0_v25 (W0 m ρ c)
  have e4 : V1 m ρ c main_arg4 = m ((c : Thread nD τ).loc main_arg4) := keep0_arg4 (W0 m ρ c)
  have e5 : V1 m ρ c main_v26 = rowOf (m ((c : Thread nD τ).loc main_arg5)) := row0_v26 (W0 m ρ c)
  have e6 : V1 m ρ c main_v27 = rowOf (m ((c : Thread nD τ).loc main_arg6)) := row0_v27 (W0 m ρ c)
  rw [e0, e1, e2, e3, e4, e5, e6]

/-! ## Region 2 -/

theorem W2_v28 (hpay0 : ∀ (x0 x1 : Vec Ideal S5000x128 .f32) (x2 : Vec Ideal S128x128 .f32) (x3 : Vec Ideal S1x128 .f32)
      (x4 : Vec Ideal S128x128 .f32) (x5 x6 : Vec Ideal S1x128 .f32),
      out0_7 (F := Ideal) x0 x1 x2 x3 x4 x5 x6 = Cert.Sage.layerElu x0 x1 x2 x4 x3 x5 x6) : W2 m ρ c (Proc.devRef .tc main_v28) = H1 m c :=
  (W2_arr m ρ c 7).trans (R0 m ρ c hpay0)

/-- What region 2 leaves in its output array. -/
theorem R1 (hpay0 : ∀ (x0 x1 : Vec Ideal S5000x128 .f32) (x2 : Vec Ideal S128x128 .f32) (x3 : Vec Ideal S1x128 .f32)
      (x4 : Vec Ideal S128x128 .f32) (x5 x6 : Vec Ideal S1x128 .f32),
      out0_7 (F := Ideal) x0 x1 x2 x3 x4 x5 x6 = Cert.Sage.layerElu x0 x1 x2 x4 x3 x5 x6) (hpay1 : ∀ (x0 x1 : Vec Ideal S5000x128 .f32) (x2 : Vec Ideal S128x128 .f32) (x3 : Vec Ideal S1x128 .f32)
      (x4 : Vec Ideal S128x128 .f32) (x5 x6 : Vec Ideal S1x128 .f32),
      out1_7 (F := Ideal) x0 x1 x2 x3 x4 x5 x6 = Cert.Sage.layerElu x0 x1 x2 x4 x3 x5 x6) :
    (dat1 (V3 m ρ) c).arrAt 7 cfg1.N = H2 m c := by
  rw [KVal1.final (V3 m ρ) hpay1 c]
  unfold KVal1.G H2
  have e0 : V3 m ρ c main_v40 = agg (srcOf (m ((c : Thread nD τ).loc main_arg1))) (dstOf (m ((c : Thread nD τ).loc main_arg1))) (invOf (dstOf (m ((c : Thread nD τ).loc main_arg1)))) (H1 m c) := by
    refine (h1_v40 (W2 m ρ c)).trans ?_
    rw [W2_v1 m ρ c, W2_v3 m ρ c, W2_v12 m ρ c, W2_v28 m ρ c hpay0]
  have e1 : V3 m ρ c main_v28 = H1 m c := (keep1_v28 (W2 m ρ c)).trans (W2_v28 m ρ c hpay0)
  have e2 : V3 m ρ c main_arg7 = m ((c : Thread nD τ).loc main_arg7) := (keep1_arg7 (W2 m ρ c)).trans (W2_arg7 m ρ c)
  have e3 : V3 m ρ c main_v41 = rowOf (m ((c : Thread nD τ).loc main_arg8)) := (row1_v41 (W2 m ρ c)).trans (congrArg rowOf (W2_arg8 m ρ c))
  have e4 : V3 m ρ c main_arg9 = m ((c : Thread nD τ).loc main_arg9) := (keep1_arg9 (W2 m ρ c)).trans (W2_arg9 m ρ c)
  have e5 : V3 m ρ c main_v42 = rowOf (m ((c : Thread nD τ).loc main_arg10)) := (row1_v42 (W2 m ρ c)).trans (congrArg rowOf (W2_arg10 m ρ c))
  have e6 : V3 m ρ c main_v43 = rowOf (m ((c : Thread nD τ).loc main_arg11)) := (row1_v43 (W2 m ρ c)).trans (congrArg rowOf (W2_arg11 m ρ c))
  rw [e0, e1, e2, e3, e4, e5, e6]

/-! ## Region 3 -/

theorem W4_v44 (hpay0 : ∀ (x0 x1 : Vec Ideal S5000x128 .f32) (x2 : Vec Ideal S128x128 .f32) (x3 : Vec Ideal S1x128 .f32)
      (x4 : Vec Ideal S128x128 .f32) (x5 x6 : Vec Ideal S1x128 .f32),
      out0_7 (F := Ideal) x0 x1 x2 x3 x4 x5 x6 = Cert.Sage.layerElu x0 x1 x2 x4 x3 x5 x6) (hpay1 : ∀ (x0 x1 : Vec Ideal S5000x128 .f32) (x2 : Vec Ideal S128x128 .f32) (x3 : Vec Ideal S1x128 .f32)
      (x4 : Vec Ideal S128x128 .f32) (x5 x6 : Vec Ideal S1x128 .f32),
      out1_7 (F := Ideal) x0 x1 x2 x3 x4 x5 x6 = Cert.Sage.layerElu x0 x1 x2 x4 x3 x5 x6) : W4 m ρ c (Proc.devRef .tc main_v44) = H2 m c :=
  (W4_arr m ρ c 7).trans (R1 m ρ c hpay0 hpay1)

/-- What region 3 leaves in its output array: the program's result. -/
theorem R2 (hpay0 : ∀ (x0 x1 : Vec Ideal S5000x128 .f32) (x2 : Vec Ideal S128x128 .f32) (x3 : Vec Ideal S1x128 .f32)
      (x4 : Vec Ideal S128x128 .f32) (x5 x6 : Vec Ideal S1x128 .f32),
      out0_7 (F := Ideal) x0 x1 x2 x3 x4 x5 x6 = Cert.Sage.layerElu x0 x1 x2 x4 x3 x5 x6) (hpay1 : ∀ (x0 x1 : Vec Ideal S5000x128 .f32) (x2 : Vec Ideal S128x128 .f32) (x3 : Vec Ideal S1x128 .f32)
      (x4 : Vec Ideal S128x128 .f32) (x5 x6 : Vec Ideal S1x128 .f32),
      out1_7 (F := Ideal) x0 x1 x2 x3 x4 x5 x6 = Cert.Sage.layerElu x0 x1 x2 x4 x3 x5 x6) (hpay2 : ∀ (x0 x1 : Vec Ideal S5000x128 .f32) (x2 : Vec Ideal S128x128 .f32) (x3 : Vec Ideal S1x128 .f32)
      (x4 : Vec Ideal S128x128 .f32) (x5 x6 : Vec Ideal S1x128 .f32),
      out2_7 (F := Ideal) x0 x1 x2 x3 x4 x5 x6 = Cert.Sage.layerL2 x0 x1 x2 x4 x3 x5 x6) :
    (dat2 (V5 m ρ) c).arrAt 7 cfg2.N = OUT m c := by
  rw [KVal2.final (V5 m ρ) hpay2 c]
  unfold KVal2.G OUT
  have e0 : V5 m ρ c main_v56 = agg (srcOf (m ((c : Thread nD τ).loc main_arg1))) (dstOf (m ((c : Thread nD τ).loc main_arg1))) (invOf (dstOf (m ((c : Thread nD τ).loc main_arg1)))) (H2 m c) := by
    refine (h2_v56 (W4 m ρ c)).trans ?_
    rw [W4_v1 m ρ c, W4_v3 m ρ c, W4_v12 m ρ c, W4_v44 m ρ c hpay0 hpay1]
  have e1 : V5 m ρ c main_v44 = H2 m c := (keep2_v44 (W4 m ρ c)).trans (W4_v44 m ρ c hpay0 hpay1)
  have e2 : V5 m ρ c main_arg12 = m ((c : Thread nD τ).loc main_arg12) := (keep2_arg12 (W4 m ρ c)).trans (W4_arg12 m ρ c)
  have e3 : V5 m ρ c main_v57 = rowOf (m ((c : Thread nD τ).loc main_arg13)) := (row2_v57 (W4 m ρ c)).trans (congrArg rowOf (W4_arg13 m ρ c))
  have e4 : V5 m ρ c main_arg14 = m ((c : Thread nD τ).loc main_arg14) := (keep2_arg14 (W4 m ρ c)).trans (W4_arg14 m ρ c)
  have e5 : V5 m ρ c main_v58 = rowOf (m ((c : Thread nD τ).loc main_arg15)) := (row2_v58 (W4 m ρ c)).trans (congrArg rowOf (W4_arg15 m ρ c))
  have e6 : V5 m ρ c main_v59 = rowOf (m ((c : Thread nD τ).loc main_arg16)) := (row2_v59 (W4 m ρ c)).trans (congrArg rowOf (W4_arg16 m ρ c))
  rw [e0, e1, e2, e3, e4, e5, e6]

/-! ## The run, read -/

/-- The idealized kernel's run: the result buffer ends at the three nested layers of the launch arguments, and the
    arguments end as launched. -/
theorem run (hpay0 : ∀ (x0 x1 : Vec Ideal S5000x128 .f32) (x2 : Vec Ideal S128x128 .f32) (x3 : Vec Ideal S1x128 .f32)
      (x4 : Vec Ideal S128x128 .f32) (x5 x6 : Vec Ideal S1x128 .f32),
      out0_7 (F := Ideal) x0 x1 x2 x3 x4 x5 x6 = Cert.Sage.layerElu x0 x1 x2 x4 x3 x5 x6) (hpay1 : ∀ (x0 x1 : Vec Ideal S5000x128 .f32) (x2 : Vec Ideal S128x128 .f32) (x3 : Vec Ideal S1x128 .f32)
      (x4 : Vec Ideal S128x128 .f32) (x5 x6 : Vec Ideal S1x128 .f32),
      out1_7 (F := Ideal) x0 x1 x2 x3 x4 x5 x6 = Cert.Sage.layerElu x0 x1 x2 x4 x3 x5 x6) (hpay2 : ∀ (x0 x1 : Vec Ideal S5000x128 .f32) (x2 : Vec Ideal S128x128 .f32) (x3 : Vec Ideal S1x128 .f32)
      (x4 : Vec Ideal S128x128 .f32) (x5 x6 : Vec Ideal S1x128 .f32),
      out2_7 (F := Ideal) x0 x1 x2 x3 x4 x5 x6 = Cert.Sage.layerL2 x0 x1 x2 x4 x3 x5 x6) :
    θ_run (defs (F := Ideal)) (onTc (τ := τ) (main (F := Ideal))) ⟨m, fun _ => 0, ρ⟩ (fun r => ∀ c : Dev nD,
      r.2.mem ((c.tc : Thread nD τ).loc main_v60) = netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run (defs (F := Ideal)) _ _).mono (fun r h c => ⟨(h c).1.trans ((R2 m ρ c hpay0 hpay1 hpay2).trans (OUT_eq m c)), (h c).2⟩)
    (Cert.KernelIdeal.KRun.run_named (F := Ideal) m ρ)

end Cert.KernelIdeal.KChain

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.LibNormVec.lean ====
/-
  The row pipeline of one graph-convolution layer as a vector unit spells it, stage by stage, read at an index on
  the extended reals.

  A block L : [n, d] of affine rows goes through: the column of row means (a lane sum kept as a column, over the
  count's word); the block centred at those means; the column of reciprocal standard deviations (the lane sum of the
  centred squares over the count, plus ε, through the reciprocal square root); the scale-and-shift by two [1, d]
  rows; and then either the exponential linear unit or the division by the clamped Euclidean norm of each row.
  Each stage at entry (r, j) reads row r of its operand only, and is the matching row function of the layer's
  specification.  Nothing here needs an entry to be finite.
-/
import Idealize.ShloMosaic.PureOps.Ideal
import Idealize.ShloMosaic.PureOps.Ideal.Laws
import Idealize.ShloMosaic.Lib.ValueIdx
import Idealize.ShloMosaic.Lib.Pipeline.Value
import proofs.«112205_j9818295239157_1_alg».proof.Proof.LibSageNorm
import proofs.«112205_j9818295239157_1_alg».proof.Proof.LibDense
import proofs.«112205_j9818295239157_1_alg».proof.Proof.LibAxisSum
import proofs.«112205_j9818295239157_1_alg».proof.Proof.LibSoftmaxRow
import proofs.«112205_j9818295239157_1_alg».proof.Proof.LibBiasRows

noncomputable section

namespace Cert.KernelIdeal.Pay

open Idealize.ShloMosaic Idealize.ShloMosaic.ValueIdx

/-- The zero offsets of a rank-2 rectangle, as the constant function. -/
theorem zeros2 : (![0, 0] : Fin 2 → Nat) = fun _ => 0 := funext fun a => by fin_cases a <;> rfl

/-! ## Pointwise operations the library does not spell at an index -/

theorem rsqrt_apply {s : Shape} {φ : FTy} (a : FVec Ideal s φ) (i : s.Idx) : rsqrt a i = Ideal.rsqrt (a i) := rfl

theorem sqrt_apply {s : Shape} {φ : FTy} (a : FVec Ideal s φ) (i : s.Idx) : sqrt a i = Ideal.sqrt (a i) := rfl

theorem exp_apply {s : Shape} {φ : FTy} (a : FVec Ideal s φ) (i : s.Idx) : exp a i = Ideal.exp (a i) := rfl

/-- Choosing by the comparison "above": the first value where the bound is strictly below, the second elsewhere. -/
theorem select_ogt {α : Type} (y z : EReal) (a b : α) :
    Scalar.select (Ideal.cmp .ogt y z) a b = if z < y then a else b := by
  unfold Scalar.select Ideal.cmp
  by_cases h : z < y
  · rw [if_pos h]; simp [h]
  · rw [if_neg h]; simp [h]

/-! ## The affine rows -/

section Lin

variable {n K d : ℕ} (hlt : FTy.bits .bf16 < FTy.bits .f32)
  (hbr : (⟨2, ![1, d]⟩ : Shape).Broadcasts ⟨2, ![n, d]⟩)

/-- The two products into zero accumulators, added, and the bias row added to every row; the operands pass through
    the narrowing to bf16, which changes nothing on the extended reals. -/
def linV (M X : FVec Ideal ⟨2, ![n, K]⟩ .f32) (Wl Wr : FVec Ideal ⟨2, ![K, d]⟩ .f32) (bl : FVec Ideal ⟨2, ![1, d]⟩ .f32) :
    FVec Ideal ⟨2, ![n, d]⟩ .f32 :=
  addf (addf
      (matmul (DotDims.plain n K d) none (truncf .bf16 M hlt) (truncf .bf16 Wl hlt) (constant (F := Ideal) ⟨2, ![n, d]⟩ .f32 0x00000000#32))
      (matmul (DotDims.plain n K d) none (truncf .bf16 X hlt) (truncf .bf16 Wr hlt) (constant (F := Ideal) ⟨2, ![n, d]⟩ .f32 0x00000000#32)))
    (broadcastTo ⟨2, ![n, d]⟩ bl hbr)

/-- Row r of the affine block is the specification's affine row of node r. -/
theorem linV_row (M X : FVec Ideal ⟨2, ![n, K]⟩ .f32) (Wl Wr : FVec Ideal ⟨2, ![K, d]⟩ .f32) (bl : FVec Ideal ⟨2, ![1, d]⟩ .f32)
    (r : Fin n) : (fun q : Fin d => linV hlt hbr M X Wl Wr bl (ix2 r q)) = Cert.Sage.linRow M X Wl Wr bl r := by
  funext q
  show (matmul (DotDims.plain n K d) none (truncf .bf16 M hlt) (truncf .bf16 Wl hlt) (constant (F := Ideal) ⟨2, ![n, d]⟩ .f32 0x00000000#32) (ix2 r q)
      + matmul (DotDims.plain n K d) none (truncf .bf16 X hlt) (truncf .bf16 Wr hlt) (constant (F := Ideal) ⟨2, ![n, d]⟩ .f32 0x00000000#32) (ix2 r q))
      + broadcastTo ⟨2, ![n, d]⟩ bl hbr (ix2 r q) = _
  rw [LibBiasRows.row_broadcast]
  refine congrArg₂ (· + ·) (congrArg₂ (· + ·) ?_ ?_) rfl
  · exact LibDense.matmul_plain (truncf .bf16 M hlt) (truncf .bf16 Wl hlt) (ix2 r q)
  · exact LibDense.matmul_plain (truncf .bf16 X hlt) (truncf .bf16 Wr hlt) (ix2 r q)

end Lin

/-! ## Normalising the rows -/

section Norm

variable {n d : ℕ} (acc : BitVec (FTy.bits .f32))
  (hr : Shape.Reduces ⟨2, ![n, d]⟩ [1] ⟨1, ![n]⟩) (hφ : FKind.Formats .f32) (hacc : acc = FKind.add.neutral .f32 hφ)
  (hc : (⟨1, ![n]⟩ : Shape).ShapeCasts ⟨2, ![n, 1]⟩) (hb : (⟨2, ![n, 1]⟩ : Shape).Broadcasts ⟨2, ![n, d]⟩)

/-- The lane sums of a block, kept as a column. -/
def sumCol (L : FVec Ideal ⟨2, ![n, d]⟩ .f32) : FVec Ideal ⟨2, ![n, 1]⟩ .f32 :=
  shapeCast ⟨2, ![n, 1]⟩ (multiReduction .add [1] ⟨1, ![n]⟩ L acc hr hφ hacc) hc

theorem sumCol_apply (L : FVec Ideal ⟨2, ![n, d]⟩ .f32) (r : Fin n) (u : Fin 1) :
    sumCol acc hr hφ hacc hc L (ix2 r u) = ∑ q : Fin d, L (ix2 r q) := by
  unfold sumCol
  rw [LibSoftmaxRow.shapeCast_a_a1_apply]
  exact LibAxisSum.sum_last L acc hr hφ hacc r

/-- The column of row means: the lane sums over the word of the count. -/
def meanCol (L : FVec Ideal ⟨2, ![n, d]⟩ .f32) : FVec Ideal ⟨2, ![n, 1]⟩ .f32 :=
  divf (sumCol acc hr hφ hacc hc L) (broadcast ⟨2, ![n, 1]⟩ (FloatOps.ofBits (F := Ideal) .f32 0x43000000#32))

theorem meanCol_apply (L : FVec Ideal ⟨2, ![n, d]⟩ .f32) (r : Fin n) (u : Fin 1) :
    meanCol acc hr hφ hacc hc L (ix2 r u) = Cert.Sage.rowMean fun q : Fin d => L (ix2 r q) := by
  show Ideal.div (sumCol acc hr hφ hacc hc L (ix2 r u)) (Ideal.ofBits .f32 0x43000000#32) = _
  rw [sumCol_apply]
  rfl

/-- The block centred at its row means. -/
def cenV (L : FVec Ideal ⟨2, ![n, d]⟩ .f32) : FVec Ideal ⟨2, ![n, d]⟩ .f32 :=
  subf L (broadcastTo ⟨2, ![n, d]⟩ (meanCol acc hr hφ hacc hc L) hb)

theorem cenV_apply (L : FVec Ideal ⟨2, ![n, d]⟩ .f32) (r : Fin n) (j : Fin d) :
    cenV acc hr hφ hacc hc hb L (ix2 r j) = Cert.Sage.centred (fun q : Fin d => L (ix2 r q)) j := by
  show L (ix2 r j) - broadcastTo ⟨2, ![n, d]⟩ (meanCol acc hr hφ hacc hc L) hb (ix2 r j) = _
  rw [LibSoftmaxRow.broadcastTo_a1_ab_apply, meanCol_apply]
  rfl

/-- The column of reciprocal standard deviations. -/
def istdCol (L : FVec Ideal ⟨2, ![n, d]⟩ .f32) : FVec Ideal ⟨2, ![n, 1]⟩ .f32 :=
  rsqrt (addf
    (divf (sumCol acc hr hφ hacc hc (mulf (cenV acc hr hφ hacc hc hb L) (cenV acc hr hφ hacc hc hb L)))
      (broadcast ⟨2, ![n, 1]⟩ (FloatOps.ofBits (F := Ideal) .f32 0x43000000#32)))
    (broadcast ⟨2, ![n, 1]⟩ (FloatOps.ofBits (F := Ideal) .f32 0x3727C5AC#32)))

theorem istdCol_apply (L : FVec Ideal ⟨2, ![n, d]⟩ .f32) (r : Fin n) (u : Fin 1) :
    istdCol acc hr hφ hacc hc hb L (ix2 r u) = Cert.Sage.invStd fun q : Fin d => L (ix2 r q) := by
  show Ideal.rsqrt (Ideal.div (sumCol acc hr hφ hacc hc (mulf (cenV acc hr hφ hacc hc hb L) (cenV acc hr hφ hacc hc hb L)) (ix2 r u))
      (Ideal.ofBits .f32 0x43000000#32) + Ideal.ofBits .f32 0x3727C5AC#32) = _
  rw [sumCol_apply]
  unfold Cert.Sage.invStd
  refine congrArg (fun s => Ideal.rsqrt (Ideal.div s (Ideal.ofBits .f32 0x43000000#32) + Ideal.ofBits .f32 0x3727C5AC#32)) ?_
  refine Finset.sum_congr rfl fun q _ => ?_
  show cenV acc hr hφ hacc hc hb L (ix2 r q) * cenV acc hr hφ hacc hc hb L (ix2 r q) = _
  rw [cenV_apply]

/-- The column spread back over the lanes. -/
def istdV (L : FVec Ideal ⟨2, ![n, d]⟩ .f32) : FVec Ideal ⟨2, ![n, d]⟩ .f32 :=
  broadcastTo ⟨2, ![n, d]⟩ (istdCol acc hr hφ hacc hc hb L) hb

theorem istdV_apply (L : FVec Ideal ⟨2, ![n, d]⟩ .f32) (r : Fin n) (j : Fin d) :
    istdV acc hr hφ hacc hc hb L (ix2 r j) = Cert.Sage.invStd fun q : Fin d => L (ix2 r q) := by
  unfold istdV
  rw [LibSoftmaxRow.broadcastTo_a1_ab_apply, istdCol_apply]

/-- Each row divided by the larger of its Euclidean norm and the tiny word. -/
def l2V (y : FVec Ideal ⟨2, ![n, d]⟩ .f32) : FVec Ideal ⟨2, ![n, d]⟩ .f32 :=
  divf y (broadcastTo ⟨2, ![n, d]⟩
    (maximumf (sqrt (sumCol acc hr hφ hacc hc (mulf y y))) (broadcast ⟨2, ![n, 1]⟩ (FloatOps.ofBits (F := Ideal) .f32 0x2B8CBCCC#32))) hb)

theorem l2V_apply (y : FVec Ideal ⟨2, ![n, d]⟩ .f32) (r : Fin n) (j : Fin d) :
    l2V acc hr hφ hacc hc hb y (ix2 r j) = Cert.Sage.l2Row (fun q : Fin d => y (ix2 r q)) j := by
  show Ideal.div (y (ix2 r j)) (broadcastTo ⟨2, ![n, d]⟩
    (maximumf (sqrt (sumCol acc hr hφ hacc hc (mulf y y))) (broadcast ⟨2, ![n, 1]⟩ (FloatOps.ofBits (F := Ideal) .f32 0x2B8CBCCC#32))) hb (ix2 r j)) = _
  rw [LibSoftmaxRow.broadcastTo_a1_ab_apply]
  show Ideal.div (y (ix2 r j)) (max (Ideal.sqrt (sumCol acc hr hφ hacc hc (mulf y y) (ix2 r (0 : Fin 1)))) (Ideal.ofBits .f32 0x2B8CBCCC#32)) = _
  rw [sumCol_apply]
  rfl

end Norm

/-! ## Scale and shift, and the exponential linear unit -/

section Tail

variable {n d : ℕ} (hbr : (⟨2, ![1, d]⟩ : Shape).Broadcasts ⟨2, ![n, d]⟩)

/-- A block scaled by one row and shifted by another. -/
def affV (g b : FVec Ideal ⟨2, ![1, d]⟩ .f32) (y : FVec Ideal ⟨2, ![n, d]⟩ .f32) : FVec Ideal ⟨2, ![n, d]⟩ .f32 :=
  addf (mulf y (broadcastTo ⟨2, ![n, d]⟩ g hbr)) (broadcastTo ⟨2, ![n, d]⟩ b hbr)

theorem affV_apply (g b : FVec Ideal ⟨2, ![1, d]⟩ .f32) (y : FVec Ideal ⟨2, ![n, d]⟩ .f32) (r : Fin n) (j : Fin d) :
    affV hbr g b y (ix2 r j) = y (ix2 r j) * g (ix2 ⟨0, Nat.one_pos⟩ j) + b (ix2 ⟨0, Nat.one_pos⟩ j) := by
  show y (ix2 r j) * broadcastTo ⟨2, ![n, d]⟩ g hbr (ix2 r j) + broadcastTo ⟨2, ![n, d]⟩ b hbr (ix2 r j) = _
  rw [LibBiasRows.row_broadcast, LibBiasRows.row_broadcast]
  rfl

/-- The exponential linear unit as a comparison against the zero word and a choice. -/
def eluV {s : Shape} (y : FVec Ideal s .f32) : FVec Ideal s .f32 :=
  select (cmpf .ogt y (broadcast s (FloatOps.ofBits (F := Ideal) .f32 0x00000000#32))) y
    (subf (exp y) (broadcast s (FloatOps.ofBits (F := Ideal) .f32 0x3F800000#32)))

theorem eluV_apply {s : Shape} (y : FVec Ideal s .f32) (i : s.Idx) : eluV y i = Cert.Sage.elu (y i) := by
  show Scalar.select (Ideal.cmp .ogt (y i) (Ideal.ofBits .f32 0x00000000#32)) (y i) (Ideal.exp (y i) - Ideal.ofBits .f32 0x3F800000#32) = _
  rw [select_ogt]
  rfl

end Tail

end Cert.KernelIdeal.Pay

end
-- ==== Proof.KPay0.lean ====
/-
  The first layer's kernel body, read as the specification: what the body leaves in its output block is the hidden
  layer (normalise the affine rows, scale and shift, exponential linear unit) of its two row blocks.

  The body loads its seven whole blocks, forms the affine rows, their means, the centred rows, the reciprocal
  standard deviations, the scaled and shifted rows and the exponential linear unit, and stores the result over the
  whole output block; the store through the whole-block rectangle leaves its payload and each load reads its block.
-/
import proofs.«112205_j9818295239157_1_alg».proof.Proof.Gen.KernelIdeal.Frame
import proofs.«112205_j9818295239157_1_alg».proof.Proof.LibNormVec

set_option maxHeartbeats 400000

noncomputable section

namespace Cert.KernelIdeal.Pay

open Idealize.ShloMosaic Idealize.ShloMosaic.ValueIdx Cert.KernelIdeal Cert.KernelIdeal.Gen

variable [Cert.KernelIdeal.Facts]

local notation "lin0" => linV (n := 5000) (K := 128) (d := 128) Gen.bitsLt_bf16_f32 Gen.broadcasts_S1x128_S5000x128
local notation "cen0" => cenV (n := 5000) (d := 128) (0x00000000#32 : BitVec (FTy.bits FTy.f32)) Gen.reduces_S5000x128_S5000 (Or.inl rfl) rfl
  Gen.shapeCasts_S5000_S5000x1 Gen.broadcasts_S5000x1_S5000x128
local notation "istd0" => istdV (n := 5000) (d := 128) (0x00000000#32 : BitVec (FTy.bits FTy.f32)) Gen.reduces_S5000x128_S5000 (Or.inl rfl) rfl
  Gen.shapeCasts_S5000_S5000x1 Gen.broadcasts_S5000x1_S5000x128

/-- The normalised rows before scale and shift: the centred affine rows times their reciprocal standard deviations. -/
theorem k0_pay4_eq (v0 v2 : Vec Ideal S5000x128 .f32) (v3 v4 : Vec Ideal S128x128 .f32) (v5 : Vec Ideal S1x128 .f32) :
    Gen.k0_pay4 (F := Ideal) v0 v2 v3 v4 v5 = mulf (cen0 (lin0 v0 v2 v3 v4 v5)) (istd0 (lin0 v0 v2 v3 v4 v5)) := by
  unfold Gen.k0_pay4
  simp only [shapeCast_self]
  rfl

/-- The stored value: the normalised rows scaled and shifted, through the exponential linear unit. -/
theorem k0_pay1_eq (v8 v10 : FVec Ideal S1x128 .f32) (v37 : FVec Ideal S5000x128 .f32) :
    Gen.k0_pay1 (F := Ideal) v8 v10 v37 = eluV (affV Gen.broadcasts_S1x128_S5000x128 v8 v10 v37) := by
  unfold Gen.k0_pay1
  rfl

/-- The output block after the body is the hidden layer of the input blocks. -/
theorem out0_7_eq (x0 x1 : Vec Ideal S5000x128 .f32) (x2 : Vec Ideal S128x128 .f32) (x3 : Vec Ideal S1x128 .f32)
    (x4 : Vec Ideal S128x128 .f32) (x5 x6 : Vec Ideal S1x128 .f32) :
    Gen.out0_7 (F := Ideal) x0 x1 x2 x3 x4 x5 x6 = Cert.Sage.layerElu x0 x1 x2 x4 x3 x5 x6 := by
  unfold Gen.out0_7
  rw [View.canon_unit_zero (S := S5000x128) zeros2]
  rw [View.ld_unit_zero (S := S5000x128) zeros2, View.ld_unit_zero (S := S5000x128) zeros2,
    View.ld_unit_zero (S := S128x128) zeros2, View.ld_unit_zero (S := S128x128) zeros2,
    View.ld_unit_zero (S := S1x128) zeros2, View.ld_unit_zero (S := S1x128) zeros2, View.ld_unit_zero (S := S1x128) zeros2]
  have e2 : Gen.k0_pay2 (F := Ideal) x5 = x5 := by unfold Gen.k0_pay2; exact shapeCast_self _ _
  have e3 : Gen.k0_pay3 (F := Ideal) x6 = x6 := by unfold Gen.k0_pay3; exact shapeCast_self _ _
  rw [e2, e3, k0_pay4_eq, k0_pay1_eq]
  funext i
  obtain ⟨r, j, rfl⟩ : ∃ (r : Fin 5000) (j : Fin 128), i = ix2 r j := ⟨i 0, i 1, eq_ix2 i⟩
  rw [eluV_apply, affV_apply]
  have hrow := linV_row Gen.bitsLt_bf16_f32 Gen.broadcasts_S1x128_S5000x128 x0 x1 x2 x4 x3 r
  have hcen := cenV_apply (0x00000000#32 : BitVec (FTy.bits FTy.f32)) Gen.reduces_S5000x128_S5000 (Or.inl rfl) rfl
    Gen.shapeCasts_S5000_S5000x1 Gen.broadcasts_S5000x1_S5000x128 (lin0 x0 x1 x2 x4 x3) r j
  have hstd := istdV_apply (0x00000000#32 : BitVec (FTy.bits FTy.f32)) Gen.reduces_S5000x128_S5000 (Or.inl rfl) rfl
    Gen.shapeCasts_S5000_S5000x1 Gen.broadcasts_S5000x1_S5000x128 (lin0 x0 x1 x2 x4 x3) r j
  show Cert.Sage.elu (cen0 (lin0 x0 x1 x2 x4 x3) (ix2 r j) * istd0 (lin0 x0 x1 x2 x4 x3) (ix2 r j) * x5 (ix2 ⟨0, Nat.one_pos⟩ j)
      + x6 (ix2 ⟨0, Nat.one_pos⟩ j))
    = Cert.Sage.elu (Cert.Sage.centred (Cert.Sage.linRow x0 x1 x2 x4 x3 r) j * Cert.Sage.invStd (Cert.Sage.linRow x0 x1 x2 x4 x3 r)
      * x5 (ix2 ⟨0, Nat.one_pos⟩ j) + x6 (ix2 ⟨0, Nat.one_pos⟩ j))
  exact congrArg Cert.Sage.elu (congrArg₂ (· + ·) (congrArg₂ (· * ·)
    (congrArg₂ (· * ·) (hcen.trans (congrArg (fun h => Cert.Sage.centred h j) hrow)) (hstd.trans (congrArg Cert.Sage.invStd hrow))) rfl) rfl)

end Cert.KernelIdeal.Pay

end
-- ==== Proof.KPay1.lean ====
/-
  The second layer's kernel body, read as the specification: what the body leaves in its output block is the hidden
  layer (normalise the affine rows, scale and shift, exponential linear unit) of its two row blocks.

  The body is the first layer's with its values cut at other places: the affine rows, the column of their means, the
  centred rows and the spread reciprocal standard deviations are formed first, and the stored value multiplies the
  last two, scales, shifts and applies the exponential linear unit.
-/
import proofs.«112205_j9818295239157_1_alg».proof.Proof.Gen.KernelIdeal.Frame
import proofs.«112205_j9818295239157_1_alg».proof.Proof.LibNormVec

set_option maxHeartbeats 400000

noncomputable section

namespace Cert.KernelIdeal.Pay

open Idealize.ShloMosaic Idealize.ShloMosaic.ValueIdx Cert.KernelIdeal Cert.KernelIdeal.Gen

variable [Cert.KernelIdeal.Facts]

local notation "lin1" => linV (n := 5000) (K := 128) (d := 128) Gen.bitsLt_bf16_f32 Gen.broadcasts_S1x128_S5000x128
local notation "cen1" => cenV (n := 5000) (d := 128) (0x00000000#32 : BitVec (FTy.bits FTy.f32)) Gen.reduces_S5000x128_S5000 (Or.inl rfl) rfl
  Gen.shapeCasts_S5000_S5000x1 Gen.broadcasts_S5000x1_S5000x128
local notation "istd1" => istdV (n := 5000) (d := 128) (0x00000000#32 : BitVec (FTy.bits FTy.f32)) Gen.reduces_S5000x128_S5000 (Or.inl rfl) rfl
  Gen.shapeCasts_S5000_S5000x1 Gen.broadcasts_S5000x1_S5000x128

/-- The centred affine rows. -/
theorem k1_pay6_eq (v0 v2 : Vec Ideal S5000x128 .f32) (v4 v5 : Vec Ideal S128x128 .f32) (v6 : Vec Ideal S1x128 .f32) :
    Gen.k1_pay6 (F := Ideal) v0 v2 v4 v5 v6 = cen1 (lin1 v0 v2 v4 v5 v6) := by
  unfold Gen.k1_pay6 Gen.k1_pay5 Gen.k1_pay4
  simp only [shapeCast_self]
  rfl

/-- The reciprocal standard deviations of the affine rows, spread over the lanes. -/
theorem k1_pay7_eq (v0 v2 : Vec Ideal S5000x128 .f32) (v4 v5 : Vec Ideal S128x128 .f32) (v6 : Vec Ideal S1x128 .f32) :
    Gen.k1_pay7 (F := Ideal) v0 v2 v4 v5 v6 = istd1 (lin1 v0 v2 v4 v5 v6) := by
  unfold Gen.k1_pay7 Gen.k1_pay5 Gen.k1_pay4
  simp only [shapeCast_self]
  rfl

/-- The stored value: the product of the two scaled and shifted, through the exponential linear unit. -/
theorem k1_pay1_eq (v9 v11 : FVec Ideal S1x128 .f32) (v33 v37 : FVec Ideal S5000x128 .f32) :
    Gen.k1_pay1 (F := Ideal) v9 v11 v33 v37 = eluV (affV Gen.broadcasts_S1x128_S5000x128 v9 v11 (mulf v33 v37)) := by
  unfold Gen.k1_pay1
  rfl

/-- The output block after the body is the hidden layer of the input blocks. -/
theorem out1_7_eq (x0 x1 : Vec Ideal S5000x128 .f32) (x2 : Vec Ideal S128x128 .f32) (x3 : Vec Ideal S1x128 .f32)
    (x4 : Vec Ideal S128x128 .f32) (x5 x6 : Vec Ideal S1x128 .f32) :
    Gen.out1_7 (F := Ideal) x0 x1 x2 x3 x4 x5 x6 = Cert.Sage.layerElu x0 x1 x2 x4 x3 x5 x6 := by
  unfold Gen.out1_7
  rw [View.canon_unit_zero (S := S5000x128) zeros2]
  rw [View.ld_unit_zero (S := S5000x128) zeros2, View.ld_unit_zero (S := S5000x128) zeros2,
    View.ld_unit_zero (S := S128x128) zeros2, View.ld_unit_zero (S := S128x128) zeros2,
    View.ld_unit_zero (S := S1x128) zeros2, View.ld_unit_zero (S := S1x128) zeros2, View.ld_unit_zero (S := S1x128) zeros2]
  have e2 : Gen.k1_pay2 (F := Ideal) x5 = x5 := by unfold Gen.k1_pay2; exact shapeCast_self _ _
  have e3 : Gen.k1_pay3 (F := Ideal) x6 = x6 := by unfold Gen.k1_pay3; exact shapeCast_self _ _
  rw [e2, e3, k1_pay6_eq, k1_pay7_eq, k1_pay1_eq]
  funext i
  obtain ⟨r, j, rfl⟩ : ∃ (r : Fin 5000) (j : Fin 128), i = ix2 r j := ⟨i 0, i 1, eq_ix2 i⟩
  rw [eluV_apply, affV_apply]
  have hrow := linV_row Gen.bitsLt_bf16_f32 Gen.broadcasts_S1x128_S5000x128 x0 x1 x2 x4 x3 r
  have hcen := cenV_apply (0x00000000#32 : BitVec (FTy.bits FTy.f32)) Gen.reduces_S5000x128_S5000 (Or.inl rfl) rfl
    Gen.shapeCasts_S5000_S5000x1 Gen.broadcasts_S5000x1_S5000x128 (lin1 x0 x1 x2 x4 x3) r j
  have hstd := istdV_apply (0x00000000#32 : BitVec (FTy.bits FTy.f32)) Gen.reduces_S5000x128_S5000 (Or.inl rfl) rfl
    Gen.shapeCasts_S5000_S5000x1 Gen.broadcasts_S5000x1_S5000x128 (lin1 x0 x1 x2 x4 x3) r j
  show Cert.Sage.elu (cen1 (lin1 x0 x1 x2 x4 x3) (ix2 r j) * istd1 (lin1 x0 x1 x2 x4 x3) (ix2 r j) * x5 (ix2 ⟨0, Nat.one_pos⟩ j)
      + x6 (ix2 ⟨0, Nat.one_pos⟩ j))
    = Cert.Sage.elu (Cert.Sage.centred (Cert.Sage.linRow x0 x1 x2 x4 x3 r) j * Cert.Sage.invStd (Cert.Sage.linRow x0 x1 x2 x4 x3 r)
      * x5 (ix2 ⟨0, Nat.one_pos⟩ j) + x6 (ix2 ⟨0, Nat.one_pos⟩ j))
  exact congrArg Cert.Sage.elu (congrArg₂ (· + ·) (congrArg₂ (· * ·)
    (congrArg₂ (· * ·) (hcen.trans (congrArg (fun h => Cert.Sage.centred h j) hrow)) (hstd.trans (congrArg Cert.Sage.invStd hrow))) rfl) rfl)

end Cert.KernelIdeal.Pay

end
-- ==== Proof.KPay2.lean ====
/-
  The last layer's kernel body, read as the specification: what the body leaves in its output block is the last layer
  (normalise the affine rows, scale and shift, divide each row by its clamped Euclidean norm) of its two row blocks.

  The affine rows, the column of their means, the centred rows and the spread reciprocal standard deviations are
  formed as in the hidden layers; the stored value multiplies the last two, scales and shifts, and divides by the
  larger of the row's Euclidean norm (the square root of the lane sum of squares, kept as a column) and a tiny word.
-/
import proofs.«112205_j9818295239157_1_alg».proof.Proof.Gen.KernelIdeal.Frame
import proofs.«112205_j9818295239157_1_alg».proof.Proof.LibNormVec

set_option maxHeartbeats 400000

noncomputable section

namespace Cert.KernelIdeal.Pay

open Idealize.ShloMosaic Idealize.ShloMosaic.ValueIdx Cert.KernelIdeal Cert.KernelIdeal.Gen

variable [Cert.KernelIdeal.Facts]

local notation "lin2" => linV (n := 5000) (K := 128) (d := 128) Gen.bitsLt_bf16_f32 Gen.broadcasts_S1x128_S5000x128
local notation "cen2" => cenV (n := 5000) (d := 128) (0x00000000#32 : BitVec (FTy.bits FTy.f32)) Gen.reduces_S5000x128_S5000 (Or.inl rfl) rfl
  Gen.shapeCasts_S5000_S5000x1 Gen.broadcasts_S5000x1_S5000x128
local notation "istd2" => istdV (n := 5000) (d := 128) (0x00000000#32 : BitVec (FTy.bits FTy.f32)) Gen.reduces_S5000x128_S5000 (Or.inl rfl) rfl
  Gen.shapeCasts_S5000_S5000x1 Gen.broadcasts_S5000x1_S5000x128
local notation "nrm2" => l2V (n := 5000) (d := 128) (0x00000000#32 : BitVec (FTy.bits FTy.f32)) Gen.reduces_S5000x128_S5000 (Or.inl rfl) rfl
  Gen.shapeCasts_S5000_S5000x1 Gen.broadcasts_S5000x1_S5000x128

/-- The centred affine rows. -/
theorem k2_pay6_eq (v0 v2 : Vec Ideal S5000x128 .f32) (v4 v5 : Vec Ideal S128x128 .f32) (v6 : Vec Ideal S1x128 .f32) :
    Gen.k2_pay6 (F := Ideal) v0 v2 v4 v5 v6 = cen2 (lin2 v0 v2 v4 v5 v6) := by
  unfold Gen.k2_pay6 Gen.k2_pay5 Gen.k2_pay4
  simp only [shapeCast_self]
  rfl

/-- The reciprocal standard deviations of the affine rows, spread over the lanes. -/
theorem k2_pay7_eq (v0 v2 : Vec Ideal S5000x128 .f32) (v4 v5 : Vec Ideal S128x128 .f32) (v6 : Vec Ideal S1x128 .f32) :
    Gen.k2_pay7 (F := Ideal) v0 v2 v4 v5 v6 = istd2 (lin2 v0 v2 v4 v5 v6) := by
  unfold Gen.k2_pay7 Gen.k2_pay5 Gen.k2_pay4
  simp only [shapeCast_self]
  rfl

/-- The stored value: the product of the two scaled and shifted, each row divided by its clamped Euclidean norm. -/
theorem k2_pay1_eq (v9 v11 : FVec Ideal S1x128 .f32) (v33 v37 : FVec Ideal S5000x128 .f32) :
    Gen.k2_pay1 (F := Ideal) v9 v11 v33 v37 = nrm2 (affV Gen.broadcasts_S1x128_S5000x128 v9 v11 (mulf v33 v37)) := by
  unfold Gen.k2_pay1
  rfl

/-- The output block after the body is the last layer of the input blocks. -/
theorem out2_7_eq (x0 x1 : Vec Ideal S5000x128 .f32) (x2 : Vec Ideal S128x128 .f32) (x3 : Vec Ideal S1x128 .f32)
    (x4 : Vec Ideal S128x128 .f32) (x5 x6 : Vec Ideal S1x128 .f32) :
    Gen.out2_7 (F := Ideal) x0 x1 x2 x3 x4 x5 x6 = Cert.Sage.layerL2 x0 x1 x2 x4 x3 x5 x6 := by
  unfold Gen.out2_7
  rw [View.canon_unit_zero (S := S5000x128) zeros2]
  rw [View.ld_unit_zero (S := S5000x128) zeros2, View.ld_unit_zero (S := S5000x128) zeros2,
    View.ld_unit_zero (S := S128x128) zeros2, View.ld_unit_zero (S := S128x128) zeros2,
    View.ld_unit_zero (S := S1x128) zeros2, View.ld_unit_zero (S := S1x128) zeros2, View.ld_unit_zero (S := S1x128) zeros2]
  have e2 : Gen.k2_pay2 (F := Ideal) x5 = x5 := by unfold Gen.k2_pay2; exact shapeCast_self _ _
  have e3 : Gen.k2_pay3 (F := Ideal) x6 = x6 := by unfold Gen.k2_pay3; exact shapeCast_self _ _
  rw [e2, e3, k2_pay6_eq, k2_pay7_eq, k2_pay1_eq]
  funext i
  obtain ⟨r, j, rfl⟩ : ∃ (r : Fin 5000) (j : Fin 128), i = ix2 r j := ⟨i 0, i 1, eq_ix2 i⟩
  have hrow := linV_row Gen.bitsLt_bf16_f32 Gen.broadcasts_S1x128_S5000x128 x0 x1 x2 x4 x3 r
  -- the scaled and shifted row of node r, entry by entry
  have hy : (fun q : Fin 128 => affV Gen.broadcasts_S1x128_S5000x128 x5 x6
        (mulf (cen2 (lin2 x0 x1 x2 x4 x3)) (istd2 (lin2 x0 x1 x2 x4 x3))) (ix2 r q))
      = Cert.Sage.normRow x0 x1 x2 x4 x3 x5 x6 r := by
    funext q
    have hcen := cenV_apply (0x00000000#32 : BitVec (FTy.bits FTy.f32)) Gen.reduces_S5000x128_S5000 (Or.inl rfl) rfl
      Gen.shapeCasts_S5000_S5000x1 Gen.broadcasts_S5000x1_S5000x128 (lin2 x0 x1 x2 x4 x3) r q
    have hstd := istdV_apply (0x00000000#32 : BitVec (FTy.bits FTy.f32)) Gen.reduces_S5000x128_S5000 (Or.inl rfl) rfl
      Gen.shapeCasts_S5000_S5000x1 Gen.broadcasts_S5000x1_S5000x128 (lin2 x0 x1 x2 x4 x3) r q
    rw [affV_apply]
    show cen2 (lin2 x0 x1 x2 x4 x3) (ix2 r q) * istd2 (lin2 x0 x1 x2 x4 x3) (ix2 r q) * x5 (ix2 ⟨0, Nat.one_pos⟩ q)
        + x6 (ix2 ⟨0, Nat.one_pos⟩ q)
      = Cert.Sage.centred (Cert.Sage.linRow x0 x1 x2 x4 x3 r) q * Cert.Sage.invStd (Cert.Sage.linRow x0 x1 x2 x4 x3 r)
        * x5 (ix2 ⟨0, Nat.one_pos⟩ q) + x6 (ix2 ⟨0, Nat.one_pos⟩ q)
    exact congrArg₂ (· + ·) (congrArg₂ (· * ·)
      (congrArg₂ (· * ·) (hcen.trans (congrArg (fun h => Cert.Sage.centred h q) hrow)) (hstd.trans (congrArg Cert.Sage.invStd hrow))) rfl) rfl
  have hl2 := l2V_apply (0x00000000#32 : BitVec (FTy.bits FTy.f32)) Gen.reduces_S5000x128_S5000 (Or.inl rfl) rfl
    Gen.shapeCasts_S5000_S5000x1 Gen.broadcasts_S5000x1_S5000x128
    (affV Gen.broadcasts_S1x128_S5000x128 x5 x6 (mulf (cen2 (lin2 x0 x1 x2 x4 x3)) (istd2 (lin2 x0 x1 x2 x4 x3)))) r j
  exact hl2.trans (congrArg (fun y => Cert.Sage.l2Row y j) hy)

end Cert.KernelIdeal.Pay

end
-- ==== Proof.RefOps.lean ====
/-
  The reference program as a list of its host operations, in order, cut where its three layers cut it:
  the edge table's two rows; then per layer the neighbourhood mean, the affine map with the row
  normalisation, and the activation (the exponential linear unit's outlined functions written out
  at the call, over the call's own buffers); last the division by the row norm.  Beside each stretch
  the buffers it writes.
-/
import proofs.«112205_j9818295239157_1_alg».proof.ReferenceIdeal
import Idealize.ShloMosaic.Lib.StableHlo.Run

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The two rows of the edge table, each as a vector of node numbers (the operations %0–%3). -/
abbrev P0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- The buffers the stretch above writes. -/
abbrev P0_W : List (Ref sig .tc) := [main_v0, main_v1, main_v2, main_v3]

/-- The first layer's neighbourhood mean: gather the source rows, add them up at their destinations, divide by the larger of the in-degree and one. -/
abbrev A1 : List (HloOp τ sig (Elt F)) :=
  [ nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)) ]

/-- The buffers the stretch above writes. -/
abbrev A1_W : List (Ref sig .tc) := [main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22]

/-- The first layer's affine map and the first part of its row normalisation. -/
abbrev N1a : List (HloOp τ sig (Elt F)) :=
  [ binary main_v22 main_arg2 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    binary main_arg0 main_arg4 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v26 main_v27 main_v28 (addf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x00000000#32),
    binary main_v28 main_cst_4 main_v29 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v29 main_v30 (broadcastInDim S100000x1 ![0] bcast_S100000_S100000x1_0 : (⟨S100000, .f32⟩ : BufTy).Contents (Elt F) → (⟨S100000x1, .f32⟩ : BufTy).Contents (Elt F)),
    nullary main_cst_5 (constant S_ .f32 0x43000000#32),
    unary main_cst_5 main_v31 (broadcastInDim S100000x1 ![] bcast_S_S100000x1 : (⟨S_, .f32⟩ : BufTy).Contents (Elt F) → (⟨S100000x1, .f32⟩ : BufTy).Contents (Elt F)),
    binary main_v30 main_v31 main_v32 (Host.divf : (⟨S100000x1, .f32⟩ : BufTy).Contents (Elt F) → (⟨S100000x1, .f32⟩ : BufTy).Contents (Elt F) → (⟨S100000x1, .f32⟩ : BufTy).Contents (Elt F)),
    unary main_v32 main_v33 (broadcastInDim S100000x128 ![0, 1] bcast_S100000x1_S100000x128_0_1 : (⟨S100000x1, .f32⟩ : BufTy).Contents (Elt F) → (⟨S100000x128, .f32⟩ : BufTy).Contents (Elt F)),
    binary main_v28 main_v33 main_v34 (subf : (⟨S100000x128, .f32⟩ : BufTy).Contents (Elt F) → (⟨S100000x128, .f32⟩ : BufTy).Contents (Elt F) → (⟨S100000x128, .f32⟩ : BufTy).Contents (Elt F)),
    binary main_v34 main_v34 main_v35 (mulf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    binary main_v35 main_cst_6 main_v36 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v36 main_v37 (broadcastInDim S100000x1 ![0] bcast_S100000_S100000x1_0 : (⟨S100000, .f32⟩ : BufTy).Contents (Elt F) → (⟨S100000x1, .f32⟩ : BufTy).Contents (Elt F)),
    nullary main_cst_7 (constant S_ .f32 0x43000000#32),
    unary main_cst_7 main_v38 (broadcastInDim S100000x1 ![] bcast_S_S100000x1 : (⟨S_, .f32⟩ : BufTy).Contents (Elt F) → (⟨S100000x1, .f32⟩ : BufTy).Contents (Elt F)),
    binary main_v37 main_v38 main_v39 (Host.divf : (⟨S100000x1, .f32⟩ : BufTy).Contents (Elt F) → (⟨S100000x1, .f32⟩ : BufTy).Contents (Elt F) → (⟨S100000x1, .f32⟩ : BufTy).Contents (Elt F)),
    unary main_v32 main_v40 (broadcastInDim S100000x128 ![0, 1] bcast_S100000x1_S100000x128_0_1 : (⟨S100000x1, .f32⟩ : BufTy).Contents (Elt F) → (⟨S100000x128, .f32⟩ : BufTy).Contents (Elt F)),
    binary main_v28 main_v40 main_v41 (subf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x3727C5AC#32),
    unary main_cst_8 main_v42 (broadcastInDim S100000x1 ![] bcast_S_S100000x1 : (⟨S_, .f32⟩ : BufTy).Contents (Elt F) → (⟨S100000x1, .f32⟩ : BufTy).Contents (Elt F)),
    binary main_v39 main_v42 main_v43 (addf : (⟨S100000x1, .f32⟩ : BufTy).Contents (Elt F) → (⟨S100000x1, .f32⟩ : BufTy).Contents (Elt F) → (⟨S100000x1, .f32⟩ : BufTy).Contents (Elt F)),
    unary main_v43 main_v44 (Host.rsqrt : (⟨S100000x1, .f32⟩ : BufTy).Contents (Elt F) → (⟨S100000x1, .f32⟩ : BufTy).Contents (Elt F)),
    unary main_v44 main_v45 (broadcastInDim S100000x128 ![0, 1] bcast_S100000x1_S100000x128_0_1 : (⟨S100000x1, .f32⟩ : BufTy).Contents (Elt F) → (⟨S100000x128, .f32⟩ : BufTy).Contents (Elt F)),
    binary main_v41 main_v45 main_v46 (mulf : (⟨S100000x128, .f32⟩ : BufTy).Contents (Elt F) → (⟨S100000x128, .f32⟩ : BufTy).Contents (Elt F) → (⟨S100000x128, .f32⟩ : BufTy).Contents (Elt F)),
    unary main_arg5 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)) ]

/-- The buffers the stretch above writes. -/
abbrev N1a_W : List (Ref sig .tc) := [main_v23, main_v24, main_v25, main_v26, main_v27, main_v28, main_cst_4, main_v29, main_v30, main_cst_5, main_v31, main_v32, main_v33, main_v34, main_v35, main_cst_6, main_v36, main_v37, main_cst_7, main_v38, main_v39, main_v40, main_v41, main_cst_8, main_v42, main_v43, main_v44, main_v45, main_v46, main_v47, main_v48]

/-- The rest of the first layer's row normalisation (scale and shift). -/
abbrev N1b : List (HloOp τ sig (Elt F)) :=
  [ binary main_v46 main_v48 main_v49 (mulf : (⟨S100000x128, .f32⟩ : BufTy).Contents (Elt F) → (⟨S100000x128, .f32⟩ : BufTy).Contents (Elt F) → (⟨S100000x128, .f32⟩ : BufTy).Contents (Elt F)),
    unary main_arg6 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (addf : (⟨S100000x128, .f32⟩ : BufTy).Contents (Elt F) → (⟨S100000x128, .f32⟩ : BufTy).Contents (Elt F) → (⟨S100000x128, .f32⟩ : BufTy).Contents (Elt F)) ]

/-- The buffers the stretch above writes. -/
abbrev N1b_W : List (Ref sig .tc) := [main_v49, main_v50, main_v51, main_v52]

/-- The exponential linear unit after the first layer, its two outlined selection functions written out at the call. -/
abbrev E1 : List (HloOp τ sig (Elt F)) :=
  [ TRef.nullary main_call0.cst (constant S_ .f32 0x00000000#32),
    TRef.unary main_call0.cst main_call0.v0 (broadcastInDim S100000x128 ![] bcast_S_S100000x128),
    TRef.binary (.of main_v52 : TRef sig ⟨S100000x128, .f32⟩) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v52 : TRef sig ⟨S100000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v52 : TRef sig ⟨S100000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v52 : TRef sig ⟨S100000x128, .f32⟩) main_call0.v7 main_call0.call1.v0 select ]

/-- The buffers the stretch above writes. -/
abbrev E1_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v53]

/-- The second layer's neighbourhood mean. -/
abbrev A2 : List (HloOp τ sig (Elt F)) :=
  [ nullary main_c_9 (constantI S_ 32 0#32),
    unary main_c_9 main_v54 (broadcastInDim S1600000 ![] bcast_S_S1600000 : (⟨S_, .i32⟩ : BufTy).Contents (Elt F) → (⟨S1600000, .i32⟩ : BufTy).Contents (Elt F)),
    binary main_v1 main_v54 main_v55 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v56 (broadcastInDim S1600000 ![] bcast_S_S1600000 : (⟨S_, .i32⟩ : BufTy).Contents (Elt F) → (⟨S1600000, .i32⟩ : BufTy).Contents (Elt F)),
    binary main_v1 main_v56 main_v57 (addi : (⟨S1600000, .i32⟩ : BufTy).Contents (Elt F) → (⟨S1600000, .i32⟩ : BufTy).Contents (Elt F) → (⟨S1600000, .i32⟩ : BufTy).Contents (Elt F)),
    ternary main_v55 main_v57 main_v1 main_v58 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v58 main_v59 (broadcastInDim S1600000x1 ![0] bcast_S1600000_S1600000x1_0 : (⟨S1600000, .i32⟩ : BufTy).Contents (Elt F) → (⟨S1600000x1, .i32⟩ : BufTy).Contents (Elt F)),
    binary main_v53 main_v59 main_v60 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_11 (constant S_ .f32 0x00000000#32),
    unary main_cst_11 main_v61 (broadcastInDim S100000x128 ![] bcast_S_S100000x128 : (⟨S_, .f32⟩ : BufTy).Contents (Elt F) → (⟨S100000x128, .f32⟩ : BufTy).Contents (Elt F)),
    unary main_v3 main_v62 (broadcastInDim S1600000x1 ![0] bcast_S1600000_S1600000x1_0 : (⟨S1600000, .i32⟩ : BufTy).Contents (Elt F) → (⟨S1600000x1, .i32⟩ : BufTy).Contents (Elt F)),
    ternary main_v61 main_v62 main_v60 main_v63 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_12 (constant S_ .f32 0x3F800000#32),
    unary main_cst_12 main_v64 (broadcastInDim S1600000 ![] bcast_S_S1600000 : (⟨S_, .f32⟩ : BufTy).Contents (Elt F) → (⟨S1600000, .f32⟩ : BufTy).Contents (Elt F)),
    nullary main_cst_13 (constant S_ .f32 0x00000000#32),
    unary main_cst_13 main_v65 (broadcastInDim S100000 ![] bcast_S_S100000 : (⟨S_, .f32⟩ : BufTy).Contents (Elt F) → (⟨S100000, .f32⟩ : BufTy).Contents (Elt F)),
    unary main_v3 main_v66 (broadcastInDim S1600000x1 ![0] bcast_S1600000_S1600000x1_0 : (⟨S1600000, .i32⟩ : BufTy).Contents (Elt F) → (⟨S1600000x1, .i32⟩ : BufTy).Contents (Elt F)),
    ternary main_v65 main_v66 main_v64 main_v67 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_14 (constant S_ .f32 0x3F800000#32),
    unary main_cst_14 main_v68 (broadcastInDim S100000 ![] bcast_S_S100000 : (⟨S_, .f32⟩ : BufTy).Contents (Elt F) → (⟨S100000, .f32⟩ : BufTy).Contents (Elt F)),
    binary main_v67 main_v68 main_v69 (maximumf : (⟨S100000, .f32⟩ : BufTy).Contents (Elt F) → (⟨S100000, .f32⟩ : BufTy).Contents (Elt F) → (⟨S100000, .f32⟩ : BufTy).Contents (Elt F)),
    unary main_v69 main_v70 (broadcastInDim S100000x1 ![0] bcast_S100000_S100000x1_0 : (⟨S100000, .f32⟩ : BufTy).Contents (Elt F) → (⟨S100000x1, .f32⟩ : BufTy).Contents (Elt F)),
    unary main_v70 main_v71 (broadcastInDim S100000x128 ![0, 1] bcast_S100000x1_S100000x128_0_1 : (⟨S100000x1, .f32⟩ : BufTy).Contents (Elt F) → (⟨S100000x128, .f32⟩ : BufTy).Contents (Elt F)),
    binary main_v63 main_v71 main_v72 (Host.divf : (⟨S100000x128, .f32⟩ : BufTy).Contents (Elt F) → (⟨S100000x128, .f32⟩ : BufTy).Contents (Elt F) → (⟨S100000x128, .f32⟩ : BufTy).Contents (Elt F)) ]

/-- The buffers the stretch above writes. -/
abbrev A2_W : List (Ref sig .tc) := [main_c_9, main_v54, main_v55, main_c_10, main_v56, main_v57, main_v58, main_v59, main_v60, main_cst_11, main_v61, main_v62, main_v63, main_cst_12, main_v64, main_cst_13, main_v65, main_v66, main_v67, main_cst_14, main_v68, main_v69, main_v70, main_v71, main_v72]

/-- The second layer's affine map and the first part of its row normalisation. -/
abbrev N2a : List (HloOp τ sig (Elt F)) :=
  [ binary main_v72 main_arg7 main_v73 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v73 main_v75 main_v76 (addf : (⟨S100000x128, .f32⟩ : BufTy).Contents (Elt F) → (⟨S100000x128, .f32⟩ : BufTy).Contents (Elt F) → (⟨S100000x128, .f32⟩ : BufTy).Contents (Elt F)),
    binary main_v53 main_arg9 main_v77 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v76 main_v77 main_v78 (addf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x00000000#32),
    binary main_v78 main_cst_15 main_v79 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v79 main_v80 (broadcastInDim S100000x1 ![0] bcast_S100000_S100000x1_0 : (⟨S100000, .f32⟩ : BufTy).Contents (Elt F) → (⟨S100000x1, .f32⟩ : BufTy).Contents (Elt F)),
    nullary main_cst_16 (constant S_ .f32 0x43000000#32),
    unary main_cst_16 main_v81 (broadcastInDim S100000x1 ![] bcast_S_S100000x1 : (⟨S_, .f32⟩ : BufTy).Contents (Elt F) → (⟨S100000x1, .f32⟩ : BufTy).Contents (Elt F)),
    binary main_v80 main_v81 main_v82 (Host.divf : (⟨S100000x1, .f32⟩ : BufTy).Contents (Elt F) → (⟨S100000x1, .f32⟩ : BufTy).Contents (Elt F) → (⟨S100000x1, .f32⟩ : BufTy).Contents (Elt F)),
    unary main_v82 main_v83 (broadcastInDim S100000x128 ![0, 1] bcast_S100000x1_S100000x128_0_1 : (⟨S100000x1, .f32⟩ : BufTy).Contents (Elt F) → (⟨S100000x128, .f32⟩ : BufTy).Contents (Elt F)),
    binary main_v78 main_v83 main_v84 (subf : (⟨S100000x128, .f32⟩ : BufTy).Contents (Elt F) → (⟨S100000x128, .f32⟩ : BufTy).Contents (Elt F) → (⟨S100000x128, .f32⟩ : BufTy).Contents (Elt F)),
    binary main_v84 main_v84 main_v85 (mulf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x00000000#32),
    binary main_v85 main_cst_17 main_v86 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v86 main_v87 (broadcastInDim S100000x1 ![0] bcast_S100000_S100000x1_0 : (⟨S100000, .f32⟩ : BufTy).Contents (Elt F) → (⟨S100000x1, .f32⟩ : BufTy).Contents (Elt F)),
    nullary main_cst_18 (constant S_ .f32 0x43000000#32),
    unary main_cst_18 main_v88 (broadcastInDim S100000x1 ![] bcast_S_S100000x1 : (⟨S_, .f32⟩ : BufTy).Contents (Elt F) → (⟨S100000x1, .f32⟩ : BufTy).Contents (Elt F)),
    binary main_v87 main_v88 main_v89 (Host.divf : (⟨S100000x1, .f32⟩ : BufTy).Contents (Elt F) → (⟨S100000x1, .f32⟩ : BufTy).Contents (Elt F) → (⟨S100000x1, .f32⟩ : BufTy).Contents (Elt F)),
    unary main_v82 main_v90 (broadcastInDim S100000x128 ![0, 1] bcast_S100000x1_S100000x128_0_1 : (⟨S100000x1, .f32⟩ : BufTy).Contents (Elt F) → (⟨S100000x128, .f32⟩ : BufTy).Contents (Elt F)),
    binary main_v78 main_v90 main_v91 (subf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x3727C5AC#32),
    unary main_cst_19 main_v92 (broadcastInDim S100000x1 ![] bcast_S_S100000x1 : (⟨S_, .f32⟩ : BufTy).Contents (Elt F) → (⟨S100000x1, .f32⟩ : BufTy).Contents (Elt F)),
    binary main_v89 main_v92 main_v93 (addf : (⟨S100000x1, .f32⟩ : BufTy).Contents (Elt F) → (⟨S100000x1, .f32⟩ : BufTy).Contents (Elt F) → (⟨S100000x1, .f32⟩ : BufTy).Contents (Elt F)),
    unary main_v93 main_v94 (Host.rsqrt : (⟨S100000x1, .f32⟩ : BufTy).Contents (Elt F) → (⟨S100000x1, .f32⟩ : BufTy).Contents (Elt F)),
    unary main_v94 main_v95 (broadcastInDim S100000x128 ![0, 1] bcast_S100000x1_S100000x128_0_1 : (⟨S100000x1, .f32⟩ : BufTy).Contents (Elt F) → (⟨S100000x128, .f32⟩ : BufTy).Contents (Elt F)),
    binary main_v91 main_v95 main_v96 (mulf : (⟨S100000x128, .f32⟩ : BufTy).Contents (Elt F) → (⟨S100000x128, .f32⟩ : BufTy).Contents (Elt F) → (⟨S100000x128, .f32⟩ : BufTy).Contents (Elt F)),
    unary main_arg10 main_v97 (broadcastInDim S1x128 ![1] bcast_S128_S1x128_1 : (⟨S128, .f32⟩ : BufTy).Contents (Elt F) → (⟨S1x128, .f32⟩ : BufTy).Contents (Elt F)) ]

/-- The buffers the stretch above writes. -/
abbrev N2a_W : List (Ref sig .tc) := [main_v73, main_v74, main_v75, main_v76, main_v77, main_v78, main_cst_15, main_v79, main_v80, main_cst_16, main_v81, main_v82, main_v83, main_v84, main_v85, main_cst_17, main_v86, main_v87, main_cst_18, main_v88, main_v89, main_v90, main_v91, main_cst_19, main_v92, main_v93, main_v94, main_v95, main_v96, main_v97]

/-- The rest of the second layer's row normalisation. -/
abbrev N2b : List (HloOp τ sig (Elt F)) :=
  [ unary main_v97 main_v98 (broadcastInDim S100000x128 ![0, 1] bcast_S1x128_S100000x128_0_1 : (⟨S1x128, .f32⟩ : BufTy).Contents (Elt F) → (⟨S100000x128, .f32⟩ : BufTy).Contents (Elt F)),
    binary main_v96 main_v98 main_v99 (mulf : (⟨S100000x128, .f32⟩ : BufTy).Contents (Elt F) → (⟨S100000x128, .f32⟩ : BufTy).Contents (Elt F) → (⟨S100000x128, .f32⟩ : BufTy).Contents (Elt F)),
    unary main_arg11 main_v100 (broadcastInDim S1x128 ![1] bcast_S128_S1x128_1 : (⟨S128, .f32⟩ : BufTy).Contents (Elt F) → (⟨S1x128, .f32⟩ : BufTy).Contents (Elt F)),
    unary main_v100 main_v101 (broadcastInDim S100000x128 ![0, 1] bcast_S1x128_S100000x128_0_1 : (⟨S1x128, .f32⟩ : BufTy).Contents (Elt F) → (⟨S100000x128, .f32⟩ : BufTy).Contents (Elt F)),
    binary main_v99 main_v101 main_v102 (addf : (⟨S100000x128, .f32⟩ : BufTy).Contents (Elt F) → (⟨S100000x128, .f32⟩ : BufTy).Contents (Elt F) → (⟨S100000x128, .f32⟩ : BufTy).Contents (Elt F)) ]

/-- The buffers the stretch above writes. -/
abbrev N2b_W : List (Ref sig .tc) := [main_v98, main_v99, main_v100, main_v101, main_v102]

/-- The exponential linear unit after the second layer, written out at the call. -/
abbrev E2 : List (HloOp τ sig (Elt F)) :=
  [ TRef.nullary main_call1.cst (constant S_ .f32 0x00000000#32),
    TRef.unary main_call1.cst main_call1.v0 (broadcastInDim S100000x128 ![] bcast_S_S100000x128),
    TRef.binary (.of main_v102 : TRef sig ⟨S100000x128, .f32⟩) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v102 : TRef sig ⟨S100000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v102 : TRef sig ⟨S100000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v102 : TRef sig ⟨S100000x128, .f32⟩) main_call1.v7 main_call1.call1.v0 select ]

/-- The buffers the stretch above writes. -/
abbrev E2_W : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v103]

/-- The third layer's neighbourhood mean. -/
abbrev A3 : List (HloOp τ sig (Elt F)) :=
  [ nullary main_c_20 (constantI S_ 32 0#32),
    unary main_c_20 main_v104 (broadcastInDim S1600000 ![] bcast_S_S1600000 : (⟨S_, .i32⟩ : BufTy).Contents (Elt F) → (⟨S1600000, .i32⟩ : BufTy).Contents (Elt F)),
    binary main_v1 main_v104 main_v105 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v106 (broadcastInDim S1600000 ![] bcast_S_S1600000 : (⟨S_, .i32⟩ : BufTy).Contents (Elt F) → (⟨S1600000, .i32⟩ : BufTy).Contents (Elt F)),
    binary main_v1 main_v106 main_v107 (addi : (⟨S1600000, .i32⟩ : BufTy).Contents (Elt F) → (⟨S1600000, .i32⟩ : BufTy).Contents (Elt F) → (⟨S1600000, .i32⟩ : BufTy).Contents (Elt F)),
    ternary main_v105 main_v107 main_v1 main_v108 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v108 main_v109 (broadcastInDim S1600000x1 ![0] bcast_S1600000_S1600000x1_0 : (⟨S1600000, .i32⟩ : BufTy).Contents (Elt F) → (⟨S1600000x1, .i32⟩ : BufTy).Contents (Elt F)),
    binary main_v103 main_v109 main_v110 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_22 (constant S_ .f32 0x00000000#32),
    unary main_cst_22 main_v111 (broadcastInDim S100000x128 ![] bcast_S_S100000x128 : (⟨S_, .f32⟩ : BufTy).Contents (Elt F) → (⟨S100000x128, .f32⟩ : BufTy).Contents (Elt F)),
    unary main_v3 main_v112 (broadcastInDim S1600000x1 ![0] bcast_S1600000_S1600000x1_0 : (⟨S1600000, .i32⟩ : BufTy).Contents (Elt F) → (⟨S1600000x1, .i32⟩ : BufTy).Contents (Elt F)),
    ternary main_v111 main_v112 main_v110 main_v113 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_23 (constant S_ .f32 0x3F800000#32),
    unary main_cst_23 main_v114 (broadcastInDim S1600000 ![] bcast_S_S1600000 : (⟨S_, .f32⟩ : BufTy).Contents (Elt F) → (⟨S1600000, .f32⟩ : BufTy).Contents (Elt F)),
    nullary main_cst_24 (constant S_ .f32 0x00000000#32),
    unary main_cst_24 main_v115 (broadcastInDim S100000 ![] bcast_S_S100000 : (⟨S_, .f32⟩ : BufTy).Contents (Elt F) → (⟨S100000, .f32⟩ : BufTy).Contents (Elt F)),
    unary main_v3 main_v116 (broadcastInDim S1600000x1 ![0] bcast_S1600000_S1600000x1_0 : (⟨S1600000, .i32⟩ : BufTy).Contents (Elt F) → (⟨S1600000x1, .i32⟩ : BufTy).Contents (Elt F)),
    ternary main_v115 main_v116 main_v114 main_v117 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_25 (constant S_ .f32 0x3F800000#32),
    unary main_cst_25 main_v118 (broadcastInDim S100000 ![] bcast_S_S100000 : (⟨S_, .f32⟩ : BufTy).Contents (Elt F) → (⟨S100000, .f32⟩ : BufTy).Contents (Elt F)),
    binary main_v117 main_v118 main_v119 (maximumf : (⟨S100000, .f32⟩ : BufTy).Contents (Elt F) → (⟨S100000, .f32⟩ : BufTy).Contents (Elt F) → (⟨S100000, .f32⟩ : BufTy).Contents (Elt F)),
    unary main_v119 main_v120 (broadcastInDim S100000x1 ![0] bcast_S100000_S100000x1_0 : (⟨S100000, .f32⟩ : BufTy).Contents (Elt F) → (⟨S100000x1, .f32⟩ : BufTy).Contents (Elt F)),
    unary main_v120 main_v121 (broadcastInDim S100000x128 ![0, 1] bcast_S100000x1_S100000x128_0_1 : (⟨S100000x1, .f32⟩ : BufTy).Contents (Elt F) → (⟨S100000x128, .f32⟩ : BufTy).Contents (Elt F)),
    binary main_v113 main_v121 main_v122 (Host.divf : (⟨S100000x128, .f32⟩ : BufTy).Contents (Elt F) → (⟨S100000x128, .f32⟩ : BufTy).Contents (Elt F) → (⟨S100000x128, .f32⟩ : BufTy).Contents (Elt F)) ]

/-- The buffers the stretch above writes. -/
abbrev A3_W : List (Ref sig .tc) := [main_c_20, main_v104, main_v105, main_c_21, main_v106, main_v107, main_v108, main_v109, main_v110, main_cst_22, main_v111, main_v112, main_v113, main_cst_23, main_v114, main_cst_24, main_v115, main_v116, main_v117, main_cst_25, main_v118, main_v119, main_v120, main_v121, main_v122]

/-- The third layer's affine map and the first part of its row normalisation. -/
abbrev N3a : List (HloOp τ sig (Elt F)) :=
  [ binary main_v122 main_arg12 main_v123 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg13 main_v124 (broadcastInDim S1x128 ![1] bcast_S128_S1x128_1 : (⟨S128, .f32⟩ : BufTy).Contents (Elt F) → (⟨S1x128, .f32⟩ : BufTy).Contents (Elt F)),
    unary main_v124 main_v125 (broadcastInDim S100000x128 ![0, 1] bcast_S1x128_S100000x128_0_1 : (⟨S1x128, .f32⟩ : BufTy).Contents (Elt F) → (⟨S100000x128, .f32⟩ : BufTy).Contents (Elt F)),
    binary main_v123 main_v125 main_v126 (addf : (⟨S100000x128, .f32⟩ : BufTy).Contents (Elt F) → (⟨S100000x128, .f32⟩ : BufTy).Contents (Elt F) → (⟨S100000x128, .f32⟩ : BufTy).Contents (Elt F)),
    binary main_v103 main_arg14 main_v127 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v126 main_v127 main_v128 (addf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x00000000#32),
    binary main_v128 main_cst_26 main_v129 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v129 main_v130 (broadcastInDim S100000x1 ![0] bcast_S100000_S100000x1_0 : (⟨S100000, .f32⟩ : BufTy).Contents (Elt F) → (⟨S100000x1, .f32⟩ : BufTy).Contents (Elt F)),
    nullary main_cst_27 (constant S_ .f32 0x43000000#32),
    unary main_cst_27 main_v131 (broadcastInDim S100000x1 ![] bcast_S_S100000x1 : (⟨S_, .f32⟩ : BufTy).Contents (Elt F) → (⟨S100000x1, .f32⟩ : BufTy).Contents (Elt F)),
    binary main_v130 main_v131 main_v132 (Host.divf : (⟨S100000x1, .f32⟩ : BufTy).Contents (Elt F) → (⟨S100000x1, .f32⟩ : BufTy).Contents (Elt F) → (⟨S100000x1, .f32⟩ : BufTy).Contents (Elt F)),
    unary main_v132 main_v133 (broadcastInDim S100000x128 ![0, 1] bcast_S100000x1_S100000x128_0_1 : (⟨S100000x1, .f32⟩ : BufTy).Contents (Elt F) → (⟨S100000x128, .f32⟩ : BufTy).Contents (Elt F)),
    binary main_v128 main_v133 main_v134 (subf : (⟨S100000x128, .f32⟩ : BufTy).Contents (Elt F) → (⟨S100000x128, .f32⟩ : BufTy).Contents (Elt F) → (⟨S100000x128, .f32⟩ : BufTy).Contents (Elt F)),
    binary main_v134 main_v134 main_v135 (mulf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x00000000#32),
    binary main_v135 main_cst_28 main_v136 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v136 main_v137 (broadcastInDim S100000x1 ![0] bcast_S100000_S100000x1_0 : (⟨S100000, .f32⟩ : BufTy).Contents (Elt F) → (⟨S100000x1, .f32⟩ : BufTy).Contents (Elt F)),
    nullary main_cst_29 (constant S_ .f32 0x43000000#32),
    unary main_cst_29 main_v138 (broadcastInDim S100000x1 ![] bcast_S_S100000x1 : (⟨S_, .f32⟩ : BufTy).Contents (Elt F) → (⟨S100000x1, .f32⟩ : BufTy).Contents (Elt F)),
    binary main_v137 main_v138 main_v139 (Host.divf : (⟨S100000x1, .f32⟩ : BufTy).Contents (Elt F) → (⟨S100000x1, .f32⟩ : BufTy).Contents (Elt F) → (⟨S100000x1, .f32⟩ : BufTy).Contents (Elt F)),
    unary main_v132 main_v140 (broadcastInDim S100000x128 ![0, 1] bcast_S100000x1_S100000x128_0_1 : (⟨S100000x1, .f32⟩ : BufTy).Contents (Elt F) → (⟨S100000x128, .f32⟩ : BufTy).Contents (Elt F)),
    binary main_v128 main_v140 main_v141 (subf : (⟨S100000x128, .f32⟩ : BufTy).Contents (Elt F) → (⟨S100000x128, .f32⟩ : BufTy).Contents (Elt F) → (⟨S100000x128, .f32⟩ : BufTy).Contents (Elt F)),
    nullary main_cst_30 (constant S_ .f32 0x3727C5AC#32),
    unary main_cst_30 main_v142 (broadcastInDim S100000x1 ![] bcast_S_S100000x1 : (⟨S_, .f32⟩ : BufTy).Contents (Elt F) → (⟨S100000x1, .f32⟩ : BufTy).Contents (Elt F)),
    binary main_v139 main_v142 main_v143 (addf : (⟨S100000x1, .f32⟩ : BufTy).Contents (Elt F) → (⟨S100000x1, .f32⟩ : BufTy).Contents (Elt F) → (⟨S100000x1, .f32⟩ : BufTy).Contents (Elt F)),
    unary main_v143 main_v144 (Host.rsqrt : (⟨S100000x1, .f32⟩ : BufTy).Contents (Elt F) → (⟨S100000x1, .f32⟩ : BufTy).Contents (Elt F)),
    unary main_v144 main_v145 (broadcastInDim S100000x128 ![0, 1] bcast_S100000x1_S100000x128_0_1 : (⟨S100000x1, .f32⟩ : BufTy).Contents (Elt F) → (⟨S100000x128, .f32⟩ : BufTy).Contents (Elt F)),
    binary main_v141 main_v145 main_v146 (mulf : (⟨S100000x128, .f32⟩ : BufTy).Contents (Elt F) → (⟨S100000x128, .f32⟩ : BufTy).Contents (Elt F) → (⟨S100000x128, .f32⟩ : BufTy).Contents (Elt F)) ]

/-- The buffers the stretch above writes. -/
abbrev N3a_W : List (Ref sig .tc) := [main_v123, main_v124, main_v125, main_v126, main_v127, main_v128, main_cst_26, main_v129, main_v130, main_cst_27, main_v131, main_v132, main_v133, main_v134, main_v135, main_cst_28, main_v136, main_v137, main_cst_29, main_v138, main_v139, main_v140, main_v141, main_cst_30, main_v142, main_v143, main_v144, main_v145, main_v146]

/-- The rest of the third layer's row normalisation. -/
abbrev N3b : List (HloOp τ sig (Elt F)) :=
  [ unary main_arg15 main_v147 (broadcastInDim S1x128 ![1] bcast_S128_S1x128_1 : (⟨S128, .f32⟩ : BufTy).Contents (Elt F) → (⟨S1x128, .f32⟩ : BufTy).Contents (Elt F)),
    unary main_v147 main_v148 (broadcastInDim S100000x128 ![0, 1] bcast_S1x128_S100000x128_0_1 : (⟨S1x128, .f32⟩ : BufTy).Contents (Elt F) → (⟨S100000x128, .f32⟩ : BufTy).Contents (Elt F)),
    binary main_v146 main_v148 main_v149 (mulf : (⟨S100000x128, .f32⟩ : BufTy).Contents (Elt F) → (⟨S100000x128, .f32⟩ : BufTy).Contents (Elt F) → (⟨S100000x128, .f32⟩ : BufTy).Contents (Elt F)),
    unary main_arg16 main_v150 (broadcastInDim S1x128 ![1] bcast_S128_S1x128_1 : (⟨S128, .f32⟩ : BufTy).Contents (Elt F) → (⟨S1x128, .f32⟩ : BufTy).Contents (Elt F)),
    unary main_v150 main_v151 (broadcastInDim S100000x128 ![0, 1] bcast_S1x128_S100000x128_0_1 : (⟨S1x128, .f32⟩ : BufTy).Contents (Elt F) → (⟨S100000x128, .f32⟩ : BufTy).Contents (Elt F)),
    binary main_v149 main_v151 main_v152 (addf : (⟨S100000x128, .f32⟩ : BufTy).Contents (Elt F) → (⟨S100000x128, .f32⟩ : BufTy).Contents (Elt F) → (⟨S100000x128, .f32⟩ : BufTy).Contents (Elt F)) ]

/-- The buffers the stretch above writes. -/
abbrev N3b_W : List (Ref sig .tc) := [main_v147, main_v148, main_v149, main_v150, main_v151, main_v152]

/-- The final division of each row by the larger of its Euclidean norm and a tiny constant. -/
abbrev L2 : List (HloOp τ sig (Elt F)) :=
  [ binary main_v152 main_v152 main_v153 (mulf : (⟨S100000x128, .f32⟩ : BufTy).Contents (Elt F) → (⟨S100000x128, .f32⟩ : BufTy).Contents (Elt F) → (⟨S100000x128, .f32⟩ : BufTy).Contents (Elt F)),
    nullary main_cst_31 (constant S_ .f32 0x00000000#32),
    binary main_v153 main_cst_31 main_v154 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v154 main_v155 (broadcastInDim S100000x1 ![0] bcast_S100000_S100000x1_0 : (⟨S100000, .f32⟩ : BufTy).Contents (Elt F) → (⟨S100000x1, .f32⟩ : BufTy).Contents (Elt F)),
    unary main_v155 main_v156 (Host.sqrt : (⟨S100000x1, .f32⟩ : BufTy).Contents (Elt F) → (⟨S100000x1, .f32⟩ : BufTy).Contents (Elt F)),
    nullary main_cst_32 (constant S_ .f32 0x2B8CBCCC#32),
    unary main_cst_32 main_v157 (broadcastInDim S100000x1 ![] bcast_S_S100000x1 : (⟨S_, .f32⟩ : BufTy).Contents (Elt F) → (⟨S100000x1, .f32⟩ : BufTy).Contents (Elt F)),
    binary main_v156 main_v157 main_v158 (maximumf : (⟨S100000x1, .f32⟩ : BufTy).Contents (Elt F) → (⟨S100000x1, .f32⟩ : BufTy).Contents (Elt F) → (⟨S100000x1, .f32⟩ : BufTy).Contents (Elt F)),
    unary main_v158 main_v159 (broadcastInDim S100000x128 ![0, 1] bcast_S100000x1_S100000x128_0_1 : (⟨S100000x1, .f32⟩ : BufTy).Contents (Elt F) → (⟨S100000x128, .f32⟩ : BufTy).Contents (Elt F)),
    binary main_v152 main_v159 main_v160 (Host.divf : (⟨S100000x128, .f32⟩ : BufTy).Contents (Elt F) → (⟨S100000x128, .f32⟩ : BufTy).Contents (Elt F) → (⟨S100000x128, .f32⟩ : BufTy).Contents (Elt F)) ]

/-- The buffers the stretch above writes. -/
abbrev L2_W : List (Ref sig .tc) := [main_v153, main_cst_31, main_v154, main_v155, main_v156, main_cst_32, main_v157, main_v158, main_v159, main_v160]

/-- Folding over two lines one after the other is folding over the second from where the first ends. -/
theorem after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- The whole program. -/
abbrev ops : List (HloOp τ sig (Elt F)) :=
  P0 ++ (A1 ++ (N1a ++ (N1b ++ (E1 ++ (A2 ++ (N2a ++ (N2b ++ (E2 ++ (A3 ++ (N3a ++ (N3b ++ L2)))))))))))

end Cert.ReferenceIdeal.RefValue

end
-- ==== Proof.RefMain.lean ====
/-
  The reference program IS its list of operations: each window of @main is the straight line of
  its stretch of the list (the two calls of the exponential linear unit unfolded where they stand and
  sequencing reassociated), and the windows in order are the whole list.  Every operation touches
  TensorCore buffers only, and the signature scopes nothing, so the program runs to its end from any
  memory with every buffer at the fold of the operations over the launch contents.
-/
import proofs.«112205_j9818295239157_1_alg».proof.Proof.RefOps

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The operations of @main's four windows. -/
abbrev ops0 : List (HloOp τ sig (Elt F)) := P0 ++ (A1 ++ N1a)
abbrev ops1 : List (HloOp τ sig (Elt F)) := N1b ++ (E1 ++ (A2 ++ N2a))
abbrev ops2 : List (HloOp τ sig (Elt F)) := N2b ++ (E2 ++ (A3 ++ N3a))
abbrev ops3 : List (HloOp τ sig (Elt F)) := N3b ++ L2

set_option maxRecDepth 8192 in
theorem main_part0_eq (c : Dev nD) : main_part0 (F := F) c = seq ops0 := rfl

set_option maxRecDepth 8192 in
set_option maxHeartbeats 1000000 in
theorem main_part1_eq (c : Dev nD) : main_part1 (F := F) c = seq ops1 := by
  simp only [main_part1, fn_elu.body, fn_where.body, fn_where_0.body, ops1, N1b, E1, A2, N2a, List.cons_append, List.nil_append,
    seq, bind_assoc, pure_bind]
  rfl

set_option maxRecDepth 8192 in
set_option maxHeartbeats 1000000 in
theorem main_part2_eq (c : Dev nD) : main_part2 (F := F) c = seq ops2 := by
  simp only [main_part2, fn_elu.body, fn_where.body, fn_where_0.body, ops2, N2b, E2, A3, N3a, List.cons_append, List.nil_append,
    seq, bind_assoc, pure_bind]
  rfl

set_option maxRecDepth 8192 in
theorem main_part3_eq (c : Dev nD) : main_part3 (F := F) c = seq ops3 := rfl

theorem ops_split : (ops : List (HloOp τ sig (Elt F))) = ops0 ++ (ops1 ++ (ops2 ++ ops3)) := by
  simp only [ops, ops0, ops1, ops2, ops3, List.append_assoc]

theorem main_eq (c : Dev nD) : main (F := F) c = seq ops := by
  rw [ops_split, seq_append ops0, seq_append ops1, seq_append ops2, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem P0_sub : (P0 : List (HloOp τ sig (Elt F))).Forall fun op => op.bufs ⊆ tcRefs τ sig :=
  ⟨unary_bufs_sub .., reshape_bufs_sub .., unary_bufs_sub .., reshape_bufs_sub ..⟩

set_option maxRecDepth 8192 in
theorem A1_sub : (A1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

set_option maxRecDepth 8192 in
theorem N1a_sub : (N1a : List (HloOp τ sig (Elt F))).Forall fun op => op.bufs ⊆ tcRefs τ sig :=
  ⟨binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub ..⟩

set_option maxRecDepth 8192 in
theorem N1b_sub : (N1b : List (HloOp τ sig (Elt F))).Forall fun op => op.bufs ⊆ tcRefs τ sig :=
  ⟨binary_bufs_sub .., unary_bufs_sub .., unary_bufs_sub .., binary_bufs_sub ..⟩

set_option maxRecDepth 8192 in
theorem E1_sub : (E1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
theorem A2_sub : (A2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

set_option maxRecDepth 8192 in
theorem N2a_sub : (N2a : List (HloOp τ sig (Elt F))).Forall fun op => op.bufs ⊆ tcRefs τ sig :=
  ⟨binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub ..⟩

set_option maxRecDepth 8192 in
theorem N2b_sub : (N2b : List (HloOp τ sig (Elt F))).Forall fun op => op.bufs ⊆ tcRefs τ sig :=
  ⟨unary_bufs_sub .., binary_bufs_sub .., unary_bufs_sub .., unary_bufs_sub .., binary_bufs_sub ..⟩

set_option maxRecDepth 8192 in
theorem E2_sub : (E2 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
theorem A3_sub : (A3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

set_option maxRecDepth 8192 in
theorem N3a_sub : (N3a : List (HloOp τ sig (Elt F))).Forall fun op => op.bufs ⊆ tcRefs τ sig :=
  ⟨binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub ..⟩

set_option maxRecDepth 8192 in
theorem N3b_sub : (N3b : List (HloOp τ sig (Elt F))).Forall fun op => op.bufs ⊆ tcRefs τ sig :=
  ⟨unary_bufs_sub .., unary_bufs_sub .., binary_bufs_sub .., unary_bufs_sub .., unary_bufs_sub .., binary_bufs_sub ..⟩

set_option maxRecDepth 8192 in
theorem L2_sub : (L2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h
    exacts [List.forall_iff_forall_mem.mp P0_sub op h, List.forall_iff_forall_mem.mp A1_sub op h, List.forall_iff_forall_mem.mp N1a_sub op h, List.forall_iff_forall_mem.mp N1b_sub op h, List.forall_iff_forall_mem.mp E1_sub op h, List.forall_iff_forall_mem.mp A2_sub op h, List.forall_iff_forall_mem.mp N2a_sub op h, List.forall_iff_forall_mem.mp N2b_sub op h, List.forall_iff_forall_mem.mp E2_sub op h, List.forall_iff_forall_mem.mp A3_sub op h, List.forall_iff_forall_mem.mp N3a_sub op h, List.forall_iff_forall_mem.mp N3b_sub op h, List.forall_iff_forall_mem.mp L2_sub op h]

set_option maxRecDepth 8192 in
theorem P0_fresh : ∀ op ∈ (P0 : List (HloOp τ sig (Elt F))), op.fresh = ∅ := by
  intro _ h; (repeat (cases h with | head => rfl | tail _ h => ?_)); exact nomatch h

set_option maxRecDepth 8192 in
theorem A1_fresh : ∀ op ∈ (A1 : List (HloOp τ sig (Elt F))), op.fresh = ∅ := by
  intro _ h; (repeat (cases h with | head => rfl | tail _ h => ?_)); exact nomatch h

set_option maxRecDepth 8192 in
theorem N1a_fresh : ∀ op ∈ (N1a : List (HloOp τ sig (Elt F))), op.fresh = ∅ := by
  intro _ h; (repeat (cases h with | head => rfl | tail _ h => ?_)); exact nomatch h

set_option maxRecDepth 8192 in
theorem N1b_fresh : ∀ op ∈ (N1b : List (HloOp τ sig (Elt F))), op.fresh = ∅ := by
  intro _ h; (repeat (cases h with | head => rfl | tail _ h => ?_)); exact nomatch h

set_option maxRecDepth 8192 in
theorem E1_fresh : ∀ op ∈ (E1 : List (HloOp τ sig (Elt F))), op.fresh = ∅ := by
  intro _ h; (repeat (cases h with | head => rfl | tail _ h => ?_)); exact nomatch h

set_option maxRecDepth 8192 in
theorem A2_fresh : ∀ op ∈ (A2 : List (HloOp τ sig (Elt F))), op.fresh = ∅ := by
  intro _ h; (repeat (cases h with | head => rfl | tail _ h => ?_)); exact nomatch h

set_option maxRecDepth 8192 in
theorem N2a_fresh : ∀ op ∈ (N2a : List (HloOp τ sig (Elt F))), op.fresh = ∅ := by
  intro _ h; (repeat (cases h with | head => rfl | tail _ h => ?_)); exact nomatch h

set_option maxRecDepth 8192 in
theorem N2b_fresh : ∀ op ∈ (N2b : List (HloOp τ sig (Elt F))), op.fresh = ∅ := by
  intro _ h; (repeat (cases h with | head => rfl | tail _ h => ?_)); exact nomatch h

set_option maxRecDepth 8192 in
theorem E2_fresh : ∀ op ∈ (E2 : List (HloOp τ sig (Elt F))), op.fresh = ∅ := by
  intro _ h; (repeat (cases h with | head => rfl | tail _ h => ?_)); exact nomatch h

set_option maxRecDepth 8192 in
theorem A3_fresh : ∀ op ∈ (A3 : List (HloOp τ sig (Elt F))), op.fresh = ∅ := by
  intro _ h; (repeat (cases h with | head => rfl | tail _ h => ?_)); exact nomatch h

set_option maxRecDepth 8192 in
theorem N3a_fresh : ∀ op ∈ (N3a : List (HloOp τ sig (Elt F))), op.fresh = ∅ := by
  intro _ h; (repeat (cases h with | head => rfl | tail _ h => ?_)); exact nomatch h

set_option maxRecDepth 8192 in
theorem N3b_fresh : ∀ op ∈ (N3b : List (HloOp τ sig (Elt F))), op.fresh = ∅ := by
  intro _ h; (repeat (cases h with | head => rfl | tail _ h => ?_)); exact nomatch h

set_option maxRecDepth 8192 in
theorem L2_fresh : ∀ op ∈ (L2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  simp only [ops, List.mem_append] at h
  rcases h with h | h | h | h | h | h | h | h | h | h | h | h | h
  exacts [P0_fresh op h, A1_fresh op h, N1a_fresh op h, N1b_fresh op h, E1_fresh op h, A2_fresh op h, N2a_fresh op h, N2b_fresh op h, E2_fresh op h, A3_fresh op h, N3a_fresh op h, N3b_fresh op h, L2_fresh op h]

/-- From any memory with zero counters every weakly fair execution of the reference terminates, each
    TensorCore buffer at the fold of the operations over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefValue

end
-- ==== Proof.RefDefs.lean ====
/-
  The reference's host operations composed at array level, one function per stretch of the program
  that its three layers repeat: the two rows of the edge table as vectors of node numbers; the
  neighbourhood mean (gather the source rows, add them up at their destination rows, divide by the larger
  of the in-degree and one); the affine map; the row normalisation; the exponential linear unit; the
  division by the row norm; and the whole network as their composition.
-/
import proofs.«112205_j9818295239157_1_alg».proof.ReferenceIdeal

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The source node of every edge: row 0 of the edge table. -/
def srcG (ei : (⟨S2x1600000, .i32⟩ : BufTy).Contents (Elt F)) : (⟨S1600000, .i32⟩ : BufTy).Contents (Elt F) :=
  (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) ei) shapeCasts_S1x1600000_S1600000)

/-- The destination node of every edge: row 1 of the edge table. -/
def dstG (ei : (⟨S2x1600000, .i32⟩ : BufTy).Contents (Elt F)) : (⟨S1600000, .i32⟩ : BufTy).Contents (Elt F) :=
  (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) ei) shapeCasts_S1x1600000_S1600000)

/-- The neighbourhood mean of the rows of `h`: the source rows gathered (a negative source counted from the end),
    added up at their destination rows, each row divided by the larger of its in-degree and one. -/
def aggG (s d : (⟨S1600000, .i32⟩ : BufTy).Contents (Elt F)) (h : (⟨S100000x128, .f32⟩ : BufTy).Contents (Elt F)) : (⟨S100000x128, .f32⟩ : BufTy).Contents (Elt F) :=
  ((Host.divf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) d) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) h ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) s ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) s ((broadcastInDim S1600000 ![] bcast_S_S1600000 : (⟨S_, .i32⟩ : BufTy).Contents (Elt F) → (⟨S1600000, .i32⟩ : BufTy).Contents (Elt F)) (constantI S_ 32 100000#32))) s)))) ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) d) ((broadcastInDim S1600000 ![] bcast_S_S1600000 : (⟨S_, .f32⟩ : BufTy).Contents (Elt F) → (⟨S1600000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32))))))

/-- The affine map: the mean times its weights plus the bias, plus the features times theirs. -/
def linG (M X : (⟨S100000x128, .f32⟩ : BufTy).Contents (Elt F)) (Wl : (⟨S128x128, .f32⟩ : BufTy).Contents (Elt F)) (bl : (⟨S128, .f32⟩ : BufTy).Contents (Elt F)) (Wr : (⟨S128x128, .f32⟩ : BufTy).Contents (Elt F)) : (⟨S100000x128, .f32⟩ : BufTy).Contents (Elt F) :=
  ((addf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) M Wl) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) bl))) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) X Wr))

/-- The row normalisation: each row centred at its mean, scaled by the reciprocal square root of its variance plus ε,
    then by `g`, and shifted by `b`. -/
def lnG (y : (⟨S100000x128, .f32⟩ : BufTy).Contents (Elt F)) (g b : (⟨S128, .f32⟩ : BufTy).Contents (Elt F)) : (⟨S100000x128, .f32⟩ : BufTy).Contents (Elt F) :=
  ((addf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) y ((broadcastInDim S100000x128 ![0, 1] bcast_S100000x1_S100000x128_0_1 : (⟨S100000x1, .f32⟩ : BufTy).Contents (Elt F) → (⟨S100000x128, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) y (constant S_ .f32 0x00000000#32))) ((broadcastInDim S100000x1 ![] bcast_S_S100000x1 : (⟨S_, .f32⟩ : BufTy).Contents (Elt F) → (⟨S100000x1, .f32⟩ : BufTy).Contents (Elt F)) (constant S_ .f32 0x43000000#32))))) ((broadcastInDim S100000x128 ![0, 1] bcast_S100000x1_S100000x128_0_1 : (⟨S100000x1, .f32⟩ : BufTy).Contents (Elt F) → (⟨S100000x128, .f32⟩ : BufTy).Contents (Elt F)) ((Host.rsqrt : (⟨S100000x1, .f32⟩ : BufTy).Contents (Elt F) → (⟨S100000x1, .f32⟩ : BufTy).Contents (Elt F)) ((addf : (⟨S100000x1, .f32⟩ : BufTy).Contents (Elt F) → (⟨S100000x1, .f32⟩ : BufTy).Contents (Elt F) → (⟨S100000x1, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) y ((broadcastInDim S100000x128 ![0, 1] bcast_S100000x1_S100000x128_0_1 : (⟨S100000x1, .f32⟩ : BufTy).Contents (Elt F) → (⟨S100000x128, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) y (constant S_ .f32 0x00000000#32))) ((broadcastInDim S100000x1 ![] bcast_S_S100000x1 : (⟨S_, .f32⟩ : BufTy).Contents (Elt F) → (⟨S100000x1, .f32⟩ : BufTy).Contents (Elt F)) (constant S_ .f32 0x43000000#32))))) ((subf : (⟨S100000x128, .f32⟩ : BufTy).Contents (Elt F) → (⟨S100000x128, .f32⟩ : BufTy).Contents (Elt F) → (⟨S100000x128, .f32⟩ : BufTy).Contents (Elt F)) y ((broadcastInDim S100000x128 ![0, 1] bcast_S100000x1_S100000x128_0_1 : (⟨S100000x1, .f32⟩ : BufTy).Contents (Elt F) → (⟨S100000x128, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) y (constant S_ .f32 0x00000000#32))) ((broadcastInDim S100000x1 ![] bcast_S_S100000x1 : (⟨S_, .f32⟩ : BufTy).Contents (Elt F) → (⟨S100000x1, .f32⟩ : BufTy).Contents (Elt F)) (constant S_ .f32 0x43000000#32)))))) (constant S_ .f32 0x00000000#32))) ((broadcastInDim S100000x1 ![] bcast_S_S100000x1 : (⟨S_, .f32⟩ : BufTy).Contents (Elt F) → (⟨S100000x1, .f32⟩ : BufTy).Contents (Elt F)) (constant S_ .f32 0x43000000#32))) ((broadcastInDim S100000x1 ![] bcast_S_S100000x1 : (⟨S_, .f32⟩ : BufTy).Contents (Elt F) → (⟨S100000x1, .f32⟩ : BufTy).Contents (Elt F)) (constant S_ .f32 0x3727C5AC#32)))))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) g))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) b)))

/-- The exponential linear unit, entry by entry. -/
def eluG (y : (⟨S100000x128, .f32⟩ : BufTy).Contents (Elt F)) : (⟨S100000x128, .f32⟩ : BufTy).Contents (Elt F) :=
  (select ((cmpf .ogt) y ((broadcastInDim S100000x128 ![] bcast_S_S100000x128) (constant (F := F) S_ .f32 0x00000000#32))) y (mulf ((broadcastInDim S100000x128 ![] bcast_S_S100000x128) (constant (F := F) S_ .f32 0x3F800000#32)) (Host.expm1 (select ((cmpf .ogt) y ((broadcastInDim S100000x128 ![] bcast_S_S100000x128) (constant (F := F) S_ .f32 0x00000000#32))) ((broadcastInDim S100000x128 ![] bcast_S_S100000x128) (id (constant (F := F) S_ .f32 0x00000000#32))) y))))

/-- Each row divided by the larger of its Euclidean norm and a tiny constant. -/
def l2G (y : (⟨S100000x128, .f32⟩ : BufTy).Contents (Elt F)) : (⟨S100000x128, .f32⟩ : BufTy).Contents (Elt F) :=
  ((Host.divf : (⟨S100000x128, .f32⟩ : BufTy).Contents (Elt F) → (⟨S100000x128, .f32⟩ : BufTy).Contents (Elt F) → (⟨S100000x128, .f32⟩ : BufTy).Contents (Elt F)) y ((broadcastInDim S100000x128 ![0, 1] bcast_S100000x1_S100000x128_0_1 : (⟨S100000x1, .f32⟩ : BufTy).Contents (Elt F) → (⟨S100000x128, .f32⟩ : BufTy).Contents (Elt F)) ((maximumf : (⟨S100000x1, .f32⟩ : BufTy).Contents (Elt F) → (⟨S100000x1, .f32⟩ : BufTy).Contents (Elt F) → (⟨S100000x1, .f32⟩ : BufTy).Contents (Elt F)) ((Host.sqrt : (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) y y) (constant S_ .f32 0x00000000#32)))) ((broadcastInDim S100000x1 ![] bcast_S_S100000x1 : (⟨S_, .f32⟩ : BufTy).Contents (Elt F) → (⟨S100000x1, .f32⟩ : BufTy).Contents (Elt F)) (constant S_ .f32 0x2B8CBCCC#32)))))

/-- One layer before its activation. -/
def layerG (s d : (⟨S1600000, .i32⟩ : BufTy).Contents (Elt F)) (h : (⟨S100000x128, .f32⟩ : BufTy).Contents (Elt F)) (Wl : (⟨S128x128, .f32⟩ : BufTy).Contents (Elt F)) (bl : (⟨S128, .f32⟩ : BufTy).Contents (Elt F))
    (Wr : (⟨S128x128, .f32⟩ : BufTy).Contents (Elt F)) (g b : (⟨S128, .f32⟩ : BufTy).Contents (Elt F)) : (⟨S100000x128, .f32⟩ : BufTy).Contents (Elt F) :=
  lnG (linG (aggG s d h) h Wl bl Wr) g b

/-- The features after the first layer. -/
def h1G (x : (⟨S100000x128, .f32⟩ : BufTy).Contents (Elt F)) (ei : (⟨S2x1600000, .i32⟩ : BufTy).Contents (Elt F)) (Wl0 : (⟨S128x128, .f32⟩ : BufTy).Contents (Elt F)) (bl0 : (⟨S128, .f32⟩ : BufTy).Contents (Elt F))
    (Wr0 : (⟨S128x128, .f32⟩ : BufTy).Contents (Elt F)) (g0 b0 : (⟨S128, .f32⟩ : BufTy).Contents (Elt F)) : (⟨S100000x128, .f32⟩ : BufTy).Contents (Elt F) :=
  eluG (layerG (srcG ei) (dstG ei) x Wl0 bl0 Wr0 g0 b0)

/-- The features after the second layer. -/
def h2G (x : (⟨S100000x128, .f32⟩ : BufTy).Contents (Elt F)) (ei : (⟨S2x1600000, .i32⟩ : BufTy).Contents (Elt F)) (Wl0 : (⟨S128x128, .f32⟩ : BufTy).Contents (Elt F)) (bl0 : (⟨S128, .f32⟩ : BufTy).Contents (Elt F))
    (Wr0 : (⟨S128x128, .f32⟩ : BufTy).Contents (Elt F)) (g0 b0 : (⟨S128, .f32⟩ : BufTy).Contents (Elt F)) (Wl1 : (⟨S128x128, .f32⟩ : BufTy).Contents (Elt F)) (bl1 : (⟨S128, .f32⟩ : BufTy).Contents (Elt F))
    (Wr1 : (⟨S128x128, .f32⟩ : BufTy).Contents (Elt F)) (g1 b1 : (⟨S128, .f32⟩ : BufTy).Contents (Elt F)) : (⟨S100000x128, .f32⟩ : BufTy).Contents (Elt F) :=
  eluG (layerG (srcG ei) (dstG ei) (h1G x ei Wl0 bl0 Wr0 g0 b0) Wl1 bl1 Wr1 g1 b1)

/-- The whole network at array level. -/
def netG (x : (⟨S100000x128, .f32⟩ : BufTy).Contents (Elt F)) (ei : (⟨S2x1600000, .i32⟩ : BufTy).Contents (Elt F)) (Wl0 : (⟨S128x128, .f32⟩ : BufTy).Contents (Elt F)) (bl0 : (⟨S128, .f32⟩ : BufTy).Contents (Elt F))
    (Wr0 : (⟨S128x128, .f32⟩ : BufTy).Contents (Elt F)) (g0 b0 : (⟨S128, .f32⟩ : BufTy).Contents (Elt F)) (Wl1 : (⟨S128x128, .f32⟩ : BufTy).Contents (Elt F)) (bl1 : (⟨S128, .f32⟩ : BufTy).Contents (Elt F))
    (Wr1 : (⟨S128x128, .f32⟩ : BufTy).Contents (Elt F)) (g1 b1 : (⟨S128, .f32⟩ : BufTy).Contents (Elt F)) (Wl2 : (⟨S128x128, .f32⟩ : BufTy).Contents (Elt F)) (bl2 : (⟨S128, .f32⟩ : BufTy).Contents (Elt F))
    (Wr2 : (⟨S128x128, .f32⟩ : BufTy).Contents (Elt F)) (g2 b2 : (⟨S128, .f32⟩ : BufTy).Contents (Elt F)) : (⟨S100000x128, .f32⟩ : BufTy).Contents (Elt F) :=
  l2G (layerG (srcG ei) (dstG ei) (h2G x ei Wl0 bl0 Wr0 g0 b0 Wl1 bl1 Wr1 g1 b1) Wl2 bl2 Wr2 g2 b2)

end Cert.ReferenceIdeal.RefValue

end
-- ==== Proof.RefWin.lean ====
/-
  The fold of the reference's operations read stretch by stretch.  After each stretch the buffers that a
  later stretch reads hold the named array-level functions of the launch contents: the edge table's two
  rows, the neighbourhood mean, one layer's normalised affine row, its activation — and at the end the
  result buffer holds the whole network.  A buffer a stretch does not write keeps its contents through it,
  which is also why the seventeen argument buffers end as they began.
-/
import proofs.«112205_j9818295239157_1_alg».proof.Proof.RefOps
import proofs.«112205_j9818295239157_1_alg».proof.Proof.RefDefs

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

set_option maxRecDepth 8192 in
/-- Every operation of the stretch writes a buffer of the stretch's list. -/
theorem P0_writes : (P0 : List (HloOp τ sig (Elt F))).Forall fun op => op.writes ⊆ (P0_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxRecDepth 8192 in
/-- Every operation of the stretch writes a buffer of the stretch's list. -/
theorem A1_writes : (A1 : List (HloOp τ sig (Elt F))).Forall fun op => op.writes ⊆ (A1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxRecDepth 8192 in
/-- Every operation of the stretch writes a buffer of the stretch's list. -/
theorem N1a_writes : (N1a : List (HloOp τ sig (Elt F))).Forall fun op => op.writes ⊆ (N1a_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxRecDepth 8192 in
/-- Every operation of the stretch writes a buffer of the stretch's list. -/
theorem N1b_writes : (N1b : List (HloOp τ sig (Elt F))).Forall fun op => op.writes ⊆ (N1b_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxRecDepth 8192 in
/-- Every operation of the stretch writes a buffer of the stretch's list. -/
theorem E1_writes : (E1 : List (HloOp τ sig (Elt F))).Forall fun op => op.writes ⊆ (E1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxRecDepth 8192 in
/-- Every operation of the stretch writes a buffer of the stretch's list. -/
theorem A2_writes : (A2 : List (HloOp τ sig (Elt F))).Forall fun op => op.writes ⊆ (A2_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxRecDepth 8192 in
/-- Every operation of the stretch writes a buffer of the stretch's list. -/
theorem N2a_writes : (N2a : List (HloOp τ sig (Elt F))).Forall fun op => op.writes ⊆ (N2a_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxRecDepth 8192 in
/-- Every operation of the stretch writes a buffer of the stretch's list. -/
theorem N2b_writes : (N2b : List (HloOp τ sig (Elt F))).Forall fun op => op.writes ⊆ (N2b_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxRecDepth 8192 in
/-- Every operation of the stretch writes a buffer of the stretch's list. -/
theorem E2_writes : (E2 : List (HloOp τ sig (Elt F))).Forall fun op => op.writes ⊆ (E2_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxRecDepth 8192 in
/-- Every operation of the stretch writes a buffer of the stretch's list. -/
theorem A3_writes : (A3 : List (HloOp τ sig (Elt F))).Forall fun op => op.writes ⊆ (A3_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxRecDepth 8192 in
/-- Every operation of the stretch writes a buffer of the stretch's list. -/
theorem N3a_writes : (N3a : List (HloOp τ sig (Elt F))).Forall fun op => op.writes ⊆ (N3a_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxRecDepth 8192 in
/-- Every operation of the stretch writes a buffer of the stretch's list. -/
theorem N3b_writes : (N3b : List (HloOp τ sig (Elt F))).Forall fun op => op.writes ⊆ (N3b_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxRecDepth 8192 in
/-- Every operation of the stretch writes a buffer of the stretch's list. -/
theorem L2_writes : (L2 : List (HloOp τ sig (Elt F))).Forall fun op => op.writes ⊆ (L2_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- The buffers' contents after the first 1 stretch of the reading. -/
def val1 (V0 : Valuation τ sig (Elt F)) : Valuation τ sig (Elt F) := after (P0 ++ A1) V0

/-- A buffer the stretch does not write keeps its contents through it. -/
theorem val1_keep (V0 : Valuation τ sig (Elt F)) (r : Ref sig .tc) (h0 : r ∉ P0_W) (h1 : r ∉ A1_W) :
    val1 V0 (Proc.devRef .tc r) = V0 (Proc.devRef .tc r) := by
  unfold val1
  rw [after_append]
  exact (after_of_writes_sub A1 _ A1_writes h1).trans (after_of_writes_sub P0 _ P0_writes h0)
theorem val1_main_arg0 (V0 : Valuation τ sig (Elt F)) : val1 V0 (no_index (Proc.devRef .tc main_arg0)) = V0 (Proc.devRef .tc main_arg0) :=
  val1_keep V0 main_arg0 (by decide) (by decide)
theorem val1_main_arg1 (V0 : Valuation τ sig (Elt F)) : val1 V0 (no_index (Proc.devRef .tc main_arg1)) = V0 (Proc.devRef .tc main_arg1) :=
  val1_keep V0 main_arg1 (by decide) (by decide)
theorem val1_main_arg2 (V0 : Valuation τ sig (Elt F)) : val1 V0 (no_index (Proc.devRef .tc main_arg2)) = V0 (Proc.devRef .tc main_arg2) :=
  val1_keep V0 main_arg2 (by decide) (by decide)
theorem val1_main_arg3 (V0 : Valuation τ sig (Elt F)) : val1 V0 (no_index (Proc.devRef .tc main_arg3)) = V0 (Proc.devRef .tc main_arg3) :=
  val1_keep V0 main_arg3 (by decide) (by decide)
theorem val1_main_arg4 (V0 : Valuation τ sig (Elt F)) : val1 V0 (no_index (Proc.devRef .tc main_arg4)) = V0 (Proc.devRef .tc main_arg4) :=
  val1_keep V0 main_arg4 (by decide) (by decide)
theorem val1_main_arg5 (V0 : Valuation τ sig (Elt F)) : val1 V0 (no_index (Proc.devRef .tc main_arg5)) = V0 (Proc.devRef .tc main_arg5) :=
  val1_keep V0 main_arg5 (by decide) (by decide)
theorem val1_main_arg6 (V0 : Valuation τ sig (Elt F)) : val1 V0 (no_index (Proc.devRef .tc main_arg6)) = V0 (Proc.devRef .tc main_arg6) :=
  val1_keep V0 main_arg6 (by decide) (by decide)
theorem val1_main_arg7 (V0 : Valuation τ sig (Elt F)) : val1 V0 (no_index (Proc.devRef .tc main_arg7)) = V0 (Proc.devRef .tc main_arg7) :=
  val1_keep V0 main_arg7 (by decide) (by decide)
theorem val1_main_arg8 (V0 : Valuation τ sig (Elt F)) : val1 V0 (no_index (Proc.devRef .tc main_arg8)) = V0 (Proc.devRef .tc main_arg8) :=
  val1_keep V0 main_arg8 (by decide) (by decide)
theorem val1_main_arg9 (V0 : Valuation τ sig (Elt F)) : val1 V0 (no_index (Proc.devRef .tc main_arg9)) = V0 (Proc.devRef .tc main_arg9) :=
  val1_keep V0 main_arg9 (by decide) (by decide)
theorem val1_main_arg10 (V0 : Valuation τ sig (Elt F)) : val1 V0 (no_index (Proc.devRef .tc main_arg10)) = V0 (Proc.devRef .tc main_arg10) :=
  val1_keep V0 main_arg10 (by decide) (by decide)
theorem val1_main_arg11 (V0 : Valuation τ sig (Elt F)) : val1 V0 (no_index (Proc.devRef .tc main_arg11)) = V0 (Proc.devRef .tc main_arg11) :=
  val1_keep V0 main_arg11 (by decide) (by decide)
theorem val1_main_arg12 (V0 : Valuation τ sig (Elt F)) : val1 V0 (no_index (Proc.devRef .tc main_arg12)) = V0 (Proc.devRef .tc main_arg12) :=
  val1_keep V0 main_arg12 (by decide) (by decide)
theorem val1_main_arg13 (V0 : Valuation τ sig (Elt F)) : val1 V0 (no_index (Proc.devRef .tc main_arg13)) = V0 (Proc.devRef .tc main_arg13) :=
  val1_keep V0 main_arg13 (by decide) (by decide)
theorem val1_main_arg14 (V0 : Valuation τ sig (Elt F)) : val1 V0 (no_index (Proc.devRef .tc main_arg14)) = V0 (Proc.devRef .tc main_arg14) :=
  val1_keep V0 main_arg14 (by decide) (by decide)
theorem val1_main_arg15 (V0 : Valuation τ sig (Elt F)) : val1 V0 (no_index (Proc.devRef .tc main_arg15)) = V0 (Proc.devRef .tc main_arg15) :=
  val1_keep V0 main_arg15 (by decide) (by decide)
theorem val1_main_arg16 (V0 : Valuation τ sig (Elt F)) : val1 V0 (no_index (Proc.devRef .tc main_arg16)) = V0 (Proc.devRef .tc main_arg16) :=
  val1_keep V0 main_arg16 (by decide) (by decide)

set_option maxRecDepth 8192 in
set_option maxHeartbeats 4000000 in
theorem val1_main_v1 (V0 : Valuation τ sig (Elt F)) : val1 V0 (no_index (Proc.devRef .tc main_v1)) = srcG (V0 (Proc.devRef .tc main_arg1)) := by
  unfold val1
  simp only [P0, A1, List.cons_append, List.nil_append]
  after_results_simp
  rfl

set_option maxRecDepth 8192 in
set_option maxHeartbeats 4000000 in
theorem val1_main_v3 (V0 : Valuation τ sig (Elt F)) : val1 V0 (no_index (Proc.devRef .tc main_v3)) = dstG (V0 (Proc.devRef .tc main_arg1)) := by
  unfold val1
  simp only [P0, A1, List.cons_append, List.nil_append]
  after_results_simp
  rfl

set_option maxRecDepth 8192 in
set_option maxHeartbeats 4000000 in
theorem val1_main_v22 (V0 : Valuation τ sig (Elt F)) : val1 V0 (no_index (Proc.devRef .tc main_v22)) = aggG (srcG (V0 (Proc.devRef .tc main_arg1))) (dstG (V0 (Proc.devRef .tc main_arg1))) (V0 (Proc.devRef .tc main_arg0)) := by
  unfold val1
  simp only [P0, A1, List.cons_append, List.nil_append]
  after_results_simp
  rfl

/-- The buffers' contents after the first 2 stretches of the reading. -/
def val2 (V0 : Valuation τ sig (Elt F)) : Valuation τ sig (Elt F) := after (N1a ++ N1b) (val1 V0)

/-- A buffer the stretch does not write keeps its contents through it. -/
theorem val2_keep (V0 : Valuation τ sig (Elt F)) (r : Ref sig .tc) (h0 : r ∉ N1a_W) (h1 : r ∉ N1b_W) :
    val2 V0 (Proc.devRef .tc r) = val1 V0 (Proc.devRef .tc r) := by
  unfold val2
  rw [after_append]
  exact (after_of_writes_sub N1b _ N1b_writes h1).trans (after_of_writes_sub N1a _ N1a_writes h0)
theorem val2_main_arg0 (V0 : Valuation τ sig (Elt F)) : val2 V0 (no_index (Proc.devRef .tc main_arg0)) = V0 (Proc.devRef .tc main_arg0) :=
  (val2_keep V0 main_arg0 (by decide) (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide) (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide) (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide) (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide) (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide) (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide) (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide) (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide) (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide) (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide) (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide) (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide) (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide) (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide) (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide) (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide) (by decide)).trans (val1_main_arg16 V0)
theorem val2_main_v1 (V0 : Valuation τ sig (Elt F)) : val2 V0 (no_index (Proc.devRef .tc main_v1)) = srcG (V0 (Proc.devRef .tc main_arg1)) :=
  (val2_keep V0 main_v1 (by decide) (by decide)).trans (val1_main_v1 V0)
theorem val2_main_v3 (V0 : Valuation τ sig (Elt F)) : val2 V0 (no_index (Proc.devRef .tc main_v3)) = dstG (V0 (Proc.devRef .tc main_arg1)) :=
  (val2_keep V0 main_v3 (by decide) (by decide)).trans (val1_main_v3 V0)

set_option maxRecDepth 8192 in
set_option maxHeartbeats 4000000 in
theorem val2_main_v52 (V0 : Valuation τ sig (Elt F)) : val2 V0 (no_index (Proc.devRef .tc main_v52)) = layerG (srcG (V0 (Proc.devRef .tc main_arg1))) (dstG (V0 (Proc.devRef .tc main_arg1))) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) := by
  unfold val2
  simp only [N1a, N1b, List.cons_append, List.nil_append]
  after_results_simp
  simp only [val1_main_arg6, val1_main_arg5, val1_main_arg4, val1_main_arg0, val1_main_arg3, val1_main_arg2, val1_main_v22]
  rfl

/-- The buffers' contents after the first 3 stretches of the reading. -/
def val3 (V0 : Valuation τ sig (Elt F)) : Valuation τ sig (Elt F) := after E1 (val2 V0)

/-- A buffer the stretch does not write keeps its contents through it. -/
theorem val3_keep (V0 : Valuation τ sig (Elt F)) (r : Ref sig .tc) (h0 : r ∉ E1_W) :
    val3 V0 (Proc.devRef .tc r) = val2 V0 (Proc.devRef .tc r) := by
  unfold val3
  exact after_of_writes_sub E1 _ E1_writes h0
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_v1 (V0 : Valuation τ sig (Elt F)) : val3 V0 (no_index (Proc.devRef .tc main_v1)) = srcG (V0 (Proc.devRef .tc main_arg1)) :=
  (val3_keep V0 main_v1 (by decide)).trans (val2_main_v1 V0)
theorem val3_main_v3 (V0 : Valuation τ sig (Elt F)) : val3 V0 (no_index (Proc.devRef .tc main_v3)) = dstG (V0 (Proc.devRef .tc main_arg1)) :=
  (val3_keep V0 main_v3 (by decide)).trans (val2_main_v3 V0)

set_option maxRecDepth 8192 in
set_option maxHeartbeats 4000000 in
theorem val3_main_v53 (V0 : Valuation τ sig (Elt F)) : val3 V0 (no_index (Proc.devRef .tc main_v53)) = h1G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val3
  simp only [E1, List.cons_append, List.nil_append]
  after_results_simp
  simp only [val2_main_v52]
  rfl

/-- The buffers' contents after the first 4 stretches of the reading. -/
def val4 (V0 : Valuation τ sig (Elt F)) : Valuation τ sig (Elt F) := after A2 (val3 V0)

/-- A buffer the stretch does not write keeps its contents through it. -/
theorem val4_keep (V0 : Valuation τ sig (Elt F)) (r : Ref sig .tc) (h0 : r ∉ A2_W) :
    val4 V0 (Proc.devRef .tc r) = val3 V0 (Proc.devRef .tc r) := by
  unfold val4
  exact after_of_writes_sub A2 _ A2_writes h0
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_v1 (V0 : Valuation τ sig (Elt F)) : val4 V0 (no_index (Proc.devRef .tc main_v1)) = srcG (V0 (Proc.devRef .tc main_arg1)) :=
  (val4_keep V0 main_v1 (by decide)).trans (val3_main_v1 V0)
theorem val4_main_v3 (V0 : Valuation τ sig (Elt F)) : val4 V0 (no_index (Proc.devRef .tc main_v3)) = dstG (V0 (Proc.devRef .tc main_arg1)) :=
  (val4_keep V0 main_v3 (by decide)).trans (val3_main_v3 V0)
theorem val4_main_v53 (V0 : Valuation τ sig (Elt F)) : val4 V0 (no_index (Proc.devRef .tc main_v53)) = h1G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (val4_keep V0 main_v53 (by decide)).trans (val3_main_v53 V0)

set_option maxRecDepth 8192 in
set_option maxHeartbeats 4000000 in
theorem val4_main_v72 (V0 : Valuation τ sig (Elt F)) : val4 V0 (no_index (Proc.devRef .tc main_v72)) = aggG (srcG (V0 (Proc.devRef .tc main_arg1))) (dstG (V0 (Proc.devRef .tc main_arg1))) (h1G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) := by
  unfold val4
  simp only [A2, List.cons_append, List.nil_append]
  after_results_simp
  simp only [val3_main_v3, val3_main_v1, val3_main_v53]
  rfl

/-- The buffers' contents after the first 5 stretches of the reading. -/
def val5 (V0 : Valuation τ sig (Elt F)) : Valuation τ sig (Elt F) := after (N2a ++ N2b) (val4 V0)

/-- A buffer the stretch does not write keeps its contents through it. -/
theorem val5_keep (V0 : Valuation τ sig (Elt F)) (r : Ref sig .tc) (h0 : r ∉ N2a_W) (h1 : r ∉ N2b_W) :
    val5 V0 (Proc.devRef .tc r) = val4 V0 (Proc.devRef .tc r) := by
  unfold val5
  rw [after_append]
  exact (after_of_writes_sub N2b _ N2b_writes h1).trans (after_of_writes_sub N2a _ N2a_writes h0)
theorem val5_main_arg0 (V0 : Valuation τ sig (Elt F)) : val5 V0 (no_index (Proc.devRef .tc main_arg0)) = V0 (Proc.devRef .tc main_arg0) :=
  (val5_keep V0 main_arg0 (by decide) (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide) (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide) (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide) (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide) (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide) (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide) (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide) (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide) (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide) (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide) (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide) (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide) (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide) (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide) (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide) (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide) (by decide)).trans (val4_main_arg16 V0)
theorem val5_main_v1 (V0 : Valuation τ sig (Elt F)) : val5 V0 (no_index (Proc.devRef .tc main_v1)) = srcG (V0 (Proc.devRef .tc main_arg1)) :=
  (val5_keep V0 main_v1 (by decide) (by decide)).trans (val4_main_v1 V0)
theorem val5_main_v3 (V0 : Valuation τ sig (Elt F)) : val5 V0 (no_index (Proc.devRef .tc main_v3)) = dstG (V0 (Proc.devRef .tc main_arg1)) :=
  (val5_keep V0 main_v3 (by decide) (by decide)).trans (val4_main_v3 V0)

set_option maxRecDepth 8192 in
set_option maxHeartbeats 4000000 in
theorem val5_main_v102 (V0 : Valuation τ sig (Elt F)) : val5 V0 (no_index (Proc.devRef .tc main_v102)) = layerG (srcG (V0 (Proc.devRef .tc main_arg1))) (dstG (V0 (Proc.devRef .tc main_arg1))) (h1G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg7)) (V0 (Proc.devRef .tc main_arg8)) (V0 (Proc.devRef .tc main_arg9)) (V0 (Proc.devRef .tc main_arg10)) (V0 (Proc.devRef .tc main_arg11)) := by
  unfold val5
  simp only [N2a, N2b, List.cons_append, List.nil_append]
  after_results_simp
  simp only [val4_main_arg11, val4_main_arg10, val4_main_arg9, val4_main_v53, val4_main_arg8, val4_main_arg7, val4_main_v72]
  rfl

/-- The buffers' contents after the first 6 stretches of the reading. -/
def val6 (V0 : Valuation τ sig (Elt F)) : Valuation τ sig (Elt F) := after E2 (val5 V0)

/-- A buffer the stretch does not write keeps its contents through it. -/
theorem val6_keep (V0 : Valuation τ sig (Elt F)) (r : Ref sig .tc) (h0 : r ∉ E2_W) :
    val6 V0 (Proc.devRef .tc r) = val5 V0 (Proc.devRef .tc r) := by
  unfold val6
  exact after_of_writes_sub E2 _ E2_writes h0
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_v1 (V0 : Valuation τ sig (Elt F)) : val6 V0 (no_index (Proc.devRef .tc main_v1)) = srcG (V0 (Proc.devRef .tc main_arg1)) :=
  (val6_keep V0 main_v1 (by decide)).trans (val5_main_v1 V0)
theorem val6_main_v3 (V0 : Valuation τ sig (Elt F)) : val6 V0 (no_index (Proc.devRef .tc main_v3)) = dstG (V0 (Proc.devRef .tc main_arg1)) :=
  (val6_keep V0 main_v3 (by decide)).trans (val5_main_v3 V0)

set_option maxRecDepth 8192 in
set_option maxHeartbeats 4000000 in
theorem val6_main_v103 (V0 : Valuation τ sig (Elt F)) : val6 V0 (no_index (Proc.devRef .tc main_v103)) = h2G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold val6
  simp only [E2, List.cons_append, List.nil_append]
  after_results_simp
  simp only [val5_main_v102]
  rfl

/-- The buffers' contents after the first 7 stretches of the reading. -/
def val7 (V0 : Valuation τ sig (Elt F)) : Valuation τ sig (Elt F) := after A3 (val6 V0)

/-- A buffer the stretch does not write keeps its contents through it. -/
theorem val7_keep (V0 : Valuation τ sig (Elt F)) (r : Ref sig .tc) (h0 : r ∉ A3_W) :
    val7 V0 (Proc.devRef .tc r) = val6 V0 (Proc.devRef .tc r) := by
  unfold val7
  exact after_of_writes_sub A3 _ A3_writes h0
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)
theorem val7_main_v103 (V0 : Valuation τ sig (Elt F)) : val7 V0 (no_index (Proc.devRef .tc main_v103)) = h2G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) :=
  (val7_keep V0 main_v103 (by decide)).trans (val6_main_v103 V0)

set_option maxRecDepth 8192 in
set_option maxHeartbeats 4000000 in
theorem val7_main_v122 (V0 : Valuation τ sig (Elt F)) : val7 V0 (no_index (Proc.devRef .tc main_v122)) = aggG (srcG (V0 (Proc.devRef .tc main_arg1))) (dstG (V0 (Proc.devRef .tc main_arg1))) (h2G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))) := by
  unfold val7
  simp only [A3, List.cons_append, List.nil_append]
  after_results_simp
  simp only [val6_main_v3, val6_main_v1, val6_main_v103]
  rfl

/-- The buffers' contents after the first 8 stretches of the reading. -/
def val8 (V0 : Valuation τ sig (Elt F)) : Valuation τ sig (Elt F) := after (N3a ++ N3b) (val7 V0)

/-- A buffer the stretch does not write keeps its contents through it. -/
theorem val8_keep (V0 : Valuation τ sig (Elt F)) (r : Ref sig .tc) (h0 : r ∉ N3a_W) (h1 : r ∉ N3b_W) :
    val8 V0 (Proc.devRef .tc r) = val7 V0 (Proc.devRef .tc r) := by
  unfold val8
  rw [after_append]
  exact (after_of_writes_sub N3b _ N3b_writes h1).trans (after_of_writes_sub N3a _ N3a_writes h0)
theorem val8_main_arg0 (V0 : Valuation τ sig (Elt F)) : val8 V0 (no_index (Proc.devRef .tc main_arg0)) = V0 (Proc.devRef .tc main_arg0) :=
  (val8_keep V0 main_arg0 (by decide) (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide) (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide) (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide) (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide) (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide) (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide) (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide) (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide) (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide) (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide) (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide) (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide) (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide) (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide) (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide) (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide) (by decide)).trans (val7_main_arg16 V0)

set_option maxRecDepth 8192 in
set_option maxHeartbeats 4000000 in
theorem val8_main_v152 (V0 : Valuation τ sig (Elt F)) : val8 V0 (no_index (Proc.devRef .tc main_v152)) = layerG (srcG (V0 (Proc.devRef .tc main_arg1))) (dstG (V0 (Proc.devRef .tc main_arg1))) (h2G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))) (V0 (Proc.devRef .tc main_arg12)) (V0 (Proc.devRef .tc main_arg13)) (V0 (Proc.devRef .tc main_arg14)) (V0 (Proc.devRef .tc main_arg15)) (V0 (Proc.devRef .tc main_arg16)) := by
  unfold val8
  simp only [N3a, N3b, List.cons_append, List.nil_append]
  after_results_simp
  simp only [val7_main_arg16, val7_main_arg15, val7_main_arg14, val7_main_v103, val7_main_arg13, val7_main_arg12, val7_main_v122]
  rfl

/-- The buffers' contents after the first 9 stretches of the reading. -/
def val9 (V0 : Valuation τ sig (Elt F)) : Valuation τ sig (Elt F) := after L2 (val8 V0)

/-- A buffer the stretch does not write keeps its contents through it. -/
theorem val9_keep (V0 : Valuation τ sig (Elt F)) (r : Ref sig .tc) (h0 : r ∉ L2_W) :
    val9 V0 (Proc.devRef .tc r) = val8 V0 (Proc.devRef .tc r) := by
  unfold val9
  exact after_of_writes_sub L2 _ L2_writes h0
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_arg16 (V0 : Valuation τ sig (Elt F)) : val9 V0 (no_index (Proc.devRef .tc main_arg16)) = V0 (Proc.devRef .tc main_arg16) :=
  (val9_keep V0 main_arg16 (by decide)).trans (val8_main_arg16 V0)

set_option maxRecDepth 8192 in
set_option maxHeartbeats 4000000 in
theorem val9_main_v160 (V0 : Valuation τ sig (Elt F)) : val9 V0 (no_index (Proc.devRef .tc main_v160)) = netG (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  unfold val9
  simp only [L2, List.cons_append, List.nil_append]
  after_results_simp
  simp only [val8_main_v152]
  rfl

/-- The fold over the whole program is the last of those contents. -/
theorem after_ops (V0 : Valuation τ sig (Elt F)) : after ops V0 = val9 V0 := by
  simp only [val9, val8, val7, val6, val5, val4, val3, val2, val1, ops, after_append]

end Cert.ReferenceIdeal.RefValue

end
-- ==== Proof.RefRun.lean ====
/-
  The reference's run, read: from any memory with zero counters every weakly fair execution terminates with the
  result buffer at the whole network, as an array-level function of the seventeen argument buffers' launch
  contents, and with those seventeen buffers unchanged.
-/
import proofs.«112205_j9818295239157_1_alg».proof.Proof.RefMain
import proofs.«112205_j9818295239157_1_alg».proof.Proof.RefWin

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

theorem runG (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v160) = netG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v160).trans (by rw [after_ops]; exact val9_main_v160 (launchContents m c)),
      (h c main_arg0).trans (by rw [after_ops]; exact val9_main_arg0 (launchContents m c)),
      (h c main_arg1).trans (by rw [after_ops]; exact val9_main_arg1 (launchContents m c)),
      (h c main_arg2).trans (by rw [after_ops]; exact val9_main_arg2 (launchContents m c)),
      (h c main_arg3).trans (by rw [after_ops]; exact val9_main_arg3 (launchContents m c)),
      (h c main_arg4).trans (by rw [after_ops]; exact val9_main_arg4 (launchContents m c)),
      (h c main_arg5).trans (by rw [after_ops]; exact val9_main_arg5 (launchContents m c)),
      (h c main_arg6).trans (by rw [after_ops]; exact val9_main_arg6 (launchContents m c)),
      (h c main_arg7).trans (by rw [after_ops]; exact val9_main_arg7 (launchContents m c)),
      (h c main_arg8).trans (by rw [after_ops]; exact val9_main_arg8 (launchContents m c)),
      (h c main_arg9).trans (by rw [after_ops]; exact val9_main_arg9 (launchContents m c)),
      (h c main_arg10).trans (by rw [after_ops]; exact val9_main_arg10 (launchContents m c)),
      (h c main_arg11).trans (by rw [after_ops]; exact val9_main_arg11 (launchContents m c)),
      (h c main_arg12).trans (by rw [after_ops]; exact val9_main_arg12 (launchContents m c)),
      (h c main_arg13).trans (by rw [after_ops]; exact val9_main_arg13 (launchContents m c)),
      (h c main_arg14).trans (by rw [after_ops]; exact val9_main_arg14 (launchContents m c)),
      (h c main_arg15).trans (by rw [after_ops]; exact val9_main_arg15 (launchContents m c)),
      (h c main_arg16).trans (by rw [after_ops]; exact val9_main_arg16 (launchContents m c))⟩)
    (run_after m ρ)

end Cert.ReferenceIdeal.RefValue

end
-- ==== Proof.LibRowRead.lean ====
import proofs.«112205_j9818295239157_1_alg».proof.Proof.LibSoftmaxRow
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

/-!
# Host operations on a matrix, read at a row

For an `[a, n]` array and a row `r`, each lemma reads one host operation at an index of row `r`:

* a vector `[a]` broadcast to a column `[a, 1]` (`dims = [0]`) and a column broadcast over the rows' entries
  (`[a, 1] → [a, b]`, `dims = [0, 1]`);
* the reduction over the last axis with a maximum body, as the fold of `max` over the row from the initial value,
  and with an add body, as the initial value plus the sum over the row;
* a column `[a, 1]` put in front of an `[a, n]` array along the last axis: column `0` reads the column,
  column `k + 1` reads entry `k`;
* the slice of column `0` and the cast of a column `[a, 1]` back to a vector `[a]`;
* the f32 word of one half;
* the host's pointwise exponential, logarithms, negation and absolute value at an index, and a float compared
  unequal with itself (never, at the extended reals).
-/

noncomputable section

namespace Cert.LibRowRead

open Idealize.ShloMosaic Idealize.ShloMosaic.ValueIdx

/-- A vector `[a]` broadcast to the column `[a, 1]` reads, at `(r, u)`, the vector at `r`. -/
theorem bcastCol_apply {α : Type} {a : ℕ} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) := by
  refine broadcastInDim_apply _ h v (ix2 r u) (ix1 r) fun ax => ?_
  match ax with
  | ⟨0, _⟩ =>
    show r.val = if a = 1 then 0 else r.val
    split
    · have := r.isLt; omega
    · rfl

/-- A column `[a, 1]` broadcast to `[a, b]` reads, at `(r, c)`, the column's entry of row `r`. -/
theorem bcastRow_apply {α : Type} {a b : ℕ} (v : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ => exact (if_pos rfl).symm

/-- The host's reduce with a maximum body over the last axis of an `[a, n]` array, at row `r`: the fold of `max`
    over the row from the initial value. -/
theorem hostReduce_max_row2 {a n : ℕ} {u : Shape} (x : (⟨2, ![a, n]⟩ : Shape).Idx → Ideal .f32) (init : u.Idx → Ideal .f32)
    (h' : (⟨2, ![a, n]⟩ : Shape).ReducesTo [1] (⟨1, ![a]⟩ : Shape)) (hu : 0 < u.numel) (r : Fin a) :
    Host.reduce FloatOps.maximumf x init h' hu (ix1 r)
      = (Finset.univ : Finset (Fin n)).fold max (init (Shape.Idx.first hu)) fun k : Fin n => x (ix2 r k) := by
  have h : (⟨2, ![a, n]⟩ : Shape).Reduces [1] (⟨1, ![a]⟩ : Shape) := ⟨h'.1, Nat.one_pos, h'.2⟩
  rw [Host.reduce_eq_fold_single FloatOps.maximumf x init h' h hu]
  have hf : (x ∘ h.lift (ix1 r)) = fun k : Fin n => x (ix2 r k) :=
    funext fun k => congrArg x (Cert.LibSoftmaxRow.lift_row2 h r k)
  exact congrArg (fun f => Finset.fold max (init (Shape.Idx.first hu)) f (Finset.univ : Finset (Fin n))) hf

/-- The host's reduce with an add body over the last axis of an `[a, n]` array, at row `r`: the initial value plus
    the sum over the row. -/
theorem hostReduceAdd_row2 {a n : ℕ} {u : Shape} (x : FVec Ideal ⟨2, ![a, n]⟩ .f32) (init : u.Idx → Ideal .f32)
    (h' : (⟨2, ![a, n]⟩ : Shape).ReducesTo [1] (⟨1, ![a]⟩ : Shape)) (hu : 0 < u.numel) (r : Fin a) :
    Host.reduceAdd x init h' hu (ix1 r) = init (Shape.Idx.first hu) + ∑ k : Fin n, x (ix2 r k) := by
  have h : (⟨2, ![a, n]⟩ : Shape).Reduces [1] (⟨1, ![a]⟩ : Shape) := ⟨h'.1, Nat.one_pos, h'.2⟩
  rw [hostReduceAdd_apply, Ideal.hostReduceAdd_single h' h]
  congr 1
  exact Finset.sum_congr rfl fun k _ => congrArg x (Cert.LibSoftmaxRow.lift_row2 h r k)

/-- A column in front of an `[a, n]` array: column `0` of the concatenation reads the column. -/
theorem concat_col_zero {α : Type} {a n m : ℕ} (x₁ : (⟨2, ![a, 1]⟩ : Shape).Idx → α) (x₂ : (⟨2, ![a, n]⟩ : Shape).Idx → α)
    (h : Shape.Concatenates [⟨2, ![a, 1]⟩, ⟨2, ![a, n]⟩] ⟨2, ![a, m]⟩ 1) (r : Fin a) (c : Fin m) (hc : c.val = 0) :
    concatenate ⟨2, ![a, m]⟩ 1 [⟨⟨2, ![a, 1]⟩, x₁⟩, ⟨⟨2, ![a, n]⟩, x₂⟩] h (ix2 r c) = x₁ (ix2 r (0 : Fin 1)) := by
  refine concatenate_pair_apply_left 1 x₁ x₂ h (ix2 r c) rfl (ix2 r (0 : Fin 1)) fun b => ?_
  match b with
  | ⟨0, _⟩ => rfl
  | ⟨1, _⟩ => exact hc.symm

/-- A column in front of an `[a, n]` array: column `k + 1` of the concatenation reads the array's column `k`. -/
theorem concat_col_succ {α : Type} {a n m : ℕ} (x₁ : (⟨2, ![a, 1]⟩ : Shape).Idx → α) (x₂ : (⟨2, ![a, n]⟩ : Shape).Idx → α)
    (h : Shape.Concatenates [⟨2, ![a, 1]⟩, ⟨2, ![a, n]⟩] ⟨2, ![a, m]⟩ 1) (r : Fin a) (k : Fin n) (c : Fin m)
    (hc : c.val = k.val + 1) :
    concatenate ⟨2, ![a, m]⟩ 1 [⟨⟨2, ![a, 1]⟩, x₁⟩, ⟨⟨2, ![a, n]⟩, x₂⟩] h (ix2 r c) = x₂ (ix2 r k) := by
  refine concatenate_pair_apply_right 1 x₁ x₂ h (ix2 r c) rfl rfl (ix2 r k) (fun b hb => ?_) hc.symm
  match b, hb with
  | ⟨0, _⟩, _ => rfl
  | ⟨1, _⟩, hb => exact absurd rfl hb

/-- Column `0` of an `[a, m]` array, sliced out as a column `[a, 1]`. -/
theorem slice_col0_apply {α : Type} {a m : ℕ} (x : (⟨2, ![a, m]⟩ : Shape).Idx → α)
    (h : (⟨2, ![a, m]⟩ : Shape).Slices ![0, 0] ⟨2, ![a, 1]⟩) (r : Fin a) (u : Fin 1) (c : Fin m) (hc : c.val = 0) :
    extractStridedSlice ⟨2, ![a, 1]⟩ ![0, 0] x h (ix2 r u) = x (ix2 r c) := by
  refine extractStridedSlice_apply _ x h (ix2 r u) (ix2 r c) fun ax => ?_
  match ax with
  | ⟨0, _⟩ => show r.val = 0 + r.val; omega
  | ⟨1, _⟩ => show c.val = 0 + u.val; omega

/-- A column `[a, 1]` cast to the vector `[a]` reads, at `r`, the column's entry of row `r`. -/
theorem castCol_apply {α : Type} {a : ℕ} (x : (⟨2, ![a, 1]⟩ : Shape).Idx → α)
    (h : (⟨2, ![a, 1]⟩ : Shape).ShapeCasts ⟨1, ![a]⟩) (r : Fin a) :
    shapeCast ⟨1, ![a]⟩ x h (ix1 r) = x (ix2 r (0 : Fin 1)) := by
  refine shapeCast_apply x h (ix1 r) (ix2 r (0 : Fin 1)) ?_
  rw [Shape.rowMajor_val_two, Shape.rowMajor_val_one]
  show r.val * 1 + 0 = r.val
  omega

/-- The f32 word `0x3F000000`: exponent field 126, significand field 0, so 2²³ · 2^(126 − 150) = 1/2. -/
theorem ofBits_half : Ideal.ofBits .f32 0x3F000000#32 = (((1 : ℝ) / 2 : ℝ) : EReal) := by
  simp [Ideal.ofBits, Ideal.ieee, -EReal.coe_mul]; norm_num

/-- A sum over `Fin (n + 1)` split into its first term and the sum of the rest, the index type given by an equation. -/
theorem sum_head_tail {M : Type} [AddCommMonoid M] {n m : ℕ} (hm : m = n + 1) (f : Fin m → M) :
    ∑ c : Fin m, f c = f ⟨0, by omega⟩ + ∑ k : Fin n, f ⟨k.val + 1, by omega⟩ := by
  subst hm
  exact Fin.sum_univ_succ f

/-! ### Pointwise host operations at an index -/

theorem hostExp_apply {s : Shape} {φ : FTy} (x : FVec Ideal s φ) (i : s.Idx) : Host.exp x i = Ideal.exp (x i) := rfl

theorem hostLog_apply {s : Shape} {φ : FTy} (x : FVec Ideal s φ) (i : s.Idx) : Host.log x i = Ideal.log (x i) := rfl

theorem hostLog1p_apply {s : Shape} {φ : FTy} (x : FVec Ideal s φ) (i : s.Idx) : Host.log1p x i = Ideal.log1p (x i) := rfl

theorem hostNegf_apply {s : Shape} {φ : FTy} (x : FVec Ideal s φ) (i : s.Idx) : Host.negf x i = -(x i) := rfl

theorem hostAbsf_apply {s : Shape} {φ : FTy} (x : FVec Ideal s φ) (i : s.Idx) : Host.absf x i = max (x i) (-(x i)) := rfl

/-- No extended real differs from itself: the comparison `d ≠ d` is the zero bit. -/
theorem cmpf_une_self_apply {s : Shape} {φ : FTy} (d : FVec Ideal s φ) (i : s.Idx) : cmpf .une d d i = 0#1 := by
  show Ideal.cmp .une (d i) (d i) = 0#1
  simp [Ideal.cmp]

end Cert.LibRowRead

end
-- ==== Proof.LibNormHost.lean ====
/-
  One graph-convolution layer as a host program spells it — dot_general, reduce, broadcast_in_dim, pointwise
  operations — stage by stage, read at an entry on the extended reals.

  A block y : [n, d] of affine rows goes through: the column of row sums (a reduce over the last axis from the zero
  word, kept as a column); the column of row means (over the count's word, a scalar spread over the column); the
  block centred at those means; the column of reciprocal standard deviations; the scale and shift by two vectors
  [d] laid out as rows and spread down the n rows; and then either the exponential linear unit in the spelling
  "y where y > 0, else 1 · expm1 (0 where y > 0, else y)" or the division by the clamped Euclidean norm of each row.
  Each stage at entry (r, j) reads row r of its operand only and is the matching row function of the layer's
  specification: a reduce's zero initial value adds nothing, a spread scalar reads the scalar, and the affine rows
  differ from the specification's only in the order of two additions.  Nothing here needs an entry to be finite.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«112205_j9818295239157_1_alg».proof.Proof.LibSageNorm
import proofs.«112205_j9818295239157_1_alg».proof.Proof.LibDense
import proofs.«112205_j9818295239157_1_alg».proof.Proof.LibRowRead

noncomputable section

namespace Cert.ReferenceIdeal.RowLib

open Idealize.ShloMosaic Idealize.ShloMosaic.ValueIdx

/-! ## A scalar spread over a shape, and a vector laid out as a row and spread down the rows -/

/-- The word `w` as a rank-0 constant spread over the shape `s`. -/
def hScal (s : Shape) (hbs : (⟨0, ![]⟩ : Shape).BroadcastsInDim s ![]) (w : BitVec (FTy.bits .f32)) : FVec Ideal s .f32 :=
  broadcastInDim s ![] hbs (constant (F := Ideal) ⟨0, ![]⟩ .f32 w)

theorem hScal_apply (s : Shape) (hbs : (⟨0, ![]⟩ : Shape).BroadcastsInDim s ![]) (w : BitVec (FTy.bits .f32)) (i : s.Idx) :
    hScal s hbs w i = Ideal.ofBits .f32 w := by
  unfold hScal
  rw [broadcastInDim_scalar_apply]
  rfl

section Row

variable {n d : ℕ} (hbv : (⟨1, ![d]⟩ : Shape).BroadcastsInDim ⟨2, ![1, d]⟩ ![1])
  (hbr : (⟨2, ![1, d]⟩ : Shape).BroadcastsInDim ⟨2, ![n, d]⟩ ![0, 1])

/-- A vector `[d]` laid out as a row `[1, d]` reads, at `(0, j)`, the vector at `j`. -/
theorem vecRow_apply {α : Type} (g : (⟨1, ![d]⟩ : Shape).Idx → α) (z : Fin 1) (j : Fin d) :
    broadcastInDim ⟨2, ![1, d]⟩ ![1] hbv g (ix2 z j) = g (ix1 j) := by
  refine broadcastInDim_apply _ hbv g (ix2 z j) (ix1 j) fun ax => ?_
  match ax with
  | ⟨0, _⟩ =>
    show j.val = if d = 1 then 0 else j.val
    split
    · have := j.isLt; omega
    · rfl

/-- A row `[1, d]` spread down `n` rows reads, at `(r, j)`, the row at `(0, j)`. -/
theorem rowDown_apply {α : Type} (v : (⟨2, ![1, d]⟩ : Shape).Idx → α) (r : Fin n) (j : Fin d) :
    broadcastInDim ⟨2, ![n, d]⟩ ![0, 1] hbr v (ix2 r j) = v (ix2 (0 : Fin 1) j) := by
  refine broadcastInDim_apply _ hbr v (ix2 r j) (ix2 (0 : Fin 1) j) fun ax => ?_
  match ax with
  | ⟨0, _⟩ => exact (if_pos rfl).symm
  | ⟨1, _⟩ =>
    show j.val = if d = 1 then 0 else j.val
    split
    · have := j.isLt; omega
    · rfl

/-- A vector `[d]` laid out as a row and spread down `n` rows. -/
def hRow (g : FVec Ideal ⟨1, ![d]⟩ .f32) : FVec Ideal ⟨2, ![n, d]⟩ .f32 :=
  broadcastInDim ⟨2, ![n, d]⟩ ![0, 1] hbr (broadcastInDim ⟨2, ![1, d]⟩ ![1] hbv g)

theorem hRow_apply (g : FVec Ideal ⟨1, ![d]⟩ .f32) (r : Fin n) (j : Fin d) : hRow hbv hbr g (ix2 r j) = g (ix1 j) := by
  unfold hRow
  rw [rowDown_apply, vecRow_apply]

end Row

/-! ## The affine rows -/

section Lin

variable {n K d : ℕ} (hbv : (⟨1, ![d]⟩ : Shape).BroadcastsInDim ⟨2, ![1, d]⟩ ![1])
  (hbr : (⟨2, ![1, d]⟩ : Shape).BroadcastsInDim ⟨2, ![n, d]⟩ ![0, 1])

/-- The mean's product plus the bias, plus the features' product. -/
def hLin (M X : FVec Ideal ⟨2, ![n, K]⟩ .f32) (Wl : FVec Ideal ⟨2, ![K, d]⟩ .f32) (bl : FVec Ideal ⟨1, ![d]⟩ .f32)
    (Wr : FVec Ideal ⟨2, ![K, d]⟩ .f32) : FVec Ideal ⟨2, ![n, d]⟩ .f32 :=
  addf (addf (Host.dotGeneral (DotDims.plain n K d) none M Wl) (hRow hbv hbr bl)) (Host.dotGeneral (DotDims.plain n K d) none X Wr)

/-- Row r of the affine block is the specification's affine row of node r, the bias read as a row: the two orders of
    adding the bias and the second product agree. -/
theorem hLin_row (M X : FVec Ideal ⟨2, ![n, K]⟩ .f32) (Wl : FVec Ideal ⟨2, ![K, d]⟩ .f32) (bl : FVec Ideal ⟨1, ![d]⟩ .f32)
    (Wr : FVec Ideal ⟨2, ![K, d]⟩ .f32) (r : Fin n) :
    (fun q : Fin d => hLin hbv hbr M X Wl bl Wr (ix2 r q))
      = Cert.Sage.linRow M X Wl Wr (fun i : (⟨2, ![1, d]⟩ : Shape).Idx => bl (ix1 (i 1))) r := by
  funext q
  show (FloatOps.dotGeneral (F := Ideal) (φ₁ := .f32) (φ₂ := .f32) (DotDims.plain n K d) none .single M Wl (ix2 r q)
      + hRow hbv hbr bl (ix2 r q))
      + FloatOps.dotGeneral (F := Ideal) (φ₁ := .f32) (φ₂ := .f32) (DotDims.plain n K d) none .single X Wr (ix2 r q)
    = (LibDense.prod M Wl (ix2 r q) + LibDense.prod X Wr (ix2 r q)) + bl (ix1 q)
  rw [LibDense.dotGeneral_plain, LibDense.dotGeneral_plain, hRow_apply]
  exact add_right_comm _ _ _

end Lin

/-! ## Normalising the rows -/

section Norm

variable {n d : ℕ} (hrt : (⟨2, ![n, d]⟩ : Shape).ReducesTo [1] (⟨1, ![n]⟩ : Shape)) (hu : 0 < (⟨0, ![]⟩ : Shape).numel)
  (hb0 : (⟨1, ![n]⟩ : Shape).BroadcastsInDim ⟨2, ![n, 1]⟩ ![0])
  (hbs : (⟨0, ![]⟩ : Shape).BroadcastsInDim ⟨2, ![n, 1]⟩ ![])
  (hb : (⟨2, ![n, 1]⟩ : Shape).BroadcastsInDim ⟨2, ![n, d]⟩ ![0, 1])

/-- The row sums from the zero word, kept as a column. -/
def hSumCol (y : FVec Ideal ⟨2, ![n, d]⟩ .f32) : FVec Ideal ⟨2, ![n, 1]⟩ .f32 :=
  broadcastInDim ⟨2, ![n, 1]⟩ ![0] hb0 (Host.reduceAdd y (constant (F := Ideal) ⟨0, ![]⟩ .f32 0x00000000#32) hrt hu)

theorem hSumCol_apply (y : FVec Ideal ⟨2, ![n, d]⟩ .f32) (r : Fin n) (u : Fin 1) :
    hSumCol hrt hu hb0 y (ix2 r u) = ∑ q : Fin d, y (ix2 r q) := by
  unfold hSumCol
  rw [LibRowRead.bcastCol_apply, LibRowRead.hostReduceAdd_row2]
  show Ideal.ofBits .f32 0x00000000#32 + _ = _
  rw [Cert.Sage.word_zero, zero_add]

/-- The column of row means. -/
def hMeanCol (y : FVec Ideal ⟨2, ![n, d]⟩ .f32) : FVec Ideal ⟨2, ![n, 1]⟩ .f32 :=
  Host.divf (hSumCol hrt hu hb0 y) (hScal ⟨2, ![n, 1]⟩ hbs 0x43000000#32)

theorem hMeanCol_apply (y : FVec Ideal ⟨2, ![n, d]⟩ .f32) (r : Fin n) (u : Fin 1) :
    hMeanCol hrt hu hb0 hbs y (ix2 r u) = Cert.Sage.rowMean fun q : Fin d => y (ix2 r q) := by
  show Ideal.div (hSumCol hrt hu hb0 y (ix2 r u)) (hScal ⟨2, ![n, 1]⟩ hbs 0x43000000#32 (ix2 r u)) = _
  rw [hSumCol_apply, hScal_apply]
  rfl

/-- The block centred at its row means. -/
def hCen (y : FVec Ideal ⟨2, ![n, d]⟩ .f32) : FVec Ideal ⟨2, ![n, d]⟩ .f32 :=
  subf y (broadcastInDim ⟨2, ![n, d]⟩ ![0, 1] hb (hMeanCol hrt hu hb0 hbs y))

theorem hCen_apply (y : FVec Ideal ⟨2, ![n, d]⟩ .f32) (r : Fin n) (j : Fin d) :
    hCen hrt hu hb0 hbs hb y (ix2 r j) = Cert.Sage.centred (fun q : Fin d => y (ix2 r q)) j := by
  show y (ix2 r j) - broadcastInDim ⟨2, ![n, d]⟩ ![0, 1] hb (hMeanCol hrt hu hb0 hbs y) (ix2 r j) = _
  rw [LibRowRead.bcastRow_apply, hMeanCol_apply]
  rfl

/-- The column of reciprocal standard deviations. -/
def hIstdCol (y : FVec Ideal ⟨2, ![n, d]⟩ .f32) : FVec Ideal ⟨2, ![n, 1]⟩ .f32 :=
  Host.rsqrt (addf
    (Host.divf (hSumCol hrt hu hb0 (mulf (hCen hrt hu hb0 hbs hb y) (hCen hrt hu hb0 hbs hb y))) (hScal ⟨2, ![n, 1]⟩ hbs 0x43000000#32))
    (hScal ⟨2, ![n, 1]⟩ hbs 0x3727C5AC#32))

theorem hIstdCol_apply (y : FVec Ideal ⟨2, ![n, d]⟩ .f32) (r : Fin n) (u : Fin 1) :
    hIstdCol hrt hu hb0 hbs hb y (ix2 r u) = Cert.Sage.invStd fun q : Fin d => y (ix2 r q) := by
  show Ideal.rsqrt (Ideal.div (hSumCol hrt hu hb0 (mulf (hCen hrt hu hb0 hbs hb y) (hCen hrt hu hb0 hbs hb y)) (ix2 r u))
      (hScal ⟨2, ![n, 1]⟩ hbs 0x43000000#32 (ix2 r u)) + hScal ⟨2, ![n, 1]⟩ hbs 0x3727C5AC#32 (ix2 r u)) = _
  rw [hSumCol_apply, hScal_apply, hScal_apply]
  unfold Cert.Sage.invStd
  refine congrArg (fun s => Ideal.rsqrt (Ideal.div s (Ideal.ofBits .f32 0x43000000#32) + Ideal.ofBits .f32 0x3727C5AC#32)) ?_
  refine Finset.sum_congr rfl fun q _ => ?_
  show hCen hrt hu hb0 hbs hb y (ix2 r q) * hCen hrt hu hb0 hbs hb y (ix2 r q) = _
  rw [hCen_apply]

variable (hbv : (⟨1, ![d]⟩ : Shape).BroadcastsInDim ⟨2, ![1, d]⟩ ![1])
  (hbr : (⟨2, ![1, d]⟩ : Shape).BroadcastsInDim ⟨2, ![n, d]⟩ ![0, 1])

/-- The normalised rows, scaled by `g` and shifted by `b`. -/
def hLn (y : FVec Ideal ⟨2, ![n, d]⟩ .f32) (g b : FVec Ideal ⟨1, ![d]⟩ .f32) : FVec Ideal ⟨2, ![n, d]⟩ .f32 :=
  addf (mulf (mulf (hCen hrt hu hb0 hbs hb y) (broadcastInDim ⟨2, ![n, d]⟩ ![0, 1] hb (hIstdCol hrt hu hb0 hbs hb y)))
    (hRow hbv hbr g)) (hRow hbv hbr b)

theorem hLn_apply (y : FVec Ideal ⟨2, ![n, d]⟩ .f32) (g b : FVec Ideal ⟨1, ![d]⟩ .f32) (r : Fin n) (j : Fin d) :
    hLn hrt hu hb0 hbs hb hbv hbr y g b (ix2 r j)
      = Cert.Sage.lnRow (fun q : Fin d => g (ix1 q)) (fun q : Fin d => b (ix1 q)) (fun q : Fin d => y (ix2 r q)) j := by
  show hCen hrt hu hb0 hbs hb y (ix2 r j) * broadcastInDim ⟨2, ![n, d]⟩ ![0, 1] hb (hIstdCol hrt hu hb0 hbs hb y) (ix2 r j)
      * hRow hbv hbr g (ix2 r j) + hRow hbv hbr b (ix2 r j) = _
  rw [hCen_apply, LibRowRead.bcastRow_apply, hIstdCol_apply, hRow_apply, hRow_apply]
  rfl

/-- Each row divided by the larger of its Euclidean norm and the tiny word. -/
def hL2 (y : FVec Ideal ⟨2, ![n, d]⟩ .f32) : FVec Ideal ⟨2, ![n, d]⟩ .f32 :=
  Host.divf y (broadcastInDim ⟨2, ![n, d]⟩ ![0, 1] hb
    (maximumf (Host.sqrt (hSumCol hrt hu hb0 (mulf y y))) (hScal ⟨2, ![n, 1]⟩ hbs 0x2B8CBCCC#32)))

theorem hL2_apply (y : FVec Ideal ⟨2, ![n, d]⟩ .f32) (r : Fin n) (j : Fin d) :
    hL2 hrt hu hb0 hbs hb y (ix2 r j) = Cert.Sage.l2Row (fun q : Fin d => y (ix2 r q)) j := by
  show Ideal.div (y (ix2 r j)) (broadcastInDim ⟨2, ![n, d]⟩ ![0, 1] hb
    (maximumf (Host.sqrt (hSumCol hrt hu hb0 (mulf y y))) (hScal ⟨2, ![n, 1]⟩ hbs 0x2B8CBCCC#32)) (ix2 r j)) = _
  rw [LibRowRead.bcastRow_apply]
  show Ideal.div (y (ix2 r j)) (max (Ideal.sqrt (hSumCol hrt hu hb0 (mulf y y) (ix2 r (0 : Fin 1))))
    (hScal ⟨2, ![n, 1]⟩ hbs 0x2B8CBCCC#32 (ix2 r (0 : Fin 1)))) = _
  rw [hSumCol_apply, hScal_apply]
  rfl

end Norm

/-! ## The exponential linear unit -/

section Elu

variable {s : Shape} (hbs : (⟨0, ![]⟩ : Shape).BroadcastsInDim s ![])

/-- `y` where `y > 0`, elsewhere one times `expm1` of (`0` where `y > 0`, `y` elsewhere). -/
def hElu (y : FVec Ideal s .f32) : FVec Ideal s .f32 :=
  select (cmpf .ogt y (hScal s hbs 0x00000000#32)) y
    (mulf (hScal s hbs 0x3F800000#32)
      (Host.expm1 (select (cmpf .ogt y (hScal s hbs 0x00000000#32)) (hScal s hbs 0x00000000#32) y)))

/-- Choosing by the comparison "above": the first value where the bound is strictly below, the second elsewhere. -/
theorem select_above {α : Type} (y z : EReal) (a b : α) :
    Scalar.select (Ideal.cmp .ogt y z) a b = if z < y then a else b := by
  unfold Scalar.select Ideal.cmp
  by_cases h : z < y
  · rw [if_pos h]; simp [h]
  · rw [if_neg h]; simp [h]

theorem hElu_apply (y : FVec Ideal s .f32) (i : s.Idx) : hElu hbs y i = Cert.Sage.elu (y i) := by
  show Scalar.select (Ideal.cmp .ogt (y i) (hScal s hbs 0x00000000#32 i)) (y i)
      (hScal s hbs 0x3F800000#32 i
        * (Ideal.exp (Scalar.select (Ideal.cmp .ogt (y i) (hScal s hbs 0x00000000#32 i)) (hScal s hbs 0x00000000#32 i) (y i)) - 1)) = _
  rw [hScal_apply, hScal_apply, select_above, select_above]
  unfold Cert.Sage.elu
  by_cases h : Ideal.ofBits .f32 0x00000000#32 < y i
  · rw [if_pos h, if_pos h]
  · rw [if_neg h, if_neg h, if_neg h, Cert.Sage.word_one, one_mul]

end Elu

end Cert.ReferenceIdeal.RowLib

end
-- ==== Proof.RefLayer.lean ====
/-
  One layer of the reference, read as the specification: the reference's normalised affine map of the neighbourhood
  mean and the features, followed by the exponential linear unit or by the division by the row norm, is the
  specification's hidden layer or last layer of the same two arrays, the bias and the two scale vectors read as rows.

  The reference's array-level functions are, by unfolding, the host row pipeline at these sizes; that pipeline at an
  entry (R, j) is the specification's row function of row R.  The neighbourhood mean is carried as one array and never
  opened.
-/
import proofs.«112205_j9818295239157_1_alg».proof.Proof.RefDefs
import proofs.«112205_j9818295239157_1_alg».proof.Proof.LibNormHost

set_option maxHeartbeats 400000

noncomputable section

namespace Cert.ReferenceIdeal.RefValue

open Cert.ReferenceIdeal Cert.ReferenceIdeal.Facts₀ Cert.ReferenceIdeal.Facts Idealize.ShloMosaic Idealize.ShloMosaic.ValueIdx
open Cert.ReferenceIdeal.RowLib

variable [Cert.ReferenceIdeal.Facts]

/-- A vector `[128]` read as the row `[1, 128]`. -/
def row (v : FVec Ideal S128 .f32) : (⟨2, ![1, 128]⟩ : Shape).Idx → EReal := fun i => v (ix1 (i 1))

/-- The reference's affine map is the host affine rows at these sizes. -/
theorem linG_eq (M X : (⟨S100000x128, .f32⟩ : BufTy).Contents (Elt Ideal)) (Wl : (⟨S128x128, .f32⟩ : BufTy).Contents (Elt Ideal))
    (bl : (⟨S128, .f32⟩ : BufTy).Contents (Elt Ideal)) (Wr : (⟨S128x128, .f32⟩ : BufTy).Contents (Elt Ideal)) :
    linG (F := Ideal) M X Wl bl Wr
      = hLin (n := 100000) (K := 128) (d := 128) bcast_S128_S1x128_1 bcast_S1x128_S100000x128_0_1 M X Wl bl Wr := by
  unfold linG
  rfl

/-- The reference's row normalisation is the host row normalisation at these sizes. -/
theorem lnG_eq (y : (⟨S100000x128, .f32⟩ : BufTy).Contents (Elt Ideal)) (g b : (⟨S128, .f32⟩ : BufTy).Contents (Elt Ideal)) :
    lnG (F := Ideal) y g b
      = hLn (n := 100000) (d := 128) reducesTo_S100000x128_S100000_d1 h_S_ bcast_S100000_S100000x1_0 bcast_S_S100000x1
          bcast_S100000x1_S100000x128_0_1 bcast_S128_S1x128_1 bcast_S1x128_S100000x128_0_1 y g b := by
  unfold lnG
  rfl

/-- The reference's exponential linear unit is the host spelling of it. -/
theorem eluG_eq (y : (⟨S100000x128, .f32⟩ : BufTy).Contents (Elt Ideal)) :
    eluG (F := Ideal) y = hElu (s := S100000x128) bcast_S_S100000x128 y := by
  unfold eluG
  rfl

/-- The reference's division by the row norm is the host spelling of it. -/
theorem l2G_eq (y : (⟨S100000x128, .f32⟩ : BufTy).Contents (Elt Ideal)) :
    l2G (F := Ideal) y
      = hL2 (n := 100000) (d := 128) reducesTo_S100000x128_S100000_d1 h_S_ bcast_S100000_S100000x1_0 bcast_S_S100000x1
          bcast_S100000x1_S100000x128_0_1 y := by
  unfold l2G
  rfl

/-- The normalised affine rows of a layer, at an entry: the specification's normalised row of node R. -/
theorem layerG_apply (M X : (⟨S100000x128, .f32⟩ : BufTy).Contents (Elt Ideal)) (Wl : (⟨S128x128, .f32⟩ : BufTy).Contents (Elt Ideal))
    (bl : (⟨S128, .f32⟩ : BufTy).Contents (Elt Ideal)) (Wr : (⟨S128x128, .f32⟩ : BufTy).Contents (Elt Ideal))
    (g b : (⟨S128, .f32⟩ : BufTy).Contents (Elt Ideal)) (R : Fin 100000) :
    (fun q : Fin 128 => lnG (F := Ideal) (linG (F := Ideal) M X Wl bl Wr) g b (ix2 R q))
      = Cert.Sage.normRow M X Wl Wr (row bl) (row g) (row b) R := by
  funext q
  rw [lnG_eq, linG_eq]
  refine (hLn_apply reducesTo_S100000x128_S100000_d1 h_S_ bcast_S100000_S100000x1_0 bcast_S_S100000x1
    bcast_S100000x1_S100000x128_0_1 bcast_S128_S1x128_1 bcast_S1x128_S100000x128_0_1 _ g b R q).trans ?_
  show Cert.Sage.lnRow (fun q : Fin 128 => g (ix1 q)) (fun q : Fin 128 => b (ix1 q))
      (fun q : Fin 128 => hLin (n := 100000) (K := 128) (d := 128) bcast_S128_S1x128_1 bcast_S1x128_S100000x128_0_1 M X Wl bl Wr (ix2 R q)) q
    = Cert.Sage.lnRow (fun q : Fin 128 => g (ix1 q)) (fun q : Fin 128 => b (ix1 q)) (Cert.Sage.linRow M X Wl Wr (row bl) R) q
  exact congrArg (fun hrow => Cert.Sage.lnRow (fun q : Fin 128 => g (ix1 q)) (fun q : Fin 128 => b (ix1 q)) hrow q)
    (hLin_row bcast_S128_S1x128_1 bcast_S1x128_S100000x128_0_1 M X Wl bl Wr R)

/-- A hidden layer of the reference is the specification's hidden layer of the neighbourhood mean and the features. -/
theorem eluLayer_eq (s d : (⟨S1600000, .i32⟩ : BufTy).Contents (Elt Ideal)) (h : (⟨S100000x128, .f32⟩ : BufTy).Contents (Elt Ideal))
    (Wl : (⟨S128x128, .f32⟩ : BufTy).Contents (Elt Ideal)) (bl : (⟨S128, .f32⟩ : BufTy).Contents (Elt Ideal))
    (Wr : (⟨S128x128, .f32⟩ : BufTy).Contents (Elt Ideal)) (g b : (⟨S128, .f32⟩ : BufTy).Contents (Elt Ideal)) :
    eluG (F := Ideal) (layerG (F := Ideal) s d h Wl bl Wr g b)
      = Cert.Sage.layerElu (aggG (F := Ideal) s d h) h Wl Wr (row bl) (row g) (row b) := by
  unfold layerG
  generalize aggG (F := Ideal) s d h = M
  rw [eluG_eq]
  funext i
  obtain ⟨R, j, rfl⟩ : ∃ (R : Fin 100000) (j : Fin 128), i = ix2 R j := ⟨i 0, i 1, eq_ix2 i⟩
  refine (hElu_apply bcast_S_S100000x128 _ (ix2 R j)).trans ?_
  exact congrArg Cert.Sage.elu (congrFun (layerG_apply M h Wl bl Wr g b R) j)

/-- The last layer of the reference is the specification's last layer of the neighbourhood mean and the features. -/
theorem l2Layer_eq (s d : (⟨S1600000, .i32⟩ : BufTy).Contents (Elt Ideal)) (h : (⟨S100000x128, .f32⟩ : BufTy).Contents (Elt Ideal))
    (Wl : (⟨S128x128, .f32⟩ : BufTy).Contents (Elt Ideal)) (bl : (⟨S128, .f32⟩ : BufTy).Contents (Elt Ideal))
    (Wr : (⟨S128x128, .f32⟩ : BufTy).Contents (Elt Ideal)) (g b : (⟨S128, .f32⟩ : BufTy).Contents (Elt Ideal)) :
    l2G (F := Ideal) (layerG (F := Ideal) s d h Wl bl Wr g b)
      = Cert.Sage.layerL2 (aggG (F := Ideal) s d h) h Wl Wr (row bl) (row g) (row b) := by
  unfold layerG
  generalize aggG (F := Ideal) s d h = M
  rw [l2G_eq]
  funext i
  obtain ⟨R, j, rfl⟩ : ∃ (R : Fin 100000) (j : Fin 128), i = ix2 R j := ⟨i 0, i 1, eq_ix2 i⟩
  refine (hL2_apply reducesTo_S100000x128_S100000_d1 h_S_ bcast_S100000_S100000x1_0 bcast_S_S100000x1
    bcast_S100000x1_S100000x128_0_1 _ R j).trans ?_
  exact congrArg (fun y => Cert.Sage.l2Row y j) (layerG_apply M h Wl bl Wr g b R)

end Cert.ReferenceIdeal.RefValue

end
-- ==== Proof.LibRecipScale.lean ====
/-
  The two places where the two programs spell one thing differently, at array level.

  The kernel's program multiplies the summed neighbour rows by the reciprocal of the clamped in-degree, the reference
  divides them by it: on the extended reals these agree for every divisor other than zero, and the larger of a count
  and one is never zero.  And a parameter vector laid out as a one-row matrix reads, at column j, the vector at j.
-/
import proofs.«112205_j9818295239157_1_alg».proof.Proof.LibSageNorm
import proofs.«112205_j9818295239157_1_alg».proof.Proof.LibRowRead
import proofs.«112205_j9818295239157_1_alg».proof.Proof.LibBiasRows
import Idealize.ShloMosaic.Lib.ValueIdx
import Idealize.ShloMosaic.Lib.Pipeline.Value

noncomputable section

namespace Cert.BridgeLib

open Idealize.ShloMosaic Idealize.ShloMosaic.ValueIdx

/-- A scalar broadcast to any shape reads the scalar everywhere. -/
theorem bcastScalar_apply {α : Type} {s : Shape} (h : (⟨0, ![]⟩ : Shape).BroadcastsInDim s ![]) (v : (⟨0, ![]⟩ : Shape).Idx → α) (i : s.Idx) :
    broadcastInDim s ![] h v i = v ix0 :=
  broadcastInDim_apply _ h v i ix0 fun ax => ax.elim0

/-- Rows scaled by the reciprocal of a count clamped below by one are the rows divided by the clamped count. -/
theorem scale_eq_div {n d : ℕ} (S : FVec Ideal ⟨2, ![n, d]⟩ .f32) (cnt one : FVec Ideal ⟨1, ![n]⟩ .f32)
    (hone : ∀ r : Fin n, one (ix1 r) = 1)
    (h1 : (⟨1, ![n]⟩ : Shape).BroadcastsInDim ⟨2, ![n, 1]⟩ ![0])
    (h2 : (⟨2, ![n, 1]⟩ : Shape).BroadcastsInDim ⟨2, ![n, d]⟩ ![0, 1]) :
    mulf (F := Ideal) S (broadcastInDim ⟨2, ![n, d]⟩ ![0, 1] h2 (broadcastInDim ⟨2, ![n, 1]⟩ ![0] h1
        (Host.divf (F := Ideal) one (maximumf (F := Ideal) cnt one))))
      = Host.divf (F := Ideal) S (broadcastInDim ⟨2, ![n, d]⟩ ![0, 1] h2 (broadcastInDim ⟨2, ![n, 1]⟩ ![0] h1
        (maximumf (F := Ideal) cnt one))) := by
  funext i
  obtain ⟨r, k, rfl⟩ : ∃ (r : Fin n) (k : Fin d), i = ix2 r k := ⟨i 0, i 1, eq_ix2 i⟩
  show S (ix2 r k) * broadcastInDim ⟨2, ![n, d]⟩ ![0, 1] h2 (broadcastInDim ⟨2, ![n, 1]⟩ ![0] h1
        (Host.divf (F := Ideal) one (maximumf (F := Ideal) cnt one))) (ix2 r k)
      = Ideal.div (S (ix2 r k)) (broadcastInDim ⟨2, ![n, d]⟩ ![0, 1] h2 (broadcastInDim ⟨2, ![n, 1]⟩ ![0] h1
        (maximumf (F := Ideal) cnt one)) (ix2 r k))
  rw [Cert.LibRowRead.bcastRow_apply, Cert.LibRowRead.bcastCol_apply, Cert.LibRowRead.bcastRow_apply, Cert.LibRowRead.bcastCol_apply]
  show S (ix2 r k) * Ideal.div (one (ix1 r)) (max (cnt (ix1 r)) (one (ix1 r))) = Ideal.div (S (ix2 r k)) (max (cnt (ix1 r)) (one (ix1 r)))
  rw [hone]
  exact Cert.Sage.mul_recip _ _ (Cert.Sage.max_one_ne_zero _)

/-- A vector laid out as a one-row matrix reads, at (0, j), the vector at j. -/
theorem row_apply {d : ℕ} (v : (⟨1, ![d]⟩ : Shape).Idx → EReal) (h : (⟨1, ![d]⟩ : Shape).ShapeCasts ⟨2, ![1, d]⟩)
    (i : (⟨2, ![1, d]⟩ : Shape).Idx) : shapeCast ⟨2, ![1, d]⟩ v h i = v (ix1 (i 1)) := by
  obtain ⟨u, j, rfl⟩ : ∃ (u : Fin 1) (j : Fin d), i = ix2 u j := ⟨i 0, i 1, eq_ix2 i⟩
  have hu : u = ⟨0, Nat.one_pos⟩ := Fin.ext (by have := u.isLt; omega)
  subst hu
  exact Cert.LibBiasRows.row_of_vector v h j

end Cert.BridgeLib

end
-- ==== Proof.Bridge.lean ====
/-
  The two programs compute one function of their arguments.

  Both apply three layers over one edge list.  In each layer the two programs agree on the summed neighbour rows and
  on the clamped in-degree (the same host operations), the kernel's program multiplies by the reciprocal column where the
  reference divides by the column, and the parameter vectors enter the kernel as one-row matrices; with those two
  spellings identified the layers are the same, and so are their compositions.
-/
import proofs.«112205_j9818295239157_1_alg».proof.Proof.KChain
import proofs.«112205_j9818295239157_1_alg».proof.Proof.RefDefs
import proofs.«112205_j9818295239157_1_alg».proof.Proof.RefLayer
import proofs.«112205_j9818295239157_1_alg».proof.Proof.LibRecipScale
import proofs.«112205_j9818295239157_1_alg».proof.Proof.Gen.ReferenceIdeal

set_option maxRecDepth 16384

noncomputable section

namespace Cert.Bridge

open Idealize.ShloMosaic Idealize.ShloMosaic.ValueIdx
open Cert.KernelIdeal.KHost Cert.ReferenceIdeal.RefValue

/-- The word of 1.0 broadcast to a vector reads 1 everywhere. -/
theorem ones_apply (r : Fin 100000) :
    broadcastInDim Cert.KernelIdeal.S100000 ![] Cert.KernelIdeal.Facts₀.bcast_S_S100000 (constant (F := Ideal) Cert.KernelIdeal.S_ .f32 1065353216#32) (ix1 r) = 1 := by
  rw [Cert.BridgeLib.bcastScalar_apply]
  exact Cert.Sage.word_one

/-- The mean as the kernel's program spells it is the mean as the reference spells it. -/
theorem agg_eq (ei : (⟨Cert.KernelIdeal.S2x1600000, .i32⟩ : BufTy).Contents (Elt Ideal)) (h : FVec Ideal Cert.KernelIdeal.S100000x128 .f32) :
    agg (srcOf ei) (dstOf ei) (invOf (dstOf ei)) h = aggG (F := Ideal) (srcG ei) (dstG ei) h := by
  unfold agg invOf degOf
  exact Cert.BridgeLib.scale_eq_div (sumOf (srcOf ei) (dstOf ei) h) _ _ ones_apply _ _

/-- A parameter vector laid out as a row reads the vector at the column. -/
theorem rowOf_eq (v : FVec Ideal Cert.KernelIdeal.S128 .f32) : rowOf v = row v :=
  funext fun i => Cert.BridgeLib.row_apply v _ i

/-- A hidden layer in the kernel's spelling is the reference's. -/
theorem layerElu_eq (ei : (⟨Cert.KernelIdeal.S2x1600000, .i32⟩ : BufTy).Contents (Elt Ideal)) (h : FVec Ideal Cert.KernelIdeal.S100000x128 .f32)
    (Wl : FVec Ideal Cert.KernelIdeal.S128x128 .f32) (bl : FVec Ideal Cert.KernelIdeal.S128 .f32) (Wr : FVec Ideal Cert.KernelIdeal.S128x128 .f32) (g b : FVec Ideal Cert.KernelIdeal.S128 .f32) :
    Cert.Sage.layerElu (agg (srcOf ei) (dstOf ei) (invOf (dstOf ei)) h) h Wl Wr (rowOf bl) (rowOf g) (rowOf b)
      = eluG (F := Ideal) (layerG (F := Ideal) (srcG ei) (dstG ei) h Wl bl Wr g b) := by
  rw [agg_eq, rowOf_eq, rowOf_eq, rowOf_eq, eluLayer_eq]

/-- The last layer likewise. -/
theorem layerL2_eq (ei : (⟨Cert.KernelIdeal.S2x1600000, .i32⟩ : BufTy).Contents (Elt Ideal)) (h : FVec Ideal Cert.KernelIdeal.S100000x128 .f32)
    (Wl : FVec Ideal Cert.KernelIdeal.S128x128 .f32) (bl : FVec Ideal Cert.KernelIdeal.S128 .f32) (Wr : FVec Ideal Cert.KernelIdeal.S128x128 .f32) (g b : FVec Ideal Cert.KernelIdeal.S128 .f32) :
    Cert.Sage.layerL2 (agg (srcOf ei) (dstOf ei) (invOf (dstOf ei)) h) h Wl Wr (rowOf bl) (rowOf g) (rowOf b)
      = l2G (F := Ideal) (layerG (F := Ideal) (srcG ei) (dstG ei) h Wl bl Wr g b) := by
  rw [agg_eq, rowOf_eq, rowOf_eq, rowOf_eq, l2Layer_eq]

/-- The three layers composed: the kernel's network is the reference's. -/
theorem net_eq (x : FVec Ideal Cert.KernelIdeal.S100000x128 .f32) (ei : (⟨Cert.KernelIdeal.S2x1600000, .i32⟩ : BufTy).Contents (Elt Ideal)) (Wl0 : FVec Ideal Cert.KernelIdeal.S128x128 .f32) (bl0 : FVec Ideal Cert.KernelIdeal.S128 .f32) (Wr0 : FVec Ideal Cert.KernelIdeal.S128x128 .f32) (g0 : FVec Ideal Cert.KernelIdeal.S128 .f32) (b0 : FVec Ideal Cert.KernelIdeal.S128 .f32) (Wl1 : FVec Ideal Cert.KernelIdeal.S128x128 .f32) (bl1 : FVec Ideal Cert.KernelIdeal.S128 .f32) (Wr1 : FVec Ideal Cert.KernelIdeal.S128x128 .f32) (g1 : FVec Ideal Cert.KernelIdeal.S128 .f32) (b1 : FVec Ideal Cert.KernelIdeal.S128 .f32) (Wl2 : FVec Ideal Cert.KernelIdeal.S128x128 .f32) (bl2 : FVec Ideal Cert.KernelIdeal.S128 .f32) (Wr2 : FVec Ideal Cert.KernelIdeal.S128x128 .f32) (g2 : FVec Ideal Cert.KernelIdeal.S128 .f32) (b2 : FVec Ideal Cert.KernelIdeal.S128 .f32) :
    Cert.KernelIdeal.KChain.netK x ei Wl0 bl0 Wr0 g0 b0 Wl1 bl1 Wr1 g1 b1 Wl2 bl2 Wr2 g2 b2 = netG (F := Ideal) x ei Wl0 bl0 Wr0 g0 b0 Wl1 bl1 Wr1 g1 b1 Wl2 bl2 Wr2 g2 b2 := by
  unfold Cert.KernelIdeal.KChain.netK netG h2G h1G
  simp only []
  rw [layerElu_eq, layerElu_eq, layerL2_eq]

end Cert.Bridge

end
-- ==== Proof.lean ====
/-
  The certificate of a three-layer graph convolution with mean aggregation: a kernel that runs each layer's dense part
  (two matrix products, row normalisation, activation) block by block on the vector unit, with the gather along the
  edges and the sum into destination rows left to host operations, against a reference that computes everything with
  host operations.

  The two kernels' frames are the generated ones; the reference's frame is its run with the result dropped.  The
  idealization rewrote nothing.  The value claim holds on all of the extended reals, with no use of the finiteness of the
  inputs: each layer of the kernel, read at an entry, is the reference's layer up to the order of two additions, a
  leading zero in each row sum, the spelling of eˣ − 1, and multiplying by the reciprocal of the clamped in-degree
  instead of dividing by it — and the larger of a count and one is never zero.
-/
import proofs.«112205_j9818295239157_1_alg».proof.Defs
import proofs.«112205_j9818295239157_1_alg».proof.Proof.Gen.Kernel
import proofs.«112205_j9818295239157_1_alg».proof.Proof.Gen.Kernel.Frame
import proofs.«112205_j9818295239157_1_alg».proof.Proof.Gen.KernelIdeal
import proofs.«112205_j9818295239157_1_alg».proof.Proof.Gen.KernelIdeal.Frame
import proofs.«112205_j9818295239157_1_alg».proof.Proof.Gen.ReferenceIdeal
import proofs.«112205_j9818295239157_1_alg».proof.Proof.Gen.Pre_finite_inputs
import proofs.«112205_j9818295239157_1_alg».proof.Proof.KChain
import proofs.«112205_j9818295239157_1_alg».proof.Proof.KPay0
import proofs.«112205_j9818295239157_1_alg».proof.Proof.KPay1
import proofs.«112205_j9818295239157_1_alg».proof.Proof.KPay2
import proofs.«112205_j9818295239157_1_alg».proof.Proof.RefRun
import proofs.«112205_j9818295239157_1_alg».proof.Proof.Bridge
import Idealize.ShloMosaic.Adequacy
import Idealize.ShloMosaic.Init

set_option maxRecDepth 16384

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.RefValue.runG (F := Ideal) m ρ)

/-- The idealization rewrote no operation. -/
theorem preserves : Cert.preserves_Kernel_KernelIdeal := trivial

/-- From memories that agree on the arguments both programs end with the same three nested layers in their result
    buffers: the kernel's by reading its three regions and the host operations between them, the reference's by
    reading its host operations, and the two arrangements are one function of the arguments. -/
theorem algebraic : Cert.algebraic_KernelIdeal_ReferenceIdeal := by
  intro m ρ m' ρ' _ hagree
  refine ⟨fun c => Cert.KernelIdeal.KChain.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    Cert.KernelIdeal.KChain.run m ρ Cert.KernelIdeal.Pay.out0_7_eq Cert.KernelIdeal.Pay.out1_7_eq Cert.KernelIdeal.Pay.out2_7_eq, ?_⟩
  refine (θ_run Cert.ReferenceIdeal.defs _ _).mono (fun _ h c => ⟨(h c).1.trans ?_, (h c).2⟩)
    (Cert.ReferenceIdeal.RefValue.runG (F := Ideal) m' ρ')
  obtain ⟨a0, a1, a2, a3, a4, a5, a6, a7, a8, a9, a10, a11, a12, a13, a14, a15, a16⟩ := hagree c
  rw [a0, a1, a2, a3, a4, a5, a6, a7, a8, a9, a10, a11, a12, a13, a14, a15, a16]
  exact (Cert.Bridge.net_eq _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
